-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S2x64x64 : S_.BroadcastsInDim S2x64x64 (![] : Fin 0 → Fin S2x64x64.rank)
  reducesTo_S2x64x64_S_d0_1_2 : S2x64x64.ReducesTo [0, 1, 2] S_
  bcast_S_S2x64 : S_.BroadcastsInDim S2x64 (![] : Fin 0 → Fin S2x64.rank)
  reducesTo_S2x64_S_d0_1 : S2x64.ReducesTo [0, 1] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S2x64 .f32) (main_arg6 : FVec F S64x16 .f32) (main_arg7 : FVec F S16 .f32) (main_v13 : IVec S_ 1) (main_v16 : IVec S2x64x64 1) : IVec S_ 1 :=
  let main_c_5 : IVec S_ 1 := constantI S_ 1 1#1
  let main_v17 : IVec S_ 1 := (fun x v => Host.reduce IntOp.andi x v reducesTo_S2x64x64_S_d0_1_2 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64x16 .f32 := Host.absf main_arg6
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S2x64x64 .f32) (main_arg5 : FVec F S2x64 .f32) (main_arg6 : FVec F S64x16 .f32) (main_arg7 : FVec F S16 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S2x64x64 .f32 := Host.absf main_arg4
  let main_cst_4 : FVec F S_ .f32 := constant S_ .f32 0x7F800000#32
  let main_v15 : FVec F S2x64x64 .f32 := broadcastInDim S2x64x64 ![] bcast_S_S2x64x64 main_cst_4
  let main_v16 : IVec S2x64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S10000x64 : Shape := ⟨2, ![10000, 64]⟩
abbrev S10000x1 : Shape := ⟨2, ![10000, 1]⟩
abbrev S1700000x64 : Shape := ⟨2, ![1700000, 64]⟩
abbrev S1x64 : Shape := ⟨2, ![1, 64]⟩
abbrev S1x64x64 : Shape := ⟨3, ![1, 64, 64]⟩
abbrev S100000x16 : Shape := ⟨2, ![100000, 16]⟩
abbrev S10000x16 : Shape := ⟨2, ![10000, 16]⟩
abbrev S1700000x16 : Shape := ⟨2, ![1700000, 16]⟩
abbrev S1x16 : Shape := ⟨2, ![1, 16]⟩

abbrev nBuf : Space → Nat
  | .hbm => 117
  | .vmem => 55
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S2x64x64, .f32⟩
  | .hbm, ⟨5, _⟩ => ⟨S2x64, .f32⟩
  | .hbm, ⟨6, _⟩ => ⟨S64x16, .f32⟩
  | .hbm, ⟨7, _⟩ => ⟨S16, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S1700000x1, .f32⟩
  | .hbm, ⟨43, _⟩ => ⟨S100000x64, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x64, .f32⟩
  | .hbm, ⟨53, _⟩ => ⟨S1700000x64, .f32⟩
  | .hbm, ⟨54, _⟩ => ⟨S_, .f32⟩
  | .hbm, ⟨55, _⟩ => ⟨S100000x64, .f32⟩
  | .hbm, ⟨56, _⟩ => ⟨S1700000x1, .i32⟩
  | .hbm, ⟨57, _⟩ => ⟨S100000x64, .f32⟩
  | .hbm, ⟨58, _⟩ => ⟨S1x64, .f32⟩
  | .hbm, ⟨59, _⟩ => ⟨S1x64x64, .f32⟩
  | .hbm, ⟨60, _⟩ => ⟨S64x64, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S64, .f32⟩
  | .hbm, ⟨78, _⟩ => ⟨S1x64, .f32⟩
  | .hbm, ⟨79, _⟩ => ⟨S1x64x64, .f32⟩
  | .hbm, ⟨80, _⟩ => ⟨S64x64, .f32⟩
  | .hbm, ⟨81, _⟩ => ⟨S100000x64, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x64, .f32⟩
  | .hbm, ⟨91, _⟩ => ⟨S1700000x64, .f32⟩
  | .hbm, ⟨92, _⟩ => ⟨S_, .f32⟩
  | .hbm, ⟨93, _⟩ => ⟨S100000x64, .f32⟩
  | .hbm, ⟨94, _⟩ => ⟨S1700000x1, .i32⟩
  | .hbm, ⟨95, _⟩ => ⟨S100000x64, .f32⟩
  | .hbm, ⟨96, _⟩ => ⟨S1x64, .f32⟩
  | .hbm, ⟨97, _⟩ => ⟨S64, .f32⟩
  | .hbm, ⟨98, _⟩ => ⟨S1x64, .f32⟩
  | .hbm, ⟨99, _⟩ => ⟨S100000x16, .f32⟩
  | .hbm, ⟨100, _⟩ => ⟨S_, .i32⟩
  | .hbm, ⟨101, _⟩ => ⟨S1700000, .i32⟩
  | .hbm, ⟨102, _⟩ => ⟨S1700000, .i1⟩
  | .hbm, ⟨103, _⟩ => ⟨S_, .i32⟩
  | .hbm, ⟨104, _⟩ => ⟨S1700000, .i32⟩
  | .hbm, ⟨105, _⟩ => ⟨S1700000, .i32⟩
  | .hbm, ⟨106, _⟩ => ⟨S1700000, .i32⟩
  | .hbm, ⟨107, _⟩ => ⟨S1700000x1, .i32⟩
  | .hbm, ⟨108, _⟩ => ⟨S1700000x16, .f32⟩
  | .hbm, ⟨109, _⟩ => ⟨S1700000x16, .f32⟩
  | .hbm, ⟨110, _⟩ => ⟨S_, .f32⟩
  | .hbm, ⟨111, _⟩ => ⟨S100000x16, .f32⟩
  | .hbm, ⟨112, _⟩ => ⟨S1700000x1, .i32⟩
  | .hbm, ⟨113, _⟩ => ⟨S100000x16, .f32⟩
  | .hbm, ⟨114, _⟩ => ⟨S1x16, .f32⟩
  | .hbm, ⟨115, _⟩ => ⟨S100000x16, .f32⟩
  | .hbm, ⟨116, _⟩ => ⟨S100000x16, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S1x64, .f32⟩
  | .local _ .vmem, ⟨16, _⟩ => ⟨S64x64, .f32⟩
  | .local _ .vmem, ⟨17, _⟩ => ⟨S10000x1, .f32⟩
  | .local _ .vmem, ⟨18, _⟩ => ⟨S10000x1, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x1, .f32⟩
  | .local _ .vmem, ⟨24, _⟩ => ⟨S10000x1, .f32⟩
  | .local _ .vmem, ⟨25, _⟩ => ⟨S10000x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S1x64, .f32⟩
  | .local _ .vmem, ⟨30, _⟩ => ⟨S64x64, .f32⟩
  | .local _ .vmem, ⟨31, _⟩ => ⟨S10000x1, .f32⟩
  | .local _ .vmem, ⟨32, _⟩ => ⟨S10000x1, .f32⟩
  | .local _ .vmem, ⟨33, _⟩ => ⟨S10000x64, .f32⟩
  | .local _ .vmem, ⟨34, _⟩ => ⟨S10000x64, .f32⟩
  | .local _ .vmem, ⟨35, _⟩ => ⟨S10000x64, .f32⟩
  | .local _ .vmem, ⟨36, _⟩ => ⟨S10000x64, .f32⟩
  | .local _ .vmem, ⟨37, _⟩ => ⟨S10000x1, .f32⟩
  | .local _ .vmem, ⟨38, _⟩ => ⟨S10000x1, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S1x64, .f32⟩
  | .local _ .vmem, ⟨44, _⟩ => ⟨S64x16, .f32⟩
  | .local _ .vmem, ⟨45, _⟩ => ⟨S10000x1, .f32⟩
  | .local _ .vmem, ⟨46, _⟩ => ⟨S10000x1, .f32⟩
  | .local _ .vmem, ⟨47, _⟩ => ⟨S10000x16, .f32⟩
  | .local _ .vmem, ⟨48, _⟩ => ⟨S10000x16, .f32⟩
  | .local _ .vmem, ⟨49, _⟩ => ⟨S10000x16, .f32⟩
  | .local _ .vmem, ⟨50, _⟩ => ⟨S10000x16, .f32⟩
  | .local _ .vmem, ⟨51, _⟩ => ⟨S10000x1, .f32⟩
  | .local _ .vmem, ⟨52, _⟩ => ⟨S10000x1, .f32⟩
  | .local _ .vmem, ⟨53, _⟩ => ⟨S10000x16, .f32⟩
  | .local _ .vmem, ⟨54, _⟩ => ⟨S10000x16, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_c_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_14 : Ref sig .tc := ⟨.hbm, 100, rfl⟩
abbrev main_v74 : Ref sig .tc := ⟨.hbm, 101, rfl⟩
abbrev main_v75 : Ref sig .tc := ⟨.hbm, 102, rfl⟩
abbrev main_c_15 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_16 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg2_0 : Ref sig .tc := ⟨.vmem, 30, rfl⟩
abbrev cc4_stg3_0 : Ref sig .tc := ⟨.vmem, 31, rfl⟩
abbrev cc4_stg3_1 : Ref sig .tc := ⟨.vmem, 32, rfl⟩
abbrev cc4_stg4_0 : Ref sig .tc := ⟨.vmem, 33, rfl⟩
abbrev cc4_stg4_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg2_1 : Ref sig .tc := ⟨.vmem, 40, rfl⟩
abbrev cc6_stg0_0 : Ref sig .tc := ⟨.vmem, 41, rfl⟩
abbrev cc6_stg0_1 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg3_1 : Ref sig .tc := ⟨.vmem, 46, rfl⟩
abbrev cc6_stg4_0 : Ref sig .tc := ⟨.vmem, 47, rfl⟩
abbrev cc6_stg4_1 : Ref sig .tc := ⟨.vmem, 48, rfl⟩
abbrev cc7_stg0_0 : Ref sig .tc := ⟨.vmem, 49, rfl⟩
abbrev cc7_stg0_1 : Ref sig .tc := ⟨.vmem, 50, rfl⟩
abbrev cc7_stg1_0 : Ref sig .tc := ⟨.vmem, 51, rfl⟩
abbrev cc7_stg1_1 : Ref sig .tc := ⟨.vmem, 52, rfl⟩
abbrev cc7_stg2_0 : Ref sig .tc := ⟨.vmem, 53, rfl⟩
abbrev cc7_stg2_1 : Ref sig .tc := ⟨.vmem, 54, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc2_sem4_0 : DmaSem sig := 19
abbrev cc2_sem4_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc4_sem0_0 : DmaSem sig := 27
abbrev cc4_sem0_1 : DmaSem sig := 28
abbrev cc4_sem1_0 : DmaSem sig := 29
abbrev cc4_sem2_0 : DmaSem sig := 30
abbrev cc4_sem3_0 : DmaSem sig := 31
abbrev cc4_sem3_1 : DmaSem sig := 32
abbrev cc4_sem4_0 : DmaSem sig := 33
abbrev cc4_sem4_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem2_1 : DmaSem sig := 40
abbrev cc6_sem0_0 : DmaSem sig := 41
abbrev cc6_sem0_1 : DmaSem sig := 42
abbrev cc6_sem1_0 : DmaSem sig := 43
abbrev cc6_sem2_0 : DmaSem sig := 44
abbrev cc6_sem3_0 : DmaSem sig := 45
abbrev cc6_sem3_1 : DmaSem sig := 46
abbrev cc6_sem4_0 : DmaSem sig := 47
abbrev cc6_sem4_1 : DmaSem sig := 48
abbrev cc7_sem0_0 : DmaSem sig := 49
abbrev cc7_sem0_1 : DmaSem sig := 50
abbrev cc7_sem1_0 : DmaSem sig := 51
abbrev cc7_sem1_1 : DmaSem sig := 52
abbrev cc7_sem2_0 : DmaSem sig := 53
abbrev cc7_sem2_1 : DmaSem sig := 54

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![170], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![170], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S10000x16 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![170], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S10000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S10000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  shapeCasts_S1700000_S1700000x1 : S1700000.ShapeCasts S1700000x1
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  shapeCasts_S10000x64_S10000x64 : S10000x64.ShapeCasts S10000x64
  bcast_S_S100000x64 : S_.BroadcastsInDim S100000x64 (![] : Fin 0 → Fin S100000x64.rank)
  shapeCasts_S64_S1x64 : S64.ShapeCasts S1x64
  slices_S2x64x64_S1x64x64_0_0_0 : S2x64x64.Slices ![0, 0, 0] S1x64x64
  shapeCasts_S1x64x64_S64x64 : S1x64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S64x64_S64x64 : S64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  inb_S64x16_S64x16_0_0 : ∀ a, (![0, 0] : Fin 2 → Nat) a + S64x16.size a ≤ S64x16.size a
  h_S64x16 : 0 < S64x16.numel
  broadcasts_S10000x1_S10000x16 : S10000x1.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x16_S10000x16_1_0_0_1_n_n_wf : DotDims.WF S10000x64 S64x16 S10000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1700000x64.size a
  hwx1_0 : ∀ i : grid1.Coords, EltTy.bits .f32 = 32 ∨ (Rect.block (s := S1700000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S1700000x64.size a
  hwx1_2 : ∀ i : grid1.Coords, EltTy.bits .f32 = 32 ∨ (Rect.block (s := S1700000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x1.size a ≤ S100000x1.size a
  hwx2_3 : ∀ i : grid2.Coords, EltTy.bits .f32 = 32 ∨ (Rect.block (s := S100000x1) S10000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S1700000x64.size a
  hwx3_0 : ∀ i : grid3.Coords, EltTy.bits .f32 = 32 ∨ (Rect.block (s := S1700000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S1700000x1.size a
  hwx3_1 : ∀ i : grid3.Coords, EltTy.bits .f32 = 32 ∨ (Rect.block (s := S1700000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S1700000x64.size a
  hwx3_2 : ∀ i : grid3.Coords, EltTy.bits .f32 = 32 ∨ (Rect.block (s := S1700000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x1.size a ≤ S100000x1.size a
  hwx4_3 : ∀ i : grid4.Coords, EltTy.bits .f32 = 32 ∨ (Rect.block (s := S100000x1) S10000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x64.size a ≤ S100000x64.size a
  hwx4_4 : ∀ i : grid4.Coords, EltTy.bits .f32 = 32 ∨ (Rect.block (s := S100000x64) S10000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S1700000x64.size a
  hwx5_0 : ∀ i : grid5.Coords, EltTy.bits .f32 = 32 ∨ (Rect.block (s := S1700000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S1700000x1.size a
  hwx5_1 : ∀ i : grid5.Coords, EltTy.bits .f32 = 32 ∨ (Rect.block (s := S1700000x1) S10000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S1700000x64.size a
  hwx5_2 : ∀ i : grid5.Coords, EltTy.bits .f32 = 32 ∨ (Rect.block (s := S1700000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x64.size a ≤ S1x64.size a
  hwx6_1 : ∀ i : grid6.Coords, EltTy.bits .f32 = 32 ∨ (Rect.block (s := S1x64) S1x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x16.size a ≤ S64x16.size a
  hwx6_2 : ∀ i : grid6.Coords, EltTy.bits .f32 = 32 ∨ (Rect.block (s := S64x16) S64x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x1.size a ≤ S100000x1.size a
  hwx6_3 : ∀ i : grid6.Coords, EltTy.bits .f32 = 32 ∨ (Rect.block (s := S100000x1) S10000x1.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x16.size a ≤ S100000x16.size a
  hwx6_4 : ∀ i : grid6.Coords, EltTy.bits .f32 = 32 ∨ (Rect.block (s := S100000x16) S10000x16.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x16.size a ≤ S1700000x16.size a
  hwx7_0 : ∀ i : grid7.Coords, EltTy.bits .f32 = 32 ∨ (Rect.block (s := S1700000x16) S10000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S10000x1.size a ≤ S1700000x1.size a
  hwx7_1 : ∀ i : grid7.Coords, EltTy.bits .f32 = 32 ∨ (Rect.block (s := S1700000x1) S10000x1.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x16.size a ≤ S1700000x16.size a
  hwx7_2 : ∀ i : grid7.Coords, EltTy.bits .f32 = 32 ∨ (Rect.block (s := S1700000x16) S10000x16.size (cc7_transform_2 i) (hinb7_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v37) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v40) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v17) S10000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41) S10000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v48) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v17) S10000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v58) S10000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v65) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v25) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v66) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v69) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v72) S1x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg6) S64x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v17) S10000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_v73) S10000x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v80) S10000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v25) S10000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v81) S10000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S2x64x64 : Shape := ⟨3, ![2, 64, 64]⟩
abbrev S2x64 : Shape := ⟨2, ![2, 64]⟩
abbrev S64x16 : Shape := ⟨2, ![64, 16]⟩
abbrev S16 : Shape := ⟨1, ![16]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S1x64x64 : Shape := ⟨3, ![1, 64, 64]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 205
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S2x64x64, .f32⟩
  | 5 => ⟨S2x64, .f32⟩
  | 6 => ⟨S64x16, .f32⟩
  | 7 => ⟨S16, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S100000x64, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x64, .f32⟩
  | 61 => ⟨S1700000x1, .f32⟩
  | 62 => ⟨S1700000x64, .f32⟩
  | 63 => ⟨S1700000x64, .f32⟩
  | 64 => ⟨S_, .f32⟩
  | 65 => ⟨S100000x64, .f32⟩
  | 66 => ⟨S1700000x1, .i32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x64x64, .f32⟩
  | 75 => ⟨S64x64, .f32⟩
  | 76 => ⟨S1x64, .f32⟩
  | 77 => ⟨S64, .f32⟩
  | 78 => ⟨S100000x64, .f32⟩
  | 79 => ⟨S_, .i32⟩
  | 80 => ⟨S1700000, .i32⟩
  | 81 => ⟨S1700000, .i1⟩
  | 82 => ⟨S_, .i32⟩
  | 83 => ⟨S1700000, .i32⟩
  | 84 => ⟨S1700000, .i32⟩
  | 85 => ⟨S1700000, .i32⟩
  | 86 => ⟨S1700000x1, .i32⟩
  | 87 => ⟨S1700000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x1, .f32⟩
  | 108 => ⟨S1700000x64, .f32⟩
  | 109 => ⟨S1700000x64, .f32⟩
  | 110 => ⟨S_, .f32⟩
  | 111 => ⟨S100000x64, .f32⟩
  | 112 => ⟨S1700000x1, .i32⟩
  | 113 => ⟨S100000x64, .f32⟩
  | 114 => ⟨S1x64, .f32⟩
  | 115 => ⟨S100000x64, .f32⟩
  | 116 => ⟨S100000x64, .f32⟩
  | 117 => ⟨S_, .f32⟩
  | 118 => ⟨S100000x64, .f32⟩
  | 119 => ⟨S100000x64, .f32⟩
  | 120 => ⟨S1x64x64, .f32⟩
  | 121 => ⟨S64x64, .f32⟩
  | 122 => ⟨S1x64, .f32⟩
  | 123 => ⟨S64, .f32⟩
  | 124 => ⟨S100000x64, .f32⟩
  | 125 => ⟨S_, .i32⟩
  | 126 => ⟨S1700000, .i32⟩
  | 127 => ⟨S1700000, .i1⟩
  | _ => ⟨S100000x64, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000, .f32⟩
  | 6 => ⟨S_, .i32⟩
  | 7 => ⟨S1700000, .i32⟩
  | 8 => ⟨S1700000, .i1⟩
  | 9 => ⟨S_, .i32⟩
  | 10 => ⟨S1700000, .i32⟩
  | 11 => ⟨S1700000, .i32⟩
  | 12 => ⟨S1700000, .i32⟩
  | 13 => ⟨S1700000x1, .i32⟩
  | 14 => ⟨S1700000, .f32⟩
  | 15 => ⟨S1700000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S1700000x64, .f32⟩
  | 25 => ⟨S1700000x1, .f32⟩
  | 26 => ⟨S1700000x64, .f32⟩
  | 27 => ⟨S1700000x64, .f32⟩
  | 28 => ⟨S_, .f32⟩
  | 29 => ⟨S100000x64, .f32⟩
  | 30 => ⟨S1700000x1, .i32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x16, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S_, .i32⟩
  | 59 => ⟨S1700000, .i32⟩
  | 60 => ⟨S1700000, .i1⟩
  | 61 => ⟨S_, .i32⟩
  | 62 => ⟨S1700000, .i32⟩
  | 63 => ⟨S1700000, .i32⟩
  | 64 => ⟨S1700000, .i32⟩
  | 65 => ⟨S1700000x1, .i32⟩
  | 66 => ⟨S1700000x16, .f32⟩
  | 67 => ⟨S1700000x1, .f32⟩
  | 68 => ⟨S1700000x16, .f32⟩
  | 69 => ⟨S1700000x16, .f32⟩
  | 70 => ⟨S_, .f32⟩
  | 71 => ⟨S100000x16, .f32⟩
  | 72 => ⟨S1700000x1, .i32⟩
  | 73 => ⟨S100000x16, .f32⟩
  | 74 => ⟨S1x16, .f32⟩
  | 75 => ⟨S100000x16, .f32⟩
  | 76 => ⟨S100000x16, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_c_12 : Ref sig .tc := ⟨.hbm, 88, rfl⟩
abbrev main_v62 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_14 : Ref sig .tc := ⟨.hbm, 98, rfl⟩
abbrev main_v70 : Ref sig .tc := ⟨.hbm, 99, rfl⟩
abbrev main_v71 : Ref sig .tc := ⟨.hbm, 100, rfl⟩
abbrev main_c_15 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_16 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_call2_cst : Ref sig .tc := ⟨.hbm, 117, rfl⟩
abbrev main_call2_v0 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_17 : Ref sig .tc := ⟨.hbm, 125, rfl⟩
abbrev main_v92 : Ref sig .tc := ⟨.hbm, 126, rfl⟩
abbrev main_v93 : Ref sig .tc := ⟨.hbm, 127, rfl⟩
abbrev main_c_18 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_19 : Ref sig .tc := ⟨.hbm, 134, rfl⟩
abbrev main_v99 : Ref sig .tc := ⟨.hbm, 135, rfl⟩
abbrev main_v100 : Ref sig .tc := ⟨.hbm, 136, rfl⟩
abbrev main_c_20 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_21 : Ref sig .tc := ⟨.hbm, 144, rfl⟩
abbrev main_v107 : Ref sig .tc := ⟨.hbm, 145, rfl⟩
abbrev main_v108 : Ref sig .tc := ⟨.hbm, 146, rfl⟩
abbrev main_c_22 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_23 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_call3_cst : Ref sig .tc := ⟨.hbm, 163, rfl⟩
abbrev main_call3_v0 : Ref sig .tc := ⟨.hbm, 164, rfl⟩
abbrev main_v123 : Ref sig .tc := ⟨.hbm, 165, rfl⟩
abbrev main_v124 : Ref sig .tc := ⟨.hbm, 166, rfl⟩
abbrev main_c_24 : Ref sig .tc := ⟨.hbm, 167, rfl⟩
abbrev main_v125 : Ref sig .tc := ⟨.hbm, 168, rfl⟩
abbrev main_v126 : Ref sig .tc := ⟨.hbm, 169, rfl⟩
abbrev main_c_25 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_c_26 : Ref sig .tc := ⟨.hbm, 176, rfl⟩
abbrev main_v132 : Ref sig .tc := ⟨.hbm, 177, rfl⟩
abbrev main_v133 : Ref sig .tc := ⟨.hbm, 178, rfl⟩
abbrev main_c_27 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_28 : Ref sig .tc := ⟨.hbm, 186, rfl⟩
abbrev main_v140 : Ref sig .tc := ⟨.hbm, 187, rfl⟩
abbrev main_v141 : Ref sig .tc := ⟨.hbm, 188, rfl⟩
abbrev main_c_29 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_cst_30 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x64x64_S1x64x64_0_0_0 : S2x64x64.Slices ![0, 0, 0] S1x64x64
  shapeCasts_S1x64x64_S64x64 : S1x64x64.ShapeCasts S64x64
  slices_S2x64_S1x64_0_0 : S2x64.Slices ![0, 0] S1x64
  shapeCasts_S1x64_S64 : S1x64.ShapeCasts S64
  slices_S2x64x64_S1x64x64_1_0_0 : S2x64x64.Slices ![1, 0, 0] S1x64x64
  slices_S2x64_S1x64_1_0 : S2x64.Slices ![1, 0] S1x64
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  dot_S100000x64_S64x64_S100000x64_1_0_0_1_n_n_wf : DotDims.WF S100000x64 S64x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x16_S100000x16_1_0_0_1_n_n_wf : DotDims.WF S100000x64 S64x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result kept: every weakly fair execution of the program ends, nothing faulting, with
  the result buffer holding what the last boundary of the program's fold holds there (`Gen.W19`: the launch memory taken
  through the nine stretches of host operations and the eight regions in order), and the argument arrays as launched.
  The launch over the program's segments is the one the frame takes; here the last thread state is read at the result
  buffer too.
-/
import proofs.«174299_j5360119186060_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the last boundary's contents and the arguments unchanged. -/
theorem run_result : θ_run defs (onTc (τ := τ) (main (F := F))) ⟨m, fun _ => 0, ρ⟩ (fun r => ∀ c : Dev nD,
      r.2.mem ((c.tc : Thread nD τ).loc main_v87) = W19 m ρ c (Proc.devRef .tc main_v87)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v87 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c)⟩)

end Cert.KernelIdeal.KRun

end
-- ==== Proof.GcnSpec.lean ====
/-
  The closed forms of this certificate's five kernel shapes, as whole-array functions over the extended reals.

  The network is four graph-convolution layers over 100000 nodes and 1700000 edges (the given ones and one self loop per
  node). With `dis` the per-node inverse square root of the degree, a layer sends along every edge `e` from `s` to `d` the
  row `(X · W)[s] · dis[s] · dis[d]` and adds up, per node, the rows arriving there. The kernel computes the product with
  `dis[s]` once per node, fused into the matrix product (`mmScale`, and from the second layer on `biasReluMmScale…`, which
  first adds the previous layer's bias and clamps at zero), and the product with `dis[d]` once per edge (`scaleRows…`).
  A change of float format is the identity at this instance, so the products taken through a narrower format are plain sums.
-/
import proofs.«174299_j5360119186060_2_alg».proof.KernelIdeal
import Idealize.ShloMosaic.PureOps.Ideal
import Idealize.ShloMosaic.Lib.ValueIdx

noncomputable section

open scoped BigOperators

namespace Cert.KernelIdeal.GcnSpec

open Idealize.ShloMosaic Idealize.ShloMosaic.ValueIdx Cert.KernelIdeal

/-- The row of an index of a two-axis array, as a number below the literal row count. -/
abbrev row {n0 n1 : Nat} (i : (⟨2, ![n0, n1]⟩ : Shape).Idx) : Fin n0 := ⟨(i 0).val, idx2_lt0 i⟩
/-- The column of an index of a two-axis array, as a number below the literal column count. -/
abbrev col {n0 n1 : Nat} (i : (⟨2, ![n0, n1]⟩ : Shape).Idx) : Fin n1 := ⟨(i 1).val, idx2_lt1 i⟩

/-- Every row of a 64-column edge array times that row's one scale: `out[e, f] = g[e, f] · s[e, 0]`. -/
def scaleRows64 (g : FVec Ideal S1700000x64 .f32) (s : FVec Ideal S1700000x1 .f32) : FVec Ideal S1700000x64 .f32 :=
  fun i => g i * s (ix2 (row i) (0 : Fin 1))

/-- The same over 16 columns. -/
def scaleRows16 (g : FVec Ideal S1700000x16 .f32) (s : FVec Ideal S1700000x1 .f32) : FVec Ideal S1700000x16 .f32 :=
  fun i => g i * s (ix2 (row i) (0 : Fin 1))

/-- The first layer's node features: `out[n, f] = (∑ k, x[n, k] · w[k, f]) · d[n, 0]`. -/
def mmScale (x : FVec Ideal S100000x64 .f32) (w : FVec Ideal S64x64 .f32) (d : FVec Ideal S100000x1 .f32) :
    FVec Ideal S100000x64 .f32 :=
  fun i => (∑ k : Fin 64, x (ix2 (row i) k) * w (ix2 k (col i))) * d (ix2 (row i) (0 : Fin 1))

/-- A later layer's node features from the previous layer's sums `a` and bias `b`:
    `out[n, f] = (∑ k, max (a[n, k] + b[0, k]) 0 · w[k, f]) · d[n, 0]`. -/
def biasReluMmScale64 (a : FVec Ideal S100000x64 .f32) (b : FVec Ideal S1x64 .f32) (w : FVec Ideal S64x64 .f32)
    (d : FVec Ideal S100000x1 .f32) : FVec Ideal S100000x64 .f32 :=
  fun i => (∑ k : Fin 64, max (a (ix2 (row i) k) + b (ix2 (0 : Fin 1) k)) (Ideal.ofBits .f32 0x00000000#32) * w (ix2 k (col i)))
    * d (ix2 (row i) (0 : Fin 1))

/-- The last layer's, into 16 columns. -/
def biasReluMmScale16 (a : FVec Ideal S100000x64 .f32) (b : FVec Ideal S1x64 .f32) (w : FVec Ideal S64x16 .f32)
    (d : FVec Ideal S100000x1 .f32) : FVec Ideal S100000x16 .f32 :=
  fun i => (∑ k : Fin 64, max (a (ix2 (row i) k) + b (ix2 (0 : Fin 1) k)) (Ideal.ofBits .f32 0x00000000#32) * w (ix2 k (col i)))
    * d (ix2 (row i) (0 : Fin 1))

end Cert.KernelIdeal.GcnSpec

end
-- ==== Proof.RefStages.lean ====
/-
  The reference's value, stage by stage, over the extended reals.

  From the edge array `x1` (two rows: sources and destinations of 1600000 edges) the program forms the two edge lists with one
  self loop per node appended (`srcE`, `dstE`), the number of edges arriving at each node and from it `dis`, the inverse square
  root of that number where it is positive and zero elsewhere, the lists as start indices of a row lookup with negative entries
  wrapped once (`srcIdx`, `dstNIdx`), and per edge the product `norm e = dis[src e] · dis[dst e]`. A layer's sum at the nodes,
  `refAgg… h`, adds up per destination node the rows `h[src e] · norm e`; the network is four such layers, each of the later
  three applied to the previous one's sums with that layer's bias added and negative entries replaced by zero (`reluB`).
  `res_eq`: the term the run's statement names is this composition, by unfolding.
-/
import proofs.«174299_j5360119186060_2_alg».proof.Proof.RefRun
import Idealize.ShloMosaic.PureOps.Ideal

set_option maxRecDepth 16384

noncomputable section

namespace Cert.ReferenceIdeal.Stage

open Cert.ReferenceIdeal Cert.ReferenceIdeal.Gen Idealize.ShloMosaic Idealize.ShloMosaic.TcCoe Idealize.SL.Sem Idealize.ShloMosaic.StableHlo

/-- The source list: the given edges' sources, then every node once. -/
def srcE (x1 : IVec S2x1600000 32) : IVec S1700000 32 :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The destination list: the given edges' destinations, then every node once. -/
def dstE (x1 : IVec S2x1600000 32) : IVec S1700000 32 :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- Per node, the number of edges arriving there: a one added for every entry of the destination list. -/
def deg (x1 : IVec S2x1600000 32) : FVec Ideal S100000 .f32 :=
  Host.scatterAdd scatter_S100000_S1700000x1_S1700000_n_0_0_1 (broadcastInDim S100000 ![] bcast_S_S100000 (constant (F := Ideal) S_ .f32 0x00000000#32)) (broadcastInDim S1700000x1 ![0] bcast_S1700000_S1700000x1_0 (dstE x1)) (broadcastInDim S1700000 ![] bcast_S_S1700000 (constant (F := Ideal) S_ .f32 0x3F800000#32))

/-- Per node, the inverse square root of the number of edges arriving there (at least one: the self loop), zero where
    that number is not positive. -/
def dis (x1 : IVec S2x1600000 32) : FVec Ideal S100000 .f32 :=
  select (cmpf (F := Ideal) .ogt (deg x1) (broadcastInDim S100000 ![] bcast_S_S100000 (constant (F := Ideal) S_ .f32 0x00000000#32))) (Host.rsqrt (maximumf (deg x1) (broadcastInDim S100000 ![] bcast_S_S100000 (constant (F := Ideal) S_ .f32 0x3F800000#32)))) (broadcastInDim S100000 ![] bcast_S_S100000 (id (constant (F := Ideal) S_ .f32 0x00000000#32)))

/-- The source list as a column of start indices, a negative entry moved up by the node count. -/
def srcIdx (x1 : IVec S2x1600000 32) : IVec S1700000x1 32 :=
  broadcastInDim S1700000x1 ![0] bcast_S1700000_S1700000x1_0 (select (cmpi .slt (srcE x1) (broadcastInDim S1700000 ![] bcast_S_S1700000 (constantI S_ 32 0#32))) (addi (srcE x1) (broadcastInDim S1700000 ![] bcast_S_S1700000 (constantI S_ 32 100000#32))) (srcE x1))

/-- The destination list as a column of start indices, a negative entry moved up by the node count. -/
def dstNIdx (x1 : IVec S2x1600000 32) : IVec S1700000x1 32 :=
  broadcastInDim S1700000x1 ![0] bcast_S1700000_S1700000x1_0 (select (cmpi .slt (dstE x1) (broadcastInDim S1700000 ![] bcast_S_S1700000 (constantI S_ 32 0#32))) (addi (dstE x1) (broadcastInDim S1700000 ![] bcast_S_S1700000 (constantI S_ 32 100000#32))) (dstE x1))

/-- The destination list as a column, as it stands: where each edge's row is added. -/
def dstIdx (x1 : IVec S2x1600000 32) : IVec S1700000x1 32 :=
  broadcastInDim S1700000x1 ![0] bcast_S1700000_S1700000x1_0 (dstE x1)

/-- Per edge, `dis` at its source times `dis` at its destination. -/
def norm (x1 : IVec S2x1600000 32) : FVec Ideal S1700000 .f32 :=
  mulf (Host.gather gather_S100000_S1700000x1_S1700000_n_0_n_n_0_1_1 (dis x1) (srcIdx x1)) (Host.gather gather_S100000_S1700000x1_S1700000_n_0_n_n_0_1_1 (dis x1) (dstNIdx x1))

/-- `norm` repeated along 64 columns. -/
def normB64 (x1 : IVec S2x1600000 32) : FVec Ideal S1700000x64 .f32 :=
  broadcastInDim S1700000x64 ![0, 1] bcast_S1700000x1_S1700000x64_0_1 (broadcastInDim S1700000x1 ![0] bcast_S1700000_S1700000x1_0 (norm x1))

/-- `norm` repeated along 16 columns. -/
def normB16 (x1 : IVec S2x1600000 32) : FVec Ideal S1700000x16 .f32 :=
  broadcastInDim S1700000x16 ![0, 1] bcast_S1700000x1_S1700000x16_0_1 (broadcastInDim S1700000x1 ![0] bcast_S1700000_S1700000x1_0 (norm x1))

/-- The all-zero node arrays the sums start from. -/
def zeros64 : FVec Ideal S100000x64 .f32 :=
  broadcastInDim S100000x64 ![] bcast_S_S100000x64 (constant (F := Ideal) S_ .f32 0x00000000#32)
def zeros16 : FVec Ideal S100000x16 .f32 :=
  broadcastInDim S100000x16 ![] bcast_S_S100000x16 (constant (F := Ideal) S_ .f32 0x00000000#32)

/-- A layer's sums over 64 columns: per destination node, the rows `h[src e] · norm e` added up. -/
def refAgg64 (h : FVec Ideal S100000x64 .f32) (x1 : IVec S2x1600000 32) : FVec Ideal S100000x64 .f32 :=
  Host.scatterAdd scatter_S100000x64_S1700000x1_S1700000x64_1_0_0_1 zeros64 (dstIdx x1)
    (mulf (Host.gather gather_S100000x64_S1700000x1_S1700000x64_1_0_n_n_0_1_164 h (srcIdx x1)) (normB64 x1))

/-- The same over 16 columns. -/
def refAgg16 (h : FVec Ideal S100000x16 .f32) (x1 : IVec S2x1600000 32) : FVec Ideal S100000x16 .f32 :=
  Host.scatterAdd scatter_S100000x16_S1700000x1_S1700000x16_1_0_0_1 zeros16 (dstIdx x1)
    (mulf (Host.gather gather_S100000x16_S1700000x1_S1700000x16_1_0_n_n_0_1_116 h (srcIdx x1)) (normB16 x1))

/-- A layer's sums with its bias added to every row and negative entries replaced by zero. -/
def reluB (a : FVec Ideal S100000x64 .f32) (b : FVec Ideal S64 .f32) : FVec Ideal S100000x64 .f32 :=
  maximumf (addf a (broadcastInDim S100000x64 ![0, 1] bcast_S1x64_S100000x64_0_1 (broadcastInDim S1x64 ![1] bcast_S64_S1x64_1 b))) zeros64

/-- The two hidden layers' weights and biases, cut out of their stacked arrays. -/
def w0 (x4 : FVec Ideal S2x64x64 .f32) : FVec Ideal S64x64 .f32 :=
  shapeCast _ (extractStridedSlice S1x64x64 ![0, 0, 0] x4 slices_S2x64x64_S1x64x64_0_0_0) shapeCasts_S1x64x64_S64x64
def w1 (x4 : FVec Ideal S2x64x64 .f32) : FVec Ideal S64x64 .f32 :=
  shapeCast _ (extractStridedSlice S1x64x64 ![1, 0, 0] x4 slices_S2x64x64_S1x64x64_1_0_0) shapeCasts_S1x64x64_S64x64
def b0 (x5 : FVec Ideal S2x64 .f32) : FVec Ideal S64 .f32 :=
  shapeCast _ (extractStridedSlice S1x64 ![0, 0] x5 slices_S2x64_S1x64_0_0) shapeCasts_S1x64_S64
def b1 (x5 : FVec Ideal S2x64 .f32) : FVec Ideal S64 .f32 :=
  shapeCast _ (extractStridedSlice S1x64 ![1, 0] x5 slices_S2x64_S1x64_1_0) shapeCasts_S1x64_S64

/-- The last layer's bias repeated along the nodes. -/
def bias16 (x7 : FVec Ideal S16 .f32) : FVec Ideal S100000x16 .f32 :=
  broadcastInDim S100000x16 ![0, 1] bcast_S1x16_S100000x16_0_1 (broadcastInDim S1x16 ![1] bcast_S16_S1x16_1 x7)

/-- The network: four layers. -/
def refOut (x0 : FVec Ideal S100000x64 .f32) (x1 : IVec S2x1600000 32) (x2 : FVec Ideal S64x64 .f32) (x3 : FVec Ideal S64 .f32)
    (x4 : FVec Ideal S2x64x64 .f32) (x5 : FVec Ideal S2x64 .f32) (x6 : FVec Ideal S64x16 .f32) (x7 : FVec Ideal S16 .f32) : FVec Ideal S100000x16 .f32 :=
  addf (refAgg16 (Host.dotGeneral dot_S100000x64_S64x16_S100000x16_1_0_0_1_n_n none
      (reluB (refAgg64 (Host.dotGeneral dot_S100000x64_S64x64_S100000x64_1_0_0_1_n_n none
        (reluB (refAgg64 (Host.dotGeneral dot_S100000x64_S64x64_S100000x64_1_0_0_1_n_n none
          (reluB (refAgg64 (Host.dotGeneral dot_S100000x64_S64x64_S100000x64_1_0_0_1_n_n none x0 x2) x1) x3)
          (w0 x4)) x1) (b0 x5))
        (w1 x4)) x1) (b1 x5))
      x6) x1) (bias16 x7)

/-- The term the run states for the result is the network's composition. -/
theorem res_eq (m : (ℓ : Loc nD τ sig) → Buf (Elt Ideal) ℓ) (c : Dev nD) :
    Cert.ReferenceIdeal.Value.res_main_v155 (F := Ideal) m c
      = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v155; rfl

end Cert.ReferenceIdeal.Stage

end
-- ==== Proof.KernelStages.lean ====
/-
  The kernel's value as one function of the argument arrays, over the extended reals, built from the same edge lists, `dis`
  and start indices as the reference's (`Cert.ReferenceIdeal.Stage`) and from the closed forms of the kernel's regions
  (`Cert.KernelIdeal.GcnSpec`).

  Where the reference multiplies an edge's row by `dis[src e] · dis[dst e]` at once, the kernel multiplies every node's row by
  `dis` at that node before the lookup (`disCol`, the column form of `dis`, inside `mmScale` / `biasReluMmScale…`) and every
  edge's row by `dis[dst e]` after it (`dstScale`, inside `scaleRows…`): `kAgg…` is a layer's sum at the nodes in that
  arrangement.
-/
import proofs.«174299_j5360119186060_2_alg».proof.Proof.GcnSpec
import proofs.«174299_j5360119186060_2_alg».proof.Proof.RefStages
import proofs.«174299_j5360119186060_2_alg».proof.Proof.Gen.KernelIdeal

set_option maxRecDepth 16384

noncomputable section

namespace Cert.KernelIdeal.KStage

open Cert.ReferenceIdeal Cert.ReferenceIdeal.Gen Cert.ReferenceIdeal.Stage Cert.KernelIdeal.GcnSpec
open Idealize.ShloMosaic Idealize.ShloMosaic.TcCoe Idealize.SL.Sem Idealize.ShloMosaic.StableHlo

/-- `dis` as a one-column array: what the node-side kernels scale by. -/
def disCol (x1 : IVec S2x1600000 32) : FVec Ideal Cert.KernelIdeal.S100000x1 .f32 :=
  shapeCast _ (dis x1) Cert.KernelIdeal.Gen.shapeCasts_S100000_S100000x1

/-- Per edge, `dis` at its destination, as a one-column array: what the edge-side kernels scale by. -/
def dstScale (x1 : IVec S2x1600000 32) : FVec Ideal Cert.KernelIdeal.S1700000x1 .f32 :=
  shapeCast _ (Host.gather gather_S100000_S1700000x1_S1700000_n_0_n_n_0_1_1 (dis x1) (dstNIdx x1)) Cert.KernelIdeal.Gen.shapeCasts_S1700000_S1700000x1

/-- A bias as a one-row array. -/
def biasRow (b : FVec Ideal S64 .f32) : FVec Ideal Cert.KernelIdeal.S1x64 .f32 :=
  shapeCast _ b Cert.KernelIdeal.Gen.shapeCasts_S64_S1x64

/-- A layer's sums over 64 columns in the kernel's arrangement: the rows of `h` (already scaled per node) looked up at the
    sources, scaled per edge, and added up per destination node. -/
def kAgg64 (h : FVec Ideal Cert.KernelIdeal.S100000x64 .f32) (x1 : IVec S2x1600000 32) : FVec Ideal S100000x64 .f32 :=
  Host.scatterAdd scatter_S100000x64_S1700000x1_S1700000x64_1_0_0_1 zeros64 (dstIdx x1)
    (scaleRows64 (Host.gather gather_S100000x64_S1700000x1_S1700000x64_1_0_n_n_0_1_164 h (srcIdx x1)) (dstScale x1))

/-- The same over 16 columns. -/
def kAgg16 (h : FVec Ideal Cert.KernelIdeal.S100000x16 .f32) (x1 : IVec S2x1600000 32) : FVec Ideal S100000x16 .f32 :=
  Host.scatterAdd scatter_S100000x16_S1700000x1_S1700000x16_1_0_0_1 zeros16 (dstIdx x1)
    (scaleRows16 (Host.gather gather_S100000x16_S1700000x1_S1700000x16_1_0_n_n_0_1_116 h (srcIdx x1)) (dstScale x1))

/-- The kernel's network: four layers in its arrangement, the last bias added at the end. -/
def kernelOut (x0 : FVec Ideal S100000x64 .f32) (x1 : IVec S2x1600000 32) (x2 : FVec Ideal S64x64 .f32) (x3 : FVec Ideal S64 .f32)
    (x4 : FVec Ideal S2x64x64 .f32) (x5 : FVec Ideal S2x64 .f32) (x6 : FVec Ideal S64x16 .f32) (x7 : FVec Ideal S16 .f32) : FVec Ideal S100000x16 .f32 :=
  addf (kAgg16 (biasReluMmScale16
      (kAgg64 (biasReluMmScale64
        (kAgg64 (biasReluMmScale64
          (kAgg64 (mmScale x0 x2 (disCol x1)) x1)
          (biasRow x3) (w0 x4) (disCol x1)) x1)
        (biasRow (b0 x5)) (w1 x4) (disCol x1)) x1)
      (biasRow (b1 x5)) x6 (disCol x1)) x1) (bias16 x7)

end Cert.KernelIdeal.KStage

end
-- ==== Proof.FoldCarried.lean ====
/-
  What the program's fold keeps. Between the first region's entry and the program's end no host operation and no region
  writes the eight argument arrays, the two edge lists, the column form of `dis` or the per-edge destination scale: at every
  boundary `W3 … W19` of the fold these twelve buffers hold the same functions of the launch contents (`Carried`). A host
  stretch leaves a buffer it does not write as it was; a region leaves every buffer that is not one of its arrays as it
  was, and an input array as it found it.
-/
import proofs.«174299_j5360119186060_2_alg».proof.Proof.Gen.KernelIdeal.Frame
import proofs.«174299_j5360119186060_2_alg».proof.Proof.KernelStages

set_option maxRecDepth 16384

noncomputable section

namespace Cert.KernelIdeal.KFold

open Cert.KernelIdeal Cert.KernelIdeal.Gen Cert.KernelIdeal.GcnSpec Cert.KernelIdeal.KStage Cert.ReferenceIdeal.Stage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)

/-- The twelve buffers every later stage reads, at their functions of the launch contents. -/
structure Carried (W : Valuation τ sig (Elt Ideal)) : Prop where
  a0 : W (Proc.devRef .tc main_arg0) = X0
  a1 : W (Proc.devRef .tc main_arg1) = X1
  a2 : W (Proc.devRef .tc main_arg2) = X2
  a3 : W (Proc.devRef .tc main_arg3) = X3
  a4 : W (Proc.devRef .tc main_arg4) = X4
  a5 : W (Proc.devRef .tc main_arg5) = X5
  a6 : W (Proc.devRef .tc main_arg6) = X6
  a7 : W (Proc.devRef .tc main_arg7) = X7
  src : W (Proc.devRef .tc main_v3) = srcE X1
  dst : W (Proc.devRef .tc main_v6) = dstE X1
  dcol : W (Proc.devRef .tc main_v17) = disCol X1
  dsc : W (Proc.devRef .tc main_v25) = dstScale X1

/-! ## The opening stretches, one boundary at a time

The first stretch forms the edge lists and counts the arriving edges; the second takes the inverse square root where the count is
positive; the third lays `dis` out as a column and looks it up at the edges' destinations. Each boundary is read with the one
before it held fixed, so that every step compares one operation's worth of terms. -/

/-- After the first stretch: the source list. -/
theorem s1_src : W1 m ρ c (Proc.devRef .tc main_v3) = srcE X1 := by
  show StableHlo.after hostOps0 (W0 m ρ c) (Proc.devRef .tc main_v3) = _
  simp only [hostOps0]
  after_results_simp <;> rfl

/-- … the destination list. -/
theorem s1_dst : W1 m ρ c (Proc.devRef .tc main_v6) = dstE X1 := by
  show StableHlo.after hostOps0 (W0 m ρ c) (Proc.devRef .tc main_v6) = _
  simp only [hostOps0]
  after_results_simp <;> rfl

/-- … where the count of arriving edges is positive. -/
theorem s1_pos : W1 m ρ c (Proc.devRef .tc main_v12) = cmpf (F := Ideal) .ogt (deg X1) (broadcastInDim S100000 ![] bcast_S_S100000 (constant (F := Ideal) S_ .f32 0x00000000#32)) := by
  show StableHlo.after hostOps0 (W0 m ρ c) (Proc.devRef .tc main_v12) = _
  simp only [hostOps0]
  after_results_simp <;> rfl

/-- … the inverse square root of the count, taken of at least one. -/
theorem s1_rsqrt : W1 m ρ c (Proc.devRef .tc main_v15) = Host.rsqrt (maximumf (deg X1) (broadcastInDim S100000 ![] bcast_S_S100000 (constant (F := Ideal) S_ .f32 0x3F800000#32))) := by
  show StableHlo.after hostOps0 (W0 m ρ c) (Proc.devRef .tc main_v15) = _
  simp only [hostOps0]
  after_results_simp <;> rfl

/-- … and the zero that stands where the count is not positive. -/
theorem s1_zero : W1 m ρ c (Proc.devRef .tc main_cst_3) = constant (F := Ideal) S_ .f32 0x00000000#32 := by
  show StableHlo.after hostOps0 (W0 m ρ c) (Proc.devRef .tc main_cst_3) = _
  simp only [hostOps0]
  after_results_simp <;> rfl

/-- After the second stretch: `dis`. -/
theorem s2_dis : W2 m ρ c (Proc.devRef .tc main_v16) = dis X1 := by
  have h12 := s1_pos m ρ c
  have h15 := s1_rsqrt m ρ c
  have hz := s1_zero m ρ c
  show StableHlo.after hostOps0_1 (W1 m ρ c) (Proc.devRef .tc main_v16) = _
  generalize W1 m ρ c = V1 at h12 h15 hz ⊢
  simp only [hostOps0_1]
  after_results_simp
  simp only [TRef.ofBuf, TRef.toBuf, cast_eq]
  rw [h12, h15, hz]
  rfl
/-- The second stretch leaves the edge lists alone. -/
theorem s2_src : W2 m ρ c (Proc.devRef .tc main_v3) = srcE X1 := by
  have h := s1_src m ρ c
  show StableHlo.after hostOps0_1 (W1 m ρ c) (Proc.devRef .tc main_v3) = _
  generalize W1 m ρ c = V1 at h ⊢
  simp only [hostOps0_1]
  after_results_simp
  exact h
theorem s2_dst : W2 m ρ c (Proc.devRef .tc main_v6) = dstE X1 := by
  have h := s1_dst m ρ c
  show StableHlo.after hostOps0_1 (W1 m ρ c) (Proc.devRef .tc main_v6) = _
  generalize W1 m ρ c = V1 at h ⊢
  simp only [hostOps0_1]
  after_results_simp
  exact h
/-- After the third stretch: the edge lists as they were, `dis` as a column, and `dis` at the edges' destinations as a column. -/
theorem c3_src : W3 m ρ c (Proc.devRef .tc main_v3) = srcE X1 := by
  have h := s2_src m ρ c
  show StableHlo.after hostOps0_2 (W2 m ρ c) (Proc.devRef .tc main_v3) = _
  generalize W2 m ρ c = V2 at h ⊢
  simp only [hostOps0_2]
  after_results_simp
  exact h
theorem c3_dst : W3 m ρ c (Proc.devRef .tc main_v6) = dstE X1 := by
  have h := s2_dst m ρ c
  show StableHlo.after hostOps0_2 (W2 m ρ c) (Proc.devRef .tc main_v6) = _
  generalize W2 m ρ c = V2 at h ⊢
  simp only [hostOps0_2]
  after_results_simp
  exact h
theorem c3_dcol : W3 m ρ c (Proc.devRef .tc main_v17) = disCol X1 := by
  have h := s2_dis m ρ c
  show StableHlo.after hostOps0_2 (W2 m ρ c) (Proc.devRef .tc main_v17) = _
  generalize W2 m ρ c = V2 at h ⊢
  simp only [hostOps0_2]
  after_results_simp
  rw [h]
  rfl
theorem c3_dsc : W3 m ρ c (Proc.devRef .tc main_v25) = dstScale X1 := by
  have h := s2_dis m ρ c
  have hd := s2_dst m ρ c
  show StableHlo.after hostOps0_2 (W2 m ρ c) (Proc.devRef .tc main_v25) = _
  generalize W2 m ρ c = V2 at h hd ⊢
  simp only [hostOps0_2]
  after_results_simp
  rw [h, hd]
  rfl

/-- At the first region's entry: the three opening stretches of host operations computed the edge lists, `dis`, its
    column form and the per-edge destination scale, and wrote no argument. -/
theorem c3 : Carried m c (W3 m ρ c) where
  a0 := by
    show StableHlo.after hostOps0_2 (StableHlo.after hostOps0_1 (StableHlo.after hostOps0 (W0 m ρ c))) (Proc.devRef .tc main_arg0) = _
    simp only [hostOps0_2, hostOps0_1, hostOps0]
    after_results_simp <;> rfl
  a1 := by
    show StableHlo.after hostOps0_2 (StableHlo.after hostOps0_1 (StableHlo.after hostOps0 (W0 m ρ c))) (Proc.devRef .tc main_arg1) = _
    simp only [hostOps0_2, hostOps0_1, hostOps0]
    after_results_simp <;> rfl
  a2 := by
    show StableHlo.after hostOps0_2 (StableHlo.after hostOps0_1 (StableHlo.after hostOps0 (W0 m ρ c))) (Proc.devRef .tc main_arg2) = _
    simp only [hostOps0_2, hostOps0_1, hostOps0]
    after_results_simp <;> rfl
  a3 := by
    show StableHlo.after hostOps0_2 (StableHlo.after hostOps0_1 (StableHlo.after hostOps0 (W0 m ρ c))) (Proc.devRef .tc main_arg3) = _
    simp only [hostOps0_2, hostOps0_1, hostOps0]
    after_results_simp <;> rfl
  a4 := by
    show StableHlo.after hostOps0_2 (StableHlo.after hostOps0_1 (StableHlo.after hostOps0 (W0 m ρ c))) (Proc.devRef .tc main_arg4) = _
    simp only [hostOps0_2, hostOps0_1, hostOps0]
    after_results_simp <;> rfl
  a5 := by
    show StableHlo.after hostOps0_2 (StableHlo.after hostOps0_1 (StableHlo.after hostOps0 (W0 m ρ c))) (Proc.devRef .tc main_arg5) = _
    simp only [hostOps0_2, hostOps0_1, hostOps0]
    after_results_simp <;> rfl
  a6 := by
    show StableHlo.after hostOps0_2 (StableHlo.after hostOps0_1 (StableHlo.after hostOps0 (W0 m ρ c))) (Proc.devRef .tc main_arg6) = _
    simp only [hostOps0_2, hostOps0_1, hostOps0]
    after_results_simp <;> rfl
  a7 := by
    show StableHlo.after hostOps0_2 (StableHlo.after hostOps0_1 (StableHlo.after hostOps0 (W0 m ρ c))) (Proc.devRef .tc main_arg7) = _
    simp only [hostOps0_2, hostOps0_1, hostOps0]
    after_results_simp <;> rfl
  src := c3_src m ρ c
  dst := c3_dst m ρ c
  dcol := c3_dcol m ρ c
  dsc := c3_dsc m ρ c

/-- Region 0 writes only its output array. -/
theorem c4 : Carried m c (W4 m ρ c) :=
  have h := c3 m ρ c
  { a0 := ((W4_arr m ρ c 0).trans (((dat0 (V3 m ρ) c).arrAt_in 0 rfl _).trans (A_eq0 (V3 m ρ) c 0))).trans h.a0
    a1 := (W4_of_ne m ρ c main_arg1 (by decide)).trans h.a1
    a2 := ((W4_arr m ρ c 1).trans (((dat0 (V3 m ρ) c).arrAt_in 1 rfl _).trans (A_eq0 (V3 m ρ) c 1))).trans h.a2
    a3 := (W4_of_ne m ρ c main_arg3 (by decide)).trans h.a3
    a4 := (W4_of_ne m ρ c main_arg4 (by decide)).trans h.a4
    a5 := (W4_of_ne m ρ c main_arg5 (by decide)).trans h.a5
    a6 := (W4_of_ne m ρ c main_arg6 (by decide)).trans h.a6
    a7 := (W4_of_ne m ρ c main_arg7 (by decide)).trans h.a7
    src := (W4_of_ne m ρ c main_v3 (by decide)).trans h.src
    dst := (W4_of_ne m ρ c main_v6 (by decide)).trans h.dst
    dcol := ((W4_arr m ρ c 2).trans (((dat0 (V3 m ρ) c).arrAt_in 2 rfl _).trans (A_eq0 (V3 m ρ) c 2))).trans h.dcol
    dsc := (W4_of_ne m ρ c main_v25 (by decide)).trans h.dsc }

/-- The stretch `hostOps1` writes none of the twelve. -/
theorem c5 : Carried m c (W5 m ρ c) :=
  have h := c4 m ρ c
  { a0 := by
      show StableHlo.after hostOps1 (W4 m ρ c) (Proc.devRef .tc main_arg0) = _
      simp only [hostOps1]
      after_results_simp
      exact h.a0
    a1 := by
      show StableHlo.after hostOps1 (W4 m ρ c) (Proc.devRef .tc main_arg1) = _
      simp only [hostOps1]
      after_results_simp
      exact h.a1
    a2 := by
      show StableHlo.after hostOps1 (W4 m ρ c) (Proc.devRef .tc main_arg2) = _
      simp only [hostOps1]
      after_results_simp
      exact h.a2
    a3 := by
      show StableHlo.after hostOps1 (W4 m ρ c) (Proc.devRef .tc main_arg3) = _
      simp only [hostOps1]
      after_results_simp
      exact h.a3
    a4 := by
      show StableHlo.after hostOps1 (W4 m ρ c) (Proc.devRef .tc main_arg4) = _
      simp only [hostOps1]
      after_results_simp
      exact h.a4
    a5 := by
      show StableHlo.after hostOps1 (W4 m ρ c) (Proc.devRef .tc main_arg5) = _
      simp only [hostOps1]
      after_results_simp
      exact h.a5
    a6 := by
      show StableHlo.after hostOps1 (W4 m ρ c) (Proc.devRef .tc main_arg6) = _
      simp only [hostOps1]
      after_results_simp
      exact h.a6
    a7 := by
      show StableHlo.after hostOps1 (W4 m ρ c) (Proc.devRef .tc main_arg7) = _
      simp only [hostOps1]
      after_results_simp
      exact h.a7
    src := by
      show StableHlo.after hostOps1 (W4 m ρ c) (Proc.devRef .tc main_v3) = _
      simp only [hostOps1]
      after_results_simp
      exact h.src
    dst := by
      show StableHlo.after hostOps1 (W4 m ρ c) (Proc.devRef .tc main_v6) = _
      simp only [hostOps1]
      after_results_simp
      exact h.dst
    dcol := by
      show StableHlo.after hostOps1 (W4 m ρ c) (Proc.devRef .tc main_v17) = _
      simp only [hostOps1]
      after_results_simp
      exact h.dcol
    dsc := by
      show StableHlo.after hostOps1 (W4 m ρ c) (Proc.devRef .tc main_v25) = _
      simp only [hostOps1]
      after_results_simp
      exact h.dsc }

/-- Region 1 writes only its output array. -/
theorem c6 : Carried m c (W6 m ρ c) :=
  have h := c5 m ρ c
  { a0 := (W6_of_ne m ρ c main_arg0 (by decide)).trans h.a0
    a1 := (W6_of_ne m ρ c main_arg1 (by decide)).trans h.a1
    a2 := (W6_of_ne m ρ c main_arg2 (by decide)).trans h.a2
    a3 := (W6_of_ne m ρ c main_arg3 (by decide)).trans h.a3
    a4 := (W6_of_ne m ρ c main_arg4 (by decide)).trans h.a4
    a5 := (W6_of_ne m ρ c main_arg5 (by decide)).trans h.a5
    a6 := (W6_of_ne m ρ c main_arg6 (by decide)).trans h.a6
    a7 := (W6_of_ne m ρ c main_arg7 (by decide)).trans h.a7
    src := (W6_of_ne m ρ c main_v3 (by decide)).trans h.src
    dst := (W6_of_ne m ρ c main_v6 (by decide)).trans h.dst
    dcol := (W6_of_ne m ρ c main_v17 (by decide)).trans h.dcol
    dsc := ((W6_arr m ρ c 1).trans (((dat1 (V5 m ρ) c).arrAt_in 1 rfl _).trans (A_eq1 (V5 m ρ) c 1))).trans h.dsc }

/-- The stretch `hostOps2` writes none of the twelve. -/
theorem c7 : Carried m c (W7 m ρ c) :=
  have h := c6 m ρ c
  { a0 := by
      show StableHlo.after hostOps2 (W6 m ρ c) (Proc.devRef .tc main_arg0) = _
      simp only [hostOps2]
      after_results_simp
      exact h.a0
    a1 := by
      show StableHlo.after hostOps2 (W6 m ρ c) (Proc.devRef .tc main_arg1) = _
      simp only [hostOps2]
      after_results_simp
      exact h.a1
    a2 := by
      show StableHlo.after hostOps2 (W6 m ρ c) (Proc.devRef .tc main_arg2) = _
      simp only [hostOps2]
      after_results_simp
      exact h.a2
    a3 := by
      show StableHlo.after hostOps2 (W6 m ρ c) (Proc.devRef .tc main_arg3) = _
      simp only [hostOps2]
      after_results_simp
      exact h.a3
    a4 := by
      show StableHlo.after hostOps2 (W6 m ρ c) (Proc.devRef .tc main_arg4) = _
      simp only [hostOps2]
      after_results_simp
      exact h.a4
    a5 := by
      show StableHlo.after hostOps2 (W6 m ρ c) (Proc.devRef .tc main_arg5) = _
      simp only [hostOps2]
      after_results_simp
      exact h.a5
    a6 := by
      show StableHlo.after hostOps2 (W6 m ρ c) (Proc.devRef .tc main_arg6) = _
      simp only [hostOps2]
      after_results_simp
      exact h.a6
    a7 := by
      show StableHlo.after hostOps2 (W6 m ρ c) (Proc.devRef .tc main_arg7) = _
      simp only [hostOps2]
      after_results_simp
      exact h.a7
    src := by
      show StableHlo.after hostOps2 (W6 m ρ c) (Proc.devRef .tc main_v3) = _
      simp only [hostOps2]
      after_results_simp
      exact h.src
    dst := by
      show StableHlo.after hostOps2 (W6 m ρ c) (Proc.devRef .tc main_v6) = _
      simp only [hostOps2]
      after_results_simp
      exact h.dst
    dcol := by
      show StableHlo.after hostOps2 (W6 m ρ c) (Proc.devRef .tc main_v17) = _
      simp only [hostOps2]
      after_results_simp
      exact h.dcol
    dsc := by
      show StableHlo.after hostOps2 (W6 m ρ c) (Proc.devRef .tc main_v25) = _
      simp only [hostOps2]
      after_results_simp
      exact h.dsc }

/-- Region 2 writes only its output array. -/
theorem c8 : Carried m c (W8 m ρ c) :=
  have h := c7 m ρ c
  { a0 := (W8_of_ne m ρ c main_arg0 (by decide)).trans h.a0
    a1 := (W8_of_ne m ρ c main_arg1 (by decide)).trans h.a1
    a2 := (W8_of_ne m ρ c main_arg2 (by decide)).trans h.a2
    a3 := (W8_of_ne m ρ c main_arg3 (by decide)).trans h.a3
    a4 := (W8_of_ne m ρ c main_arg4 (by decide)).trans h.a4
    a5 := (W8_of_ne m ρ c main_arg5 (by decide)).trans h.a5
    a6 := (W8_of_ne m ρ c main_arg6 (by decide)).trans h.a6
    a7 := (W8_of_ne m ρ c main_arg7 (by decide)).trans h.a7
    src := (W8_of_ne m ρ c main_v3 (by decide)).trans h.src
    dst := (W8_of_ne m ρ c main_v6 (by decide)).trans h.dst
    dcol := ((W8_arr m ρ c 3).trans (((dat2 (V7 m ρ) c).arrAt_in 3 rfl _).trans (A_eq2 (V7 m ρ) c 3))).trans h.dcol
    dsc := (W8_of_ne m ρ c main_v25 (by decide)).trans h.dsc }

/-- The stretch `hostOps3` writes none of the twelve. -/
theorem c9 : Carried m c (W9 m ρ c) :=
  have h := c8 m ρ c
  { a0 := by
      show StableHlo.after hostOps3 (W8 m ρ c) (Proc.devRef .tc main_arg0) = _
      simp only [hostOps3]
      after_results_simp
      exact h.a0
    a1 := by
      show StableHlo.after hostOps3 (W8 m ρ c) (Proc.devRef .tc main_arg1) = _
      simp only [hostOps3]
      after_results_simp
      exact h.a1
    a2 := by
      show StableHlo.after hostOps3 (W8 m ρ c) (Proc.devRef .tc main_arg2) = _
      simp only [hostOps3]
      after_results_simp
      exact h.a2
    a3 := by
      show StableHlo.after hostOps3 (W8 m ρ c) (Proc.devRef .tc main_arg3) = _
      simp only [hostOps3]
      after_results_simp
      exact h.a3
    a4 := by
      show StableHlo.after hostOps3 (W8 m ρ c) (Proc.devRef .tc main_arg4) = _
      simp only [hostOps3]
      after_results_simp
      exact h.a4
    a5 := by
      show StableHlo.after hostOps3 (W8 m ρ c) (Proc.devRef .tc main_arg5) = _
      simp only [hostOps3]
      after_results_simp
      exact h.a5
    a6 := by
      show StableHlo.after hostOps3 (W8 m ρ c) (Proc.devRef .tc main_arg6) = _
      simp only [hostOps3]
      after_results_simp
      exact h.a6
    a7 := by
      show StableHlo.after hostOps3 (W8 m ρ c) (Proc.devRef .tc main_arg7) = _
      simp only [hostOps3]
      after_results_simp
      exact h.a7
    src := by
      show StableHlo.after hostOps3 (W8 m ρ c) (Proc.devRef .tc main_v3) = _
      simp only [hostOps3]
      after_results_simp
      exact h.src
    dst := by
      show StableHlo.after hostOps3 (W8 m ρ c) (Proc.devRef .tc main_v6) = _
      simp only [hostOps3]
      after_results_simp
      exact h.dst
    dcol := by
      show StableHlo.after hostOps3 (W8 m ρ c) (Proc.devRef .tc main_v17) = _
      simp only [hostOps3]
      after_results_simp
      exact h.dcol
    dsc := by
      show StableHlo.after hostOps3 (W8 m ρ c) (Proc.devRef .tc main_v25) = _
      simp only [hostOps3]
      after_results_simp
      exact h.dsc }

/-- Region 3 writes only its output array. -/
theorem c10 : Carried m c (W10 m ρ c) :=
  have h := c9 m ρ c
  { a0 := (W10_of_ne m ρ c main_arg0 (by decide)).trans h.a0
    a1 := (W10_of_ne m ρ c main_arg1 (by decide)).trans h.a1
    a2 := (W10_of_ne m ρ c main_arg2 (by decide)).trans h.a2
    a3 := (W10_of_ne m ρ c main_arg3 (by decide)).trans h.a3
    a4 := (W10_of_ne m ρ c main_arg4 (by decide)).trans h.a4
    a5 := (W10_of_ne m ρ c main_arg5 (by decide)).trans h.a5
    a6 := (W10_of_ne m ρ c main_arg6 (by decide)).trans h.a6
    a7 := (W10_of_ne m ρ c main_arg7 (by decide)).trans h.a7
    src := (W10_of_ne m ρ c main_v3 (by decide)).trans h.src
    dst := (W10_of_ne m ρ c main_v6 (by decide)).trans h.dst
    dcol := (W10_of_ne m ρ c main_v17 (by decide)).trans h.dcol
    dsc := ((W10_arr m ρ c 1).trans (((dat3 (V9 m ρ) c).arrAt_in 1 rfl _).trans (A_eq3 (V9 m ρ) c 1))).trans h.dsc }

/-- The stretch `hostOps4` writes none of the twelve. -/
theorem c11 : Carried m c (W11 m ρ c) :=
  have h := c10 m ρ c
  { a0 := by
      show StableHlo.after hostOps4 (W10 m ρ c) (Proc.devRef .tc main_arg0) = _
      simp only [hostOps4]
      after_results_simp
      exact h.a0
    a1 := by
      show StableHlo.after hostOps4 (W10 m ρ c) (Proc.devRef .tc main_arg1) = _
      simp only [hostOps4]
      after_results_simp
      exact h.a1
    a2 := by
      show StableHlo.after hostOps4 (W10 m ρ c) (Proc.devRef .tc main_arg2) = _
      simp only [hostOps4]
      after_results_simp
      exact h.a2
    a3 := by
      show StableHlo.after hostOps4 (W10 m ρ c) (Proc.devRef .tc main_arg3) = _
      simp only [hostOps4]
      after_results_simp
      exact h.a3
    a4 := by
      show StableHlo.after hostOps4 (W10 m ρ c) (Proc.devRef .tc main_arg4) = _
      simp only [hostOps4]
      after_results_simp
      exact h.a4
    a5 := by
      show StableHlo.after hostOps4 (W10 m ρ c) (Proc.devRef .tc main_arg5) = _
      simp only [hostOps4]
      after_results_simp
      exact h.a5
    a6 := by
      show StableHlo.after hostOps4 (W10 m ρ c) (Proc.devRef .tc main_arg6) = _
      simp only [hostOps4]
      after_results_simp
      exact h.a6
    a7 := by
      show StableHlo.after hostOps4 (W10 m ρ c) (Proc.devRef .tc main_arg7) = _
      simp only [hostOps4]
      after_results_simp
      exact h.a7
    src := by
      show StableHlo.after hostOps4 (W10 m ρ c) (Proc.devRef .tc main_v3) = _
      simp only [hostOps4]
      after_results_simp
      exact h.src
    dst := by
      show StableHlo.after hostOps4 (W10 m ρ c) (Proc.devRef .tc main_v6) = _
      simp only [hostOps4]
      after_results_simp
      exact h.dst
    dcol := by
      show StableHlo.after hostOps4 (W10 m ρ c) (Proc.devRef .tc main_v17) = _
      simp only [hostOps4]
      after_results_simp
      exact h.dcol
    dsc := by
      show StableHlo.after hostOps4 (W10 m ρ c) (Proc.devRef .tc main_v25) = _
      simp only [hostOps4]
      after_results_simp
      exact h.dsc }

/-- Region 4 writes only its output array. -/
theorem c12 : Carried m c (W12 m ρ c) :=
  have h := c11 m ρ c
  { a0 := (W12_of_ne m ρ c main_arg0 (by decide)).trans h.a0
    a1 := (W12_of_ne m ρ c main_arg1 (by decide)).trans h.a1
    a2 := (W12_of_ne m ρ c main_arg2 (by decide)).trans h.a2
    a3 := (W12_of_ne m ρ c main_arg3 (by decide)).trans h.a3
    a4 := (W12_of_ne m ρ c main_arg4 (by decide)).trans h.a4
    a5 := (W12_of_ne m ρ c main_arg5 (by decide)).trans h.a5
    a6 := (W12_of_ne m ρ c main_arg6 (by decide)).trans h.a6
    a7 := (W12_of_ne m ρ c main_arg7 (by decide)).trans h.a7
    src := (W12_of_ne m ρ c main_v3 (by decide)).trans h.src
    dst := (W12_of_ne m ρ c main_v6 (by decide)).trans h.dst
    dcol := ((W12_arr m ρ c 3).trans (((dat4 (V11 m ρ) c).arrAt_in 3 rfl _).trans (A_eq4 (V11 m ρ) c 3))).trans h.dcol
    dsc := (W12_of_ne m ρ c main_v25 (by decide)).trans h.dsc }

/-- The stretch `hostOps5` writes none of the twelve. -/
theorem c13 : Carried m c (W13 m ρ c) :=
  have h := c12 m ρ c
  { a0 := by
      show StableHlo.after hostOps5 (W12 m ρ c) (Proc.devRef .tc main_arg0) = _
      simp only [hostOps5]
      after_results_simp
      exact h.a0
    a1 := by
      show StableHlo.after hostOps5 (W12 m ρ c) (Proc.devRef .tc main_arg1) = _
      simp only [hostOps5]
      after_results_simp
      exact h.a1
    a2 := by
      show StableHlo.after hostOps5 (W12 m ρ c) (Proc.devRef .tc main_arg2) = _
      simp only [hostOps5]
      after_results_simp
      exact h.a2
    a3 := by
      show StableHlo.after hostOps5 (W12 m ρ c) (Proc.devRef .tc main_arg3) = _
      simp only [hostOps5]
      after_results_simp
      exact h.a3
    a4 := by
      show StableHlo.after hostOps5 (W12 m ρ c) (Proc.devRef .tc main_arg4) = _
      simp only [hostOps5]
      after_results_simp
      exact h.a4
    a5 := by
      show StableHlo.after hostOps5 (W12 m ρ c) (Proc.devRef .tc main_arg5) = _
      simp only [hostOps5]
      after_results_simp
      exact h.a5
    a6 := by
      show StableHlo.after hostOps5 (W12 m ρ c) (Proc.devRef .tc main_arg6) = _
      simp only [hostOps5]
      after_results_simp
      exact h.a6
    a7 := by
      show StableHlo.after hostOps5 (W12 m ρ c) (Proc.devRef .tc main_arg7) = _
      simp only [hostOps5]
      after_results_simp
      exact h.a7
    src := by
      show StableHlo.after hostOps5 (W12 m ρ c) (Proc.devRef .tc main_v3) = _
      simp only [hostOps5]
      after_results_simp
      exact h.src
    dst := by
      show StableHlo.after hostOps5 (W12 m ρ c) (Proc.devRef .tc main_v6) = _
      simp only [hostOps5]
      after_results_simp
      exact h.dst
    dcol := by
      show StableHlo.after hostOps5 (W12 m ρ c) (Proc.devRef .tc main_v17) = _
      simp only [hostOps5]
      after_results_simp
      exact h.dcol
    dsc := by
      show StableHlo.after hostOps5 (W12 m ρ c) (Proc.devRef .tc main_v25) = _
      simp only [hostOps5]
      after_results_simp
      exact h.dsc }

/-- Region 5 writes only its output array. -/
theorem c14 : Carried m c (W14 m ρ c) :=
  have h := c13 m ρ c
  { a0 := (W14_of_ne m ρ c main_arg0 (by decide)).trans h.a0
    a1 := (W14_of_ne m ρ c main_arg1 (by decide)).trans h.a1
    a2 := (W14_of_ne m ρ c main_arg2 (by decide)).trans h.a2
    a3 := (W14_of_ne m ρ c main_arg3 (by decide)).trans h.a3
    a4 := (W14_of_ne m ρ c main_arg4 (by decide)).trans h.a4
    a5 := (W14_of_ne m ρ c main_arg5 (by decide)).trans h.a5
    a6 := (W14_of_ne m ρ c main_arg6 (by decide)).trans h.a6
    a7 := (W14_of_ne m ρ c main_arg7 (by decide)).trans h.a7
    src := (W14_of_ne m ρ c main_v3 (by decide)).trans h.src
    dst := (W14_of_ne m ρ c main_v6 (by decide)).trans h.dst
    dcol := (W14_of_ne m ρ c main_v17 (by decide)).trans h.dcol
    dsc := ((W14_arr m ρ c 1).trans (((dat5 (V13 m ρ) c).arrAt_in 1 rfl _).trans (A_eq5 (V13 m ρ) c 1))).trans h.dsc }

/-- The stretch `hostOps6` writes none of the twelve. -/
theorem c15 : Carried m c (W15 m ρ c) :=
  have h := c14 m ρ c
  { a0 := by
      show StableHlo.after hostOps6 (W14 m ρ c) (Proc.devRef .tc main_arg0) = _
      simp only [hostOps6]
      after_results_simp
      exact h.a0
    a1 := by
      show StableHlo.after hostOps6 (W14 m ρ c) (Proc.devRef .tc main_arg1) = _
      simp only [hostOps6]
      after_results_simp
      exact h.a1
    a2 := by
      show StableHlo.after hostOps6 (W14 m ρ c) (Proc.devRef .tc main_arg2) = _
      simp only [hostOps6]
      after_results_simp
      exact h.a2
    a3 := by
      show StableHlo.after hostOps6 (W14 m ρ c) (Proc.devRef .tc main_arg3) = _
      simp only [hostOps6]
      after_results_simp
      exact h.a3
    a4 := by
      show StableHlo.after hostOps6 (W14 m ρ c) (Proc.devRef .tc main_arg4) = _
      simp only [hostOps6]
      after_results_simp
      exact h.a4
    a5 := by
      show StableHlo.after hostOps6 (W14 m ρ c) (Proc.devRef .tc main_arg5) = _
      simp only [hostOps6]
      after_results_simp
      exact h.a5
    a6 := by
      show StableHlo.after hostOps6 (W14 m ρ c) (Proc.devRef .tc main_arg6) = _
      simp only [hostOps6]
      after_results_simp
      exact h.a6
    a7 := by
      show StableHlo.after hostOps6 (W14 m ρ c) (Proc.devRef .tc main_arg7) = _
      simp only [hostOps6]
      after_results_simp
      exact h.a7
    src := by
      show StableHlo.after hostOps6 (W14 m ρ c) (Proc.devRef .tc main_v3) = _
      simp only [hostOps6]
      after_results_simp
      exact h.src
    dst := by
      show StableHlo.after hostOps6 (W14 m ρ c) (Proc.devRef .tc main_v6) = _
      simp only [hostOps6]
      after_results_simp
      exact h.dst
    dcol := by
      show StableHlo.after hostOps6 (W14 m ρ c) (Proc.devRef .tc main_v17) = _
      simp only [hostOps6]
      after_results_simp
      exact h.dcol
    dsc := by
      show StableHlo.after hostOps6 (W14 m ρ c) (Proc.devRef .tc main_v25) = _
      simp only [hostOps6]
      after_results_simp
      exact h.dsc }

/-- Region 6 writes only its output array. -/
theorem c16 : Carried m c (W16 m ρ c) :=
  have h := c15 m ρ c
  { a0 := (W16_of_ne m ρ c main_arg0 (by decide)).trans h.a0
    a1 := (W16_of_ne m ρ c main_arg1 (by decide)).trans h.a1
    a2 := (W16_of_ne m ρ c main_arg2 (by decide)).trans h.a2
    a3 := (W16_of_ne m ρ c main_arg3 (by decide)).trans h.a3
    a4 := (W16_of_ne m ρ c main_arg4 (by decide)).trans h.a4
    a5 := (W16_of_ne m ρ c main_arg5 (by decide)).trans h.a5
    a6 := ((W16_arr m ρ c 2).trans (((dat6 (V15 m ρ) c).arrAt_in 2 rfl _).trans (A_eq6 (V15 m ρ) c 2))).trans h.a6
    a7 := (W16_of_ne m ρ c main_arg7 (by decide)).trans h.a7
    src := (W16_of_ne m ρ c main_v3 (by decide)).trans h.src
    dst := (W16_of_ne m ρ c main_v6 (by decide)).trans h.dst
    dcol := ((W16_arr m ρ c 3).trans (((dat6 (V15 m ρ) c).arrAt_in 3 rfl _).trans (A_eq6 (V15 m ρ) c 3))).trans h.dcol
    dsc := (W16_of_ne m ρ c main_v25 (by decide)).trans h.dsc }

/-- The stretch `hostOps7` writes none of the twelve. -/
theorem c17 : Carried m c (W17 m ρ c) :=
  have h := c16 m ρ c
  { a0 := by
      show StableHlo.after hostOps7 (W16 m ρ c) (Proc.devRef .tc main_arg0) = _
      simp only [hostOps7]
      after_results_simp
      exact h.a0
    a1 := by
      show StableHlo.after hostOps7 (W16 m ρ c) (Proc.devRef .tc main_arg1) = _
      simp only [hostOps7]
      after_results_simp
      exact h.a1
    a2 := by
      show StableHlo.after hostOps7 (W16 m ρ c) (Proc.devRef .tc main_arg2) = _
      simp only [hostOps7]
      after_results_simp
      exact h.a2
    a3 := by
      show StableHlo.after hostOps7 (W16 m ρ c) (Proc.devRef .tc main_arg3) = _
      simp only [hostOps7]
      after_results_simp
      exact h.a3
    a4 := by
      show StableHlo.after hostOps7 (W16 m ρ c) (Proc.devRef .tc main_arg4) = _
      simp only [hostOps7]
      after_results_simp
      exact h.a4
    a5 := by
      show StableHlo.after hostOps7 (W16 m ρ c) (Proc.devRef .tc main_arg5) = _
      simp only [hostOps7]
      after_results_simp
      exact h.a5
    a6 := by
      show StableHlo.after hostOps7 (W16 m ρ c) (Proc.devRef .tc main_arg6) = _
      simp only [hostOps7]
      after_results_simp
      exact h.a6
    a7 := by
      show StableHlo.after hostOps7 (W16 m ρ c) (Proc.devRef .tc main_arg7) = _
      simp only [hostOps7]
      after_results_simp
      exact h.a7
    src := by
      show StableHlo.after hostOps7 (W16 m ρ c) (Proc.devRef .tc main_v3) = _
      simp only [hostOps7]
      after_results_simp
      exact h.src
    dst := by
      show StableHlo.after hostOps7 (W16 m ρ c) (Proc.devRef .tc main_v6) = _
      simp only [hostOps7]
      after_results_simp
      exact h.dst
    dcol := by
      show StableHlo.after hostOps7 (W16 m ρ c) (Proc.devRef .tc main_v17) = _
      simp only [hostOps7]
      after_results_simp
      exact h.dcol
    dsc := by
      show StableHlo.after hostOps7 (W16 m ρ c) (Proc.devRef .tc main_v25) = _
      simp only [hostOps7]
      after_results_simp
      exact h.dsc }

/-- Region 7 writes only its output array. -/
theorem c18 : Carried m c (W18 m ρ c) :=
  have h := c17 m ρ c
  { a0 := (W18_of_ne m ρ c main_arg0 (by decide)).trans h.a0
    a1 := (W18_of_ne m ρ c main_arg1 (by decide)).trans h.a1
    a2 := (W18_of_ne m ρ c main_arg2 (by decide)).trans h.a2
    a3 := (W18_of_ne m ρ c main_arg3 (by decide)).trans h.a3
    a4 := (W18_of_ne m ρ c main_arg4 (by decide)).trans h.a4
    a5 := (W18_of_ne m ρ c main_arg5 (by decide)).trans h.a5
    a6 := (W18_of_ne m ρ c main_arg6 (by decide)).trans h.a6
    a7 := (W18_of_ne m ρ c main_arg7 (by decide)).trans h.a7
    src := (W18_of_ne m ρ c main_v3 (by decide)).trans h.src
    dst := (W18_of_ne m ρ c main_v6 (by decide)).trans h.dst
    dcol := (W18_of_ne m ρ c main_v17 (by decide)).trans h.dcol
    dsc := ((W18_arr m ρ c 1).trans (((dat7 (V17 m ρ) c).arrAt_in 1 rfl _).trans (A_eq7 (V17 m ρ) c 1))).trans h.dsc }

/-- The stretch `hostOps8` writes none of the twelve. -/
theorem c19 : Carried m c (W19 m ρ c) :=
  have h := c18 m ρ c
  { a0 := by
      show StableHlo.after hostOps8 (W18 m ρ c) (Proc.devRef .tc main_arg0) = _
      simp only [hostOps8]
      after_results_simp
      exact h.a0
    a1 := by
      show StableHlo.after hostOps8 (W18 m ρ c) (Proc.devRef .tc main_arg1) = _
      simp only [hostOps8]
      after_results_simp
      exact h.a1
    a2 := by
      show StableHlo.after hostOps8 (W18 m ρ c) (Proc.devRef .tc main_arg2) = _
      simp only [hostOps8]
      after_results_simp
      exact h.a2
    a3 := by
      show StableHlo.after hostOps8 (W18 m ρ c) (Proc.devRef .tc main_arg3) = _
      simp only [hostOps8]
      after_results_simp
      exact h.a3
    a4 := by
      show StableHlo.after hostOps8 (W18 m ρ c) (Proc.devRef .tc main_arg4) = _
      simp only [hostOps8]
      after_results_simp
      exact h.a4
    a5 := by
      show StableHlo.after hostOps8 (W18 m ρ c) (Proc.devRef .tc main_arg5) = _
      simp only [hostOps8]
      after_results_simp
      exact h.a5
    a6 := by
      show StableHlo.after hostOps8 (W18 m ρ c) (Proc.devRef .tc main_arg6) = _
      simp only [hostOps8]
      after_results_simp
      exact h.a6
    a7 := by
      show StableHlo.after hostOps8 (W18 m ρ c) (Proc.devRef .tc main_arg7) = _
      simp only [hostOps8]
      after_results_simp
      exact h.a7
    src := by
      show StableHlo.after hostOps8 (W18 m ρ c) (Proc.devRef .tc main_v3) = _
      simp only [hostOps8]
      after_results_simp
      exact h.src
    dst := by
      show StableHlo.after hostOps8 (W18 m ρ c) (Proc.devRef .tc main_v6) = _
      simp only [hostOps8]
      after_results_simp
      exact h.dst
    dcol := by
      show StableHlo.after hostOps8 (W18 m ρ c) (Proc.devRef .tc main_v17) = _
      simp only [hostOps8]
      after_results_simp
      exact h.dcol
    dsc := by
      show StableHlo.after hostOps8 (W18 m ρ c) (Proc.devRef .tc main_v25) = _
      simp only [hostOps8]
      after_results_simp
      exact h.dsc }

end Cert.KernelIdeal.KFold

end
-- ==== Proof.ScaleRowsRegions.lean ====
/-
  The four row-scaling regions of the kernel, each read as one whole-array function.

  Each of these regions multiplies every row of an edge array (1700000 rows; 64 columns in three of the regions, 16 in
  the last) by that row's entry of a one-column scale array: `out[e, f] = g[e, f] · s[e, 0]`. A region walks the rows in
  170 blocks of 10000; at block `t` it reads rows `10000·t … 10000·t + 9999` of both inputs and writes the same rows of
  the output. So what a block writes is the restriction of ONE function of the two input arrays to that block's rows,
  the 170 blocks cover every row, and the output array after the region is that function: the row-scaled array.
-/
import proofs.«174299_j5360119186060_2_alg».proof.Proof.Gen.KernelIdeal.Frame
import proofs.«174299_j5360119186060_2_alg».proof.Proof.GcnSpec
import Idealize.ShloMosaic.Lib.Pipeline.Value
import Idealize.ShloMosaic.Lib.ValueIdx

noncomputable section

namespace Cert.KernelIdeal.ScaleRows

open Cert.KernelIdeal Cert.KernelIdeal.Gen Cert.KernelIdeal.GcnSpec
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## Region 1: every row of a 64-column edge array times that row's scale

The grid has 170 points; at point `t` each of the three windows has block index `(t, 0)`, so the output block is rows
`10000·t … 10000·t + 9999` of the array (all 64 columns), the first input's block the same rows of its array, and the
second input's block the same rows of the one-column scale array. -/

/-- The body's result at an entry of the block: the entry times its row's scale. -/
theorem pay1_apply (x0 : Vec Ideal S10000x64 .f32) (x1 : Vec Ideal S10000x1 .f32) (p : Fin 10000) (q : Fin 64) :
    k1_pay1 x0 x1 (ix2 p q) = x0 (ix2 p q) * x1 (ix2 p (0 : Fin 1)) := by
  unfold k1_pay1
  rw [mulf_apply, shapeCast_self, shapeCast_self]
  refine congrArg (x0 (ix2 p q) * ·) ?_
  refine broadcastTo_apply x1 _ (ix2 p q) (ix2 p (0 : Fin 1)) fun a => ?_
  match a with
  | ⟨0, _⟩ => rfl
  | ⟨1, _⟩ => rfl

/-- The three windows move together: at point `t` each has block index `(t, 0)` (decided over the 170 points). -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The first input's block at point `t`, at a block entry `y`, is its array at row `10000·t + y₀`, column `y₁`. -/
theorem iblk1_0_apply (c : Dev nD) (t : Fin cfg1.N) (y : S10000x64.Idx) (i : S1700000x64.Idx)
    (h0 : (i 0).val = 10000 * t.val + (y 0).val) (h1 : (i 1).val = (y 1).val) :
    (iblk1 V c 0 t : Vec Ideal S10000x64 .f32) y = (V c (Pipeline.arrRef spec1 0) : FVec Ideal S1700000x64 .f32) i := by
  obtain ⟨e0, e1, -⟩ := idx1 t
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * (y 0).val = (i 0).val; rw [e0, h0]; omega
  | ⟨1, _⟩ => show win1_0.index t 1 * 64 + 1 * (y 1).val = (i 1).val; rw [e1, h1]; omega

/-- The scale column's block at point `t`, at a block entry `y`, is the column at row `10000·t + y₀`. -/
theorem iblk1_1_apply (c : Dev nD) (t : Fin cfg1.N) (y : S10000x1.Idx) (i : S1700000x1.Idx)
    (h0 : (i 0).val = 10000 * t.val + (y 0).val) (h1 : (i 1).val = (y 1).val) :
    (iblk1 V c 1 t : Vec Ideal S10000x1 .f32) y = (V c (Pipeline.arrRef spec1 1) : FVec Ideal S1700000x1 .f32) i := by
  obtain ⟨-, -, e0, e1, -⟩ := idx1 t
  unfold iblk1
  rw [View.read_apply]
  show V c (Pipeline.arrRef spec1 1) _ = V c (Pipeline.arrRef spec1 1) _
  congr 1
  funext a
  apply Fin.ext
  match a with
  | ⟨0, _⟩ => show win1_1.index t 0 * 10000 + 1 * (y 0).val = (i 0).val; rw [e0, h0]; omega
  | ⟨1, _⟩ => show win1_1.index t 1 * 1 + 1 * (y 1).val = (i 1).val; rw [e1, h1]; omega

/-- The body's result over point `t`'s blocks, at block entry `(p, q)`, is the row-scaled array at row `10000·t + p`,
    column `q`. -/
theorem point1_eq (c : Dev nD) (t : Fin cfg1.N) (p : Fin 10000) (q : Fin 64) (i : S1700000x64.Idx)
    (hr : (i 0).val = 10000 * t.val + p.val) (hc : (i 1).val = q.val) :
    k1_pay1 (iblk1 V c 0 t) (iblk1 V c 1 t) (ix2 p q)
      = scaleRows64 (V c (Pipeline.arrRef spec1 0)) (V c (Pipeline.arrRef spec1 1)) i := by
  refine (pay1_apply (iblk1 V c 0 t) (iblk1 V c 1 t) p q).trans ?_
  unfold scaleRows64
  rw [iblk1_0_apply V c t (ix2 p q) i hr hc, iblk1_1_apply V c t (ix2 p (0 : Fin 1)) (ix2 (row i) (0 : Fin 1)) hr rfl]

/-- What point `t` writes back is block `t` of the row-scaled array. -/
theorem flushed1_eq (c : Dev nD) (t : Fin cfg1.N) :
    (dat1 (F := Ideal) V c).flushed 2 t
      = ((cfg1.win 2).blk t).view.read (Elt Ideal) (scaleRows64 (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz]
  simp only [View.ld_unit_zero (S := S10000x64) hz, View.ld_unit_zero (S := S10000x1) hz]
  obtain ⟨-, -, -, -, e0, e1⟩ := idx1 t
  funext j
  obtain ⟨p, q, rfl⟩ : ∃ (p : Fin 10000) (q : Fin 64), j = ix2 p q := ⟨j 0, j 1, eq_ix2 j⟩
  have hp : p.val < 10000 := p.isLt
  have ht : t.val < 170 := lt_of_lt_of_eq t.isLt N_1
  rw [View.read_apply]
  refine point1_eq V c t p q _ ?_ ?_
  · show win1_2.index t 0 * 10000 + 1 * p.val = _; rw [e0]; omega
  · show win1_2.index t 1 * 64 + 1 * q.val = _; rw [e1]; omega

/-- An index of the array is in point `t`'s block iff each coordinate is in the block's range on its axis. -/
theorem mem_blk1 (t : Fin cfg1.N) (i : S1700000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole (Pipeline.arrRef spec1 2)).slice (win1_2.rect t)).set ↔ _
  rw [View.set_slice_whole, Rect.mem_set_unit]
  exact Iff.rfl

/-- Every entry of the array is in some point's block: the point of row `r` is `r / 10000`. -/
theorem cover1 (i : S1700000x64.Idx) :
    ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 170 := N_1
  let t : Fin cfg1.N := ⟨(i 0).val / 10000, by rw [hN]; omega⟩
  obtain ⟨-, -, -, -, e0, e1⟩ := idx1 t
  have ht : t.val = (i 0).val / 10000 := rfl
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e0, ht]; omega
  | ⟨1, _⟩ => show win1_2.index t (1 : Fin 2) * 64 ≤ (i 1).val ∧ (i 1).val < win1_2.index t (1 : Fin 2) * 64 + 64; rw [e1]; omega

/-- The output array after the region: every row of the first input times that row's scale. -/
theorem region1_array (c : Dev nD) :
    (dat1 (F := Ideal) V c).arrAt 2 cfg1.N = scaleRows64 (V c (Pipeline.arrRef spec1 0)) (V c (Pipeline.arrRef spec1 1)) :=
  (dat1 (F := Ideal) V c).arrAt_eq_of_cover 2 _ (fun t _ => flushed1_eq V c t) (cover1)

/-! ## Region 3: every row of a 64-column edge array times that row's scale

The grid has 170 points; at point `t` each of the three windows has block index `(t, 0)`, so the output block is rows
`10000·t … 10000·t + 9999` of the array (all 64 columns), the first input's block the same rows of its array, and the
second input's block the same rows of the one-column scale array. -/

/-- The body's result at an entry of the block: the entry times its row's scale. -/
theorem pay3_apply (x0 : Vec Ideal S10000x64 .f32) (x1 : Vec Ideal S10000x1 .f32) (p : Fin 10000) (q : Fin 64) :
    k3_pay1 x0 x1 (ix2 p q) = x0 (ix2 p q) * x1 (ix2 p (0 : Fin 1)) := by
  unfold k3_pay1
  rw [mulf_apply, shapeCast_self, shapeCast_self]
  refine congrArg (x0 (ix2 p q) * ·) ?_
  refine broadcastTo_apply x1 _ (ix2 p q) (ix2 p (0 : Fin 1)) fun a => ?_
  match a with
  | ⟨0, _⟩ => rfl
  | ⟨1, _⟩ => rfl

/-- The three windows move together: at point `t` each has block index `(t, 0)` (decided over the 170 points). -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The first input's block at point `t`, at a block entry `y`, is its array at row `10000·t + y₀`, column `y₁`. -/
theorem iblk3_0_apply (c : Dev nD) (t : Fin cfg3.N) (y : S10000x64.Idx) (i : S1700000x64.Idx)
    (h0 : (i 0).val = 10000 * t.val + (y 0).val) (h1 : (i 1).val = (y 1).val) :
    (iblk3 V c 0 t : Vec Ideal S10000x64 .f32) y = (V c (Pipeline.arrRef spec3 0) : FVec Ideal S1700000x64 .f32) i := by
  obtain ⟨e0, e1, -⟩ := idx3 t
  unfold iblk3
  rw [View.read_apply]
  show V c (Pipeline.arrRef spec3 0) _ = V c (Pipeline.arrRef spec3 0) _
  congr 1
  funext a
  apply Fin.ext
  match a with
  | ⟨0, _⟩ => show win3_0.index t 0 * 10000 + 1 * (y 0).val = (i 0).val; rw [e0, h0]; omega
  | ⟨1, _⟩ => show win3_0.index t 1 * 64 + 1 * (y 1).val = (i 1).val; rw [e1, h1]; omega

/-- The scale column's block at point `t`, at a block entry `y`, is the column at row `10000·t + y₀`. -/
theorem iblk3_1_apply (c : Dev nD) (t : Fin cfg3.N) (y : S10000x1.Idx) (i : S1700000x1.Idx)
    (h0 : (i 0).val = 10000 * t.val + (y 0).val) (h1 : (i 1).val = (y 1).val) :
    (iblk3 V c 1 t : Vec Ideal S10000x1 .f32) y = (V c (Pipeline.arrRef spec3 1) : FVec Ideal S1700000x1 .f32) i := by
  obtain ⟨-, -, e0, e1, -⟩ := idx3 t
  unfold iblk3
  rw [View.read_apply]
  show V c (Pipeline.arrRef spec3 1) _ = V c (Pipeline.arrRef spec3 1) _
  congr 1
  funext a
  apply Fin.ext
  match a with
  | ⟨0, _⟩ => show win3_1.index t 0 * 10000 + 1 * (y 0).val = (i 0).val; rw [e0, h0]; omega
  | ⟨1, _⟩ => show win3_1.index t 1 * 1 + 1 * (y 1).val = (i 1).val; rw [e1, h1]; omega

/-- The body's result over point `t`'s blocks, at block entry `(p, q)`, is the row-scaled array at row `10000·t + p`,
    column `q`. -/
theorem point3_eq (c : Dev nD) (t : Fin cfg3.N) (p : Fin 10000) (q : Fin 64) (i : S1700000x64.Idx)
    (hr : (i 0).val = 10000 * t.val + p.val) (hc : (i 1).val = q.val) :
    k3_pay1 (iblk3 V c 0 t) (iblk3 V c 1 t) (ix2 p q)
      = scaleRows64 (V c (Pipeline.arrRef spec3 0)) (V c (Pipeline.arrRef spec3 1)) i := by
  refine (pay3_apply (iblk3 V c 0 t) (iblk3 V c 1 t) p q).trans ?_
  unfold scaleRows64
  rw [iblk3_0_apply V c t (ix2 p q) i hr hc, iblk3_1_apply V c t (ix2 p (0 : Fin 1)) (ix2 (row i) (0 : Fin 1)) hr rfl]

/-- What point `t` writes back is block `t` of the row-scaled array. -/
theorem flushed3_eq (c : Dev nD) (t : Fin cfg3.N) :
    (dat3 (F := Ideal) V c).flushed 2 t
      = ((cfg3.win 2).blk t).view.read (Elt Ideal) (scaleRows64 (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S10000x64) hz, View.ld_unit_zero (S := S10000x1) hz]
  obtain ⟨-, -, -, -, e0, e1⟩ := idx3 t
  funext j
  obtain ⟨p, q, rfl⟩ : ∃ (p : Fin 10000) (q : Fin 64), j = ix2 p q := ⟨j 0, j 1, eq_ix2 j⟩
  have hp : p.val < 10000 := p.isLt
  have ht : t.val < 170 := lt_of_lt_of_eq t.isLt N_3
  rw [View.read_apply]
  refine point3_eq V c t p q _ ?_ ?_
  · show win3_2.index t 0 * 10000 + 1 * p.val = _; rw [e0]; omega
  · show win3_2.index t 1 * 64 + 1 * q.val = _; rw [e1]; omega

/-- An index of the array is in point `t`'s block iff each coordinate is in the block's range on its axis. -/
theorem mem_blk3 (t : Fin cfg3.N) (i : S1700000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole (Pipeline.arrRef spec3 2)).slice (win3_2.rect t)).set ↔ _
  rw [View.set_slice_whole, Rect.mem_set_unit]
  exact Iff.rfl

/-- Every entry of the array is in some point's block: the point of row `r` is `r / 10000`. -/
theorem cover3 (i : S1700000x64.Idx) :
    ∃ t : Fin cfg3.N, (cfg3.win 2).flush t = true ∧ i ∈ ((cfg3.win 2).blk t).view.set := by
  have hi0 : (i 0).val < 1700000 := (i 0).isLt
  have hi1 : (i 1).val < 64 := (i 1).isLt
  have hN : cfg3.N = 170 := N_3
  let t : Fin cfg3.N := ⟨(i 0).val / 10000, by rw [hN]; omega⟩
  obtain ⟨-, -, -, -, e0, e1⟩ := idx3 t
  have ht : t.val = (i 0).val / 10000 := rfl
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; rw [e0, ht]; omega
  | ⟨1, _⟩ => show win3_2.index t (1 : Fin 2) * 64 ≤ (i 1).val ∧ (i 1).val < win3_2.index t (1 : Fin 2) * 64 + 64; rw [e1]; omega

/-- The output array after the region: every row of the first input times that row's scale. -/
theorem region3_array (c : Dev nD) :
    (dat3 (F := Ideal) V c).arrAt 2 cfg3.N = scaleRows64 (V c (Pipeline.arrRef spec3 0)) (V c (Pipeline.arrRef spec3 1)) :=
  (dat3 (F := Ideal) V c).arrAt_eq_of_cover 2 _ (fun t _ => flushed3_eq V c t) (cover3)

/-! ## Region 5: every row of a 64-column edge array times that row's scale

The grid has 170 points; at point `t` each of the three windows has block index `(t, 0)`, so the output block is rows
`10000·t … 10000·t + 9999` of the array (all 64 columns), the first input's block the same rows of its array, and the
second input's block the same rows of the one-column scale array. -/

/-- The body's result at an entry of the block: the entry times its row's scale. -/
theorem pay5_apply (x0 : Vec Ideal S10000x64 .f32) (x1 : Vec Ideal S10000x1 .f32) (p : Fin 10000) (q : Fin 64) :
    k5_pay1 x0 x1 (ix2 p q) = x0 (ix2 p q) * x1 (ix2 p (0 : Fin 1)) := by
  unfold k5_pay1
  rw [mulf_apply, shapeCast_self, shapeCast_self]
  refine congrArg (x0 (ix2 p q) * ·) ?_
  refine broadcastTo_apply x1 _ (ix2 p q) (ix2 p (0 : Fin 1)) fun a => ?_
  match a with
  | ⟨0, _⟩ => rfl
  | ⟨1, _⟩ => rfl

/-- The three windows move together: at point `t` each has block index `(t, 0)` (decided over the 170 points). -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The first input's block at point `t`, at a block entry `y`, is its array at row `10000·t + y₀`, column `y₁`. -/
theorem iblk5_0_apply (c : Dev nD) (t : Fin cfg5.N) (y : S10000x64.Idx) (i : S1700000x64.Idx)
    (h0 : (i 0).val = 10000 * t.val + (y 0).val) (h1 : (i 1).val = (y 1).val) :
    (iblk5 V c 0 t : Vec Ideal S10000x64 .f32) y = (V c (Pipeline.arrRef spec5 0) : FVec Ideal S1700000x64 .f32) i := by
  obtain ⟨e0, e1, -⟩ := idx5 t
  unfold iblk5
  rw [View.read_apply]
  show V c (Pipeline.arrRef spec5 0) _ = V c (Pipeline.arrRef spec5 0) _
  congr 1
  funext a
  apply Fin.ext
  match a with
  | ⟨0, _⟩ => show win5_0.index t 0 * 10000 + 1 * (y 0).val = (i 0).val; rw [e0, h0]; omega
  | ⟨1, _⟩ => show win5_0.index t 1 * 64 + 1 * (y 1).val = (i 1).val; rw [e1, h1]; omega

/-- The scale column's block at point `t`, at a block entry `y`, is the column at row `10000·t + y₀`. -/
theorem iblk5_1_apply (c : Dev nD) (t : Fin cfg5.N) (y : S10000x1.Idx) (i : S1700000x1.Idx)
    (h0 : (i 0).val = 10000 * t.val + (y 0).val) (h1 : (i 1).val = (y 1).val) :
    (iblk5 V c 1 t : Vec Ideal S10000x1 .f32) y = (V c (Pipeline.arrRef spec5 1) : FVec Ideal S1700000x1 .f32) i := by
  obtain ⟨-, -, e0, e1, -⟩ := idx5 t
  unfold iblk5
  rw [View.read_apply]
  show V c (Pipeline.arrRef spec5 1) _ = V c (Pipeline.arrRef spec5 1) _
  congr 1
  funext a
  apply Fin.ext
  match a with
  | ⟨0, _⟩ => show win5_1.index t 0 * 10000 + 1 * (y 0).val = (i 0).val; rw [e0, h0]; omega
  | ⟨1, _⟩ => show win5_1.index t 1 * 1 + 1 * (y 1).val = (i 1).val; rw [e1, h1]; omega

/-- The body's result over point `t`'s blocks, at block entry `(p, q)`, is the row-scaled array at row `10000·t + p`,
    column `q`. -/
theorem point5_eq (c : Dev nD) (t : Fin cfg5.N) (p : Fin 10000) (q : Fin 64) (i : S1700000x64.Idx)
    (hr : (i 0).val = 10000 * t.val + p.val) (hc : (i 1).val = q.val) :
    k5_pay1 (iblk5 V c 0 t) (iblk5 V c 1 t) (ix2 p q)
      = scaleRows64 (V c (Pipeline.arrRef spec5 0)) (V c (Pipeline.arrRef spec5 1)) i := by
  refine (pay5_apply (iblk5 V c 0 t) (iblk5 V c 1 t) p q).trans ?_
  unfold scaleRows64
  rw [iblk5_0_apply V c t (ix2 p q) i hr hc, iblk5_1_apply V c t (ix2 p (0 : Fin 1)) (ix2 (row i) (0 : Fin 1)) hr rfl]

/-- What point `t` writes back is block `t` of the row-scaled array. -/
theorem flushed5_eq (c : Dev nD) (t : Fin cfg5.N) :
    (dat5 (F := Ideal) V c).flushed 2 t
      = ((cfg5.win 2).blk t).view.read (Elt Ideal) (scaleRows64 (V c (Pipeline.arrRef spec5 0)) (V c (Pipeline.arrRef spec5 1))) := by
  show (cfg5.win 2).cut (grid5.coords t) ((dat5 (F := Ideal) V c).after 2 t) = _
  rw [after5_2]
  unfold out5_2
  rw [View.canon_unit_zero hz]
  simp only [View.ld_unit_zero (S := S10000x64) hz, View.ld_unit_zero (S := S10000x1) hz]
  obtain ⟨-, -, -, -, e0, e1⟩ := idx5 t
  funext j
  obtain ⟨p, q, rfl⟩ : ∃ (p : Fin 10000) (q : Fin 64), j = ix2 p q := ⟨j 0, j 1, eq_ix2 j⟩
  have hp : p.val < 10000 := p.isLt
  have ht : t.val < 170 := lt_of_lt_of_eq t.isLt N_5
  rw [View.read_apply]
  refine point5_eq V c t p q _ ?_ ?_
  · show win5_2.index t 0 * 10000 + 1 * p.val = _; rw [e0]; omega
  · show win5_2.index t 1 * 64 + 1 * q.val = _; rw [e1]; omega

/-- An index of the array is in point `t`'s block iff each coordinate is in the block's range on its axis. -/
theorem mem_blk5 (t : Fin cfg5.N) (i : S1700000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole (Pipeline.arrRef spec5 2)).slice (win5_2.rect t)).set ↔ _
  rw [View.set_slice_whole, Rect.mem_set_unit]
  exact Iff.rfl

/-- Every entry of the array is in some point's block: the point of row `r` is `r / 10000`. -/
theorem cover5 (i : S1700000x64.Idx) :
    ∃ t : Fin cfg5.N, (cfg5.win 2).flush t = true ∧ i ∈ ((cfg5.win 2).blk t).view.set := by
  have hi0 : (i 0).val < 1700000 := (i 0).isLt
  have hi1 : (i 1).val < 64 := (i 1).isLt
  have hN : cfg5.N = 170 := N_5
  let t : Fin cfg5.N := ⟨(i 0).val / 10000, by rw [hN]; omega⟩
  obtain ⟨-, -, -, -, e0, e1⟩ := idx5 t
  have ht : t.val = (i 0).val / 10000 := rfl
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; rw [e0, ht]; omega
  | ⟨1, _⟩ => show win5_2.index t (1 : Fin 2) * 64 ≤ (i 1).val ∧ (i 1).val < win5_2.index t (1 : Fin 2) * 64 + 64; rw [e1]; omega

/-- The output array after the region: every row of the first input times that row's scale. -/
theorem region5_array (c : Dev nD) :
    (dat5 (F := Ideal) V c).arrAt 2 cfg5.N = scaleRows64 (V c (Pipeline.arrRef spec5 0)) (V c (Pipeline.arrRef spec5 1)) :=
  (dat5 (F := Ideal) V c).arrAt_eq_of_cover 2 _ (fun t _ => flushed5_eq V c t) (cover5)

/-! ## Region 7: every row of a 16-column edge array times that row's scale

The grid has 170 points; at point `t` each of the three windows has block index `(t, 0)`, so the output block is rows
`10000·t … 10000·t + 9999` of the array (all 16 columns), the first input's block the same rows of its array, and the
second input's block the same rows of the one-column scale array. -/

/-- The body's result at an entry of the block: the entry times its row's scale. -/
theorem pay7_apply (x0 : Vec Ideal S10000x16 .f32) (x1 : Vec Ideal S10000x1 .f32) (p : Fin 10000) (q : Fin 16) :
    k7_pay1 x0 x1 (ix2 p q) = x0 (ix2 p q) * x1 (ix2 p (0 : Fin 1)) := by
  unfold k7_pay1
  rw [mulf_apply, shapeCast_self, shapeCast_self]
  refine congrArg (x0 (ix2 p q) * ·) ?_
  refine broadcastTo_apply x1 _ (ix2 p q) (ix2 p (0 : Fin 1)) fun a => ?_
  match a with
  | ⟨0, _⟩ => rfl
  | ⟨1, _⟩ => rfl

/-- The three windows move together: at point `t` each has block index `(t, 0)` (decided over the 170 points). -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The first input's block at point `t`, at a block entry `y`, is its array at row `10000·t + y₀`, column `y₁`. -/
theorem iblk7_0_apply (c : Dev nD) (t : Fin cfg7.N) (y : S10000x16.Idx) (i : S1700000x16.Idx)
    (h0 : (i 0).val = 10000 * t.val + (y 0).val) (h1 : (i 1).val = (y 1).val) :
    (iblk7 V c 0 t : Vec Ideal S10000x16 .f32) y = (V c (Pipeline.arrRef spec7 0) : FVec Ideal S1700000x16 .f32) i := by
  obtain ⟨e0, e1, -⟩ := idx7 t
  unfold iblk7
  rw [View.read_apply]
  show V c (Pipeline.arrRef spec7 0) _ = V c (Pipeline.arrRef spec7 0) _
  congr 1
  funext a
  apply Fin.ext
  match a with
  | ⟨0, _⟩ => show win7_0.index t 0 * 10000 + 1 * (y 0).val = (i 0).val; rw [e0, h0]; omega
  | ⟨1, _⟩ => show win7_0.index t 1 * 16 + 1 * (y 1).val = (i 1).val; rw [e1, h1]; omega

/-- The scale column's block at point `t`, at a block entry `y`, is the column at row `10000·t + y₀`. -/
theorem iblk7_1_apply (c : Dev nD) (t : Fin cfg7.N) (y : S10000x1.Idx) (i : S1700000x1.Idx)
    (h0 : (i 0).val = 10000 * t.val + (y 0).val) (h1 : (i 1).val = (y 1).val) :
    (iblk7 V c 1 t : Vec Ideal S10000x1 .f32) y = (V c (Pipeline.arrRef spec7 1) : FVec Ideal S1700000x1 .f32) i := by
  obtain ⟨-, -, e0, e1, -⟩ := idx7 t
  unfold iblk7
  rw [View.read_apply]
  show V c (Pipeline.arrRef spec7 1) _ = V c (Pipeline.arrRef spec7 1) _
  congr 1
  funext a
  apply Fin.ext
  match a with
  | ⟨0, _⟩ => show win7_1.index t 0 * 10000 + 1 * (y 0).val = (i 0).val; rw [e0, h0]; omega
  | ⟨1, _⟩ => show win7_1.index t 1 * 1 + 1 * (y 1).val = (i 1).val; rw [e1, h1]; omega

/-- The body's result over point `t`'s blocks, at block entry `(p, q)`, is the row-scaled array at row `10000·t + p`,
    column `q`. -/
theorem point7_eq (c : Dev nD) (t : Fin cfg7.N) (p : Fin 10000) (q : Fin 16) (i : S1700000x16.Idx)
    (hr : (i 0).val = 10000 * t.val + p.val) (hc : (i 1).val = q.val) :
    k7_pay1 (iblk7 V c 0 t) (iblk7 V c 1 t) (ix2 p q)
      = scaleRows16 (V c (Pipeline.arrRef spec7 0)) (V c (Pipeline.arrRef spec7 1)) i := by
  refine (pay7_apply (iblk7 V c 0 t) (iblk7 V c 1 t) p q).trans ?_
  unfold scaleRows16
  rw [iblk7_0_apply V c t (ix2 p q) i hr hc, iblk7_1_apply V c t (ix2 p (0 : Fin 1)) (ix2 (row i) (0 : Fin 1)) hr rfl]

/-- What point `t` writes back is block `t` of the row-scaled array. -/
theorem flushed7_eq (c : Dev nD) (t : Fin cfg7.N) :
    (dat7 (F := Ideal) V c).flushed 2 t
      = ((cfg7.win 2).blk t).view.read (Elt Ideal) (scaleRows16 (V c (Pipeline.arrRef spec7 0)) (V c (Pipeline.arrRef spec7 1))) := by
  show (cfg7.win 2).cut (grid7.coords t) ((dat7 (F := Ideal) V c).after 2 t) = _
  rw [after7_2]
  unfold out7_2
  rw [View.canon_unit_zero hz]
  simp only [View.ld_unit_zero (S := S10000x16) hz, View.ld_unit_zero (S := S10000x1) hz]
  obtain ⟨-, -, -, -, e0, e1⟩ := idx7 t
  funext j
  obtain ⟨p, q, rfl⟩ : ∃ (p : Fin 10000) (q : Fin 16), j = ix2 p q := ⟨j 0, j 1, eq_ix2 j⟩
  have hp : p.val < 10000 := p.isLt
  have ht : t.val < 170 := lt_of_lt_of_eq t.isLt N_7
  rw [View.read_apply]
  refine point7_eq V c t p q _ ?_ ?_
  · show win7_2.index t 0 * 10000 + 1 * p.val = _; rw [e0]; omega
  · show win7_2.index t 1 * 16 + 1 * q.val = _; rw [e1]; omega

/-- An index of the array is in point `t`'s block iff each coordinate is in the block's range on its axis. -/
theorem mem_blk7 (t : Fin cfg7.N) (i : S1700000x16.Idx) :
    i ∈ ((cfg7.win 2).blk t).view.set ↔ ∀ a : Fin 2, win7_2.index t a * S10000x16.size a ≤ (i a).val ∧ (i a).val < win7_2.index t a * S10000x16.size a + S10000x16.size a := by
  show i ∈ ((View.whole (Pipeline.arrRef spec7 2)).slice (win7_2.rect t)).set ↔ _
  rw [View.set_slice_whole, Rect.mem_set_unit]
  exact Iff.rfl

/-- Every entry of the array is in some point's block: the point of row `r` is `r / 10000`. -/
theorem cover7 (i : S1700000x16.Idx) :
    ∃ t : Fin cfg7.N, (cfg7.win 2).flush t = true ∧ i ∈ ((cfg7.win 2).blk t).view.set := by
  have hi0 : (i 0).val < 1700000 := (i 0).isLt
  have hi1 : (i 1).val < 16 := (i 1).isLt
  have hN : cfg7.N = 170 := N_7
  let t : Fin cfg7.N := ⟨(i 0).val / 10000, by rw [hN]; omega⟩
  obtain ⟨-, -, -, -, e0, e1⟩ := idx7 t
  have ht : t.val = (i 0).val / 10000 := rfl
  refine ⟨t, flush7_2 t, ?_⟩
  rw [mem_blk7]
  intro a
  match a with
  | ⟨0, _⟩ => show win7_2.index t (0 : Fin 2) * 10000 ≤ (i 0).val ∧ (i 0).val < win7_2.index t (0 : Fin 2) * 10000 + 10000; rw [e0, ht]; omega
  | ⟨1, _⟩ => show win7_2.index t (1 : Fin 2) * 16 ≤ (i 1).val ∧ (i 1).val < win7_2.index t (1 : Fin 2) * 16 + 16; rw [e1]; omega

/-- The output array after the region: every row of the first input times that row's scale. -/
theorem region7_array (c : Dev nD) :
    (dat7 (F := Ideal) V c).arrAt 2 cfg7.N = scaleRows16 (V c (Pipeline.arrRef spec7 0)) (V c (Pipeline.arrRef spec7 1)) :=
  (dat7 (F := Ideal) V c).arrAt_eq_of_cover 2 _ (fun t _ => flushed7_eq V c t) (cover7)

end Cert.KernelIdeal.ScaleRows

end
-- ==== Proof.LibMatmulNN.lean ====
/-
  A matrix product read at an entry, over the extended reals.

  For an M×K array `a` and a K×N array `w`, the product contracting `a`'s second axis with `w`'s first, accumulated into
  the zero array, has at entry (p, n) the value  Σ_{k < K} a[p, k] · w[k, n]:  a finite sum of products of extended
  reals, with nothing left of any blocking or order of accumulation.
-/
import Idealize.ShloMosaic.PureOps.Ideal.Laws
import Idealize.ShloMosaic.Lib.ValueIdx

noncomputable section

namespace Cert.LibMatmulNN

open Idealize.ShloMosaic Idealize.ShloMosaic.ValueIdx

/-- At the ideal values, a `tpu.matmul` of an M×K by a K×N array whose dimension numbers are the plain ones
    (contract the left operand's axis 1 with the right operand's axis 0, no batch axis), into the zero accumulator,
    read at entry `(p, n)`, is the sum over `k` of `a[p, k] * w[k, n]`.  The dimension record is any one equal to
    `DotDims.plain M K N` (a printed program's own record is, by `rfl`). -/
theorem matmul_zero_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    FloatOps.matmul D prec a w (constant ⟨2, ![M, N]⟩ .f32 0x00000000#32) (ix2 p n)
      = ∑ k : Fin K, a (ix2 p k) * w (ix2 k n) := by
  subst hD
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibMatmulNN

end
-- ==== Proof.MatmulRegions.lean ====
/-
  The four node-feature kernels of the network, each read as ONE whole-array function of its input arrays.

  Every one of them walks the 100000 nodes in ten blocks of 10000 rows. On a block it forms the matrix product of the
  block's rows (in the later layers: of the rows after the previous layer's bias is added and negatives are clamped to
  zero) with the whole weight matrix, and multiplies row n of the product by the node's scale d[n, 0]. Over the extended
  reals a change of float format is the identity and a product accumulated into the zero array is the plain finite sum,
  so entry (n, f) of the result is  (∑ k < 64, x[n, k] · w[k, f]) · d[n, 0]  — it depends on row n of the inputs only.
  Hence what grid point t writes back, rows [10000 t, 10000 t + 10000) of the output, is exactly those rows of the
  whole-array function; the ten blocks tile the array (row r lies in block r / 10000), and the array after the run is
  that function.

  Layout of the file: the two spreading operations read at an entry (a scale column across a row, a bias row down a
  column); each kernel's arithmetic at an entry (p, q) of a block; then per kernel: where the blocks sit (the index maps
  over the ten grid points), each input block as rows of its array, one entry of a block against the whole-array
  function, the block written back, membership of an index in a block, and the array after the run.
-/
import proofs.«174299_j5360119186060_2_alg».proof.Proof.Gen.KernelIdeal.Frame
import proofs.«174299_j5360119186060_2_alg».proof.Proof.GcnSpec
import proofs.«174299_j5360119186060_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.MatmulScale

open Cert.KernelIdeal Cert.KernelIdeal.Gen Cert.KernelIdeal.GcnSpec
open Idealize.ShloMosaic Idealize.ShloMosaic.ValueIdx Idealize.ShloMosaic.TcCoe Idealize.SL.Sem
open Idealize.ShloMosaic.Pipeline (Dat)

/-! ## Spreading a column or a row, read at an entry -/

/-- The zero offsets of a whole-block access, as the constant function. -/
theorem zero_offsets : (![0, 0] : Fin 2 → Nat) = fun _ => 0 := funext fun a => by fin_cases a <;> rfl

/-- A per-row scale column spread over 64 columns reads, at (p, q), the column's entry of row p. -/
theorem spread_col64 (d : FVec Ideal S10000x1 .f32) (p : Fin 10000) (q : Fin 64) :
    broadcastTo S10000x64 d broadcasts_S10000x1_S10000x64 (ix2 p q) = d (ix2 p (0 : Fin 1)) := by
  refine broadcastTo_apply d _ (ix2 p q) (ix2 p (0 : Fin 1)) fun a => ?_
  match a with
  | ⟨0, _⟩ => rfl
  | ⟨1, _⟩ => rfl

/-- The same over 16 columns. -/
theorem spread_col16 (d : FVec Ideal S10000x1 .f32) (p : Fin 10000) (q : Fin 16) :
    broadcastTo S10000x16 d broadcasts_S10000x1_S10000x16 (ix2 p q) = d (ix2 p (0 : Fin 1)) := by
  refine broadcastTo_apply d _ (ix2 p q) (ix2 p (0 : Fin 1)) fun a => ?_
  match a with
  | ⟨0, _⟩ => rfl
  | ⟨1, _⟩ => rfl

/-- A bias row spread over 10000 rows reads, at (p, q), the row's entry of column q. -/
theorem spread_row64 (b : FVec Ideal S1x64 .f32) (p : Fin 10000) (q : Fin 64) :
    broadcastTo S10000x64 b broadcasts_S1x64_S10000x64 (ix2 p q) = b (ix2 (0 : Fin 1) q) := by
  refine broadcastTo_apply b _ (ix2 p q) (ix2 (0 : Fin 1) q) fun a => ?_
  match a with
  | ⟨0, _⟩ => rfl
  | ⟨1, _⟩ => rfl

/-! ## Each kernel's arithmetic at an entry of a block -/

/-- The first layer's block at (p, q): row p of the block's rows against column q of the weight, times the row's scale. -/
theorem mm_scale_entry (x : Vec Ideal S10000x64 .f32) (w : Vec Ideal S64x64 .f32) (d : Vec Ideal S10000x1 .f32)
    (p : Fin 10000) (q : Fin 64) :
    k0_pay1 x w d (ix2 p q) = (∑ k : Fin 64, x (ix2 p k) * w (ix2 k q)) * d (ix2 p (0 : Fin 1)) := by
  unfold k0_pay1
  refine (mulf_apply _ _ _).trans ?_
  refine congrArg₂ (· * ·) ?_ ?_
  · exact Cert.LibMatmulNN.matmul_zero_apply _ rfl none _ _ p q
  · rw [shapeCast_self]
    exact spread_col64 d p q

/-- The second layer's block at (p, q): the rows are first shifted by the bias and clamped at zero. -/
theorem biasrelu_mm_scale_entry2 (a : Vec Ideal S10000x64 .f32) (b : Vec Ideal S1x64 .f32) (w : Vec Ideal S64x64 .f32)
    (d : Vec Ideal S10000x1 .f32) (p : Fin 10000) (q : Fin 64) :
    k2_pay1 a b w d (ix2 p q)
      = (∑ k : Fin 64, max (a (ix2 p k) + b (ix2 (0 : Fin 1) k)) (Ideal.ofBits .f32 0x00000000#32) * w (ix2 k q))
        * d (ix2 p (0 : Fin 1)) := by
  unfold k2_pay1
  refine (mulf_apply _ _ _).trans ?_
  refine congrArg₂ (· * ·) ?_ ?_
  · refine (Cert.LibMatmulNN.matmul_zero_apply _ rfl none _ _ p q).trans ?_
    refine Finset.sum_congr rfl fun k _ => ?_
    rw [shapeCast_self, shapeCast_self, shapeCast_self]
    show max (a (ix2 p k) + broadcastTo S10000x64 b broadcasts_S1x64_S10000x64 (ix2 p k)) (Ideal.ofBits .f32 0x00000000#32)
        * w (ix2 k q) = _
    rw [spread_row64]
  · rw [shapeCast_self]
    exact spread_col64 d p q

/-- The third layer's block at (p, q): the same arithmetic. -/
theorem biasrelu_mm_scale_entry4 (a : Vec Ideal S10000x64 .f32) (b : Vec Ideal S1x64 .f32) (w : Vec Ideal S64x64 .f32)
    (d : Vec Ideal S10000x1 .f32) (p : Fin 10000) (q : Fin 64) :
    k4_pay1 a b w d (ix2 p q)
      = (∑ k : Fin 64, max (a (ix2 p k) + b (ix2 (0 : Fin 1) k)) (Ideal.ofBits .f32 0x00000000#32) * w (ix2 k q))
        * d (ix2 p (0 : Fin 1)) := by
  unfold k4_pay1
  refine (mulf_apply _ _ _).trans ?_
  refine congrArg₂ (· * ·) ?_ ?_
  · refine (Cert.LibMatmulNN.matmul_zero_apply _ rfl none _ _ p q).trans ?_
    refine Finset.sum_congr rfl fun k _ => ?_
    rw [shapeCast_self, shapeCast_self, shapeCast_self]
    show max (a (ix2 p k) + broadcastTo S10000x64 b broadcasts_S1x64_S10000x64 (ix2 p k)) (Ideal.ofBits .f32 0x00000000#32)
        * w (ix2 k q) = _
    rw [spread_row64]
  · rw [shapeCast_self]
    exact spread_col64 d p q

/-- The last layer's block at (p, q), 16 columns wide. -/
theorem biasrelu_mm_scale_entry6 (a : Vec Ideal S10000x64 .f32) (b : Vec Ideal S1x64 .f32) (w : Vec Ideal S64x16 .f32)
    (d : Vec Ideal S10000x1 .f32) (p : Fin 10000) (q : Fin 16) :
    k6_pay1 a b w d (ix2 p q)
      = (∑ k : Fin 64, max (a (ix2 p k) + b (ix2 (0 : Fin 1) k)) (Ideal.ofBits .f32 0x00000000#32) * w (ix2 k q))
        * d (ix2 p (0 : Fin 1)) := by
  unfold k6_pay1
  refine (mulf_apply _ _ _).trans ?_
  refine congrArg₂ (· * ·) ?_ ?_
  · refine (Cert.LibMatmulNN.matmul_zero_apply _ rfl none _ _ p q).trans ?_
    refine Finset.sum_congr rfl fun k _ => ?_
    rw [shapeCast_self, shapeCast_self]
    show max (a (ix2 p k) + broadcastTo S10000x64 b broadcasts_S1x64_S10000x64 (ix2 p k)) (Ideal.ofBits .f32 0x00000000#32)
        * w (ix2 k q) = _
    rw [spread_row64]
  · rw [shapeCast_self]
    exact spread_col16 d p q

/-! ## The first layer: x rows (window 0), the weight (1), the scale column (2), the output (3) -/

section Region0
variable (V : (c : Dev nD) → (b : Ref sig .tc) → Buf (Elt Ideal) ((c : Thread nD τ).loc b))

/-- The index maps over the ten grid points: the row-blocked windows sit at block (t, 0), the weight at block (0, 0). -/
theorem blocks_at0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The x block at point t is rows 10000 t … 10000 t + 9999 of x. -/
theorem rows0_0 (c : Dev nD) (t : Fin cfg0.N) (y : S10000x64.Idx) (i : S100000x64.Idx)
    (h0 : (i 0).val = 10000 * t.val + (y 0).val) (h1 : (i 1).val = (y 1).val) :
    (iblk0 V c 0 t : Vec Ideal S10000x64 .f32) y = (V c (Pipeline.arrRef spec0 0) : S100000x64.Idx → EReal) i := by
  obtain ⟨e0, e1, -⟩ := blocks_at0 t
  unfold iblk0
  rw [View.read_apply]
  show V c (Pipeline.arrRef spec0 0) _ = V c (Pipeline.arrRef spec0 0) _
  congr 1
  funext a
  apply Fin.ext
  match a with
  | ⟨0, _⟩ => show win0_0.index t 0 * 10000 + 1 * (y 0).val = (i 0).val; rw [e0, h0]; omega
  | ⟨1, _⟩ => show win0_0.index t 1 * 64 + 1 * (y 1).val = (i 1).val; rw [e1, h1]; omega

/-- The weight block at every point is the whole weight. -/
theorem whole0_1 (c : Dev nD) (t : Fin cfg0.N) (y : S64x64.Idx) :
    (iblk0 V c 1 t : Vec Ideal S64x64 .f32) y = (V c (Pipeline.arrRef spec0 1) : S64x64.Idx → EReal) y := by
  obtain ⟨-, -, e0, e1, -⟩ := blocks_at0 t
  unfold iblk0
  rw [View.read_apply]
  show V c (Pipeline.arrRef spec0 1) _ = V c (Pipeline.arrRef spec0 1) _
  congr 1
  funext a
  apply Fin.ext
  match a with
  | ⟨0, _⟩ => show win0_1.index t 0 * 64 + 1 * (y 0).val = (y 0).val; rw [e0]; omega
  | ⟨1, _⟩ => show win0_1.index t 1 * 64 + 1 * (y 1).val = (y 1).val; rw [e1]; omega

/-- The scale block at point t is rows 10000 t … 10000 t + 9999 of the scale column. -/
theorem rows0_2 (c : Dev nD) (t : Fin cfg0.N) (y : S10000x1.Idx) (i : S100000x1.Idx)
    (h0 : (i 0).val = 10000 * t.val + (y 0).val) (h1 : (i 1).val = (y 1).val) :
    (iblk0 V c 2 t : Vec Ideal S10000x1 .f32) y = (V c (Pipeline.arrRef spec0 2) : S100000x1.Idx → EReal) i := by
  obtain ⟨-, -, -, -, e0, e1, -⟩ := blocks_at0 t
  unfold iblk0
  rw [View.read_apply]
  show V c (Pipeline.arrRef spec0 2) _ = V c (Pipeline.arrRef spec0 2) _
  congr 1
  funext a
  apply Fin.ext
  match a with
  | ⟨0, _⟩ => show win0_2.index t 0 * 10000 + 1 * (y 0).val = (i 0).val; rw [e0, h0]; omega
  | ⟨1, _⟩ => show win0_2.index t 1 * 1 + 1 * (y 1).val = (i 1).val; rw [e1, h1]; omega

/-- One entry of what the point with row offset 10000 T computes is the whole-array function at the entry T blocks
    further down: the entry reads row p of the blocks, which is row 10000 T + p of the arrays. -/
theorem entry0 (x0 : Vec Ideal S10000x64 .f32) (x1 : Vec Ideal S64x64 .f32) (x2 : Vec Ideal S10000x1 .f32)
    (X : FVec Ideal S100000x64 .f32) (W : FVec Ideal S64x64 .f32) (D : FVec Ideal S100000x1 .f32) (T : Nat)
    (hx0 : ∀ (y : S10000x64.Idx) (i : S100000x64.Idx), (i 0).val = 10000 * T + (y 0).val → (i 1).val = (y 1).val → x0 y = X i)
    (hx1 : ∀ y : S64x64.Idx, x1 y = W y)
    (hx2 : ∀ (y : S10000x1.Idx) (i : S100000x1.Idx), (i 0).val = 10000 * T + (y 0).val → (i 1).val = (y 1).val → x2 y = D i)
    (y : S10000x64.Idx) (i : S100000x64.Idx) (h0 : (i 0).val = 10000 * T + (y 0).val) (h1 : (i 1).val = (y 1).val) :
    k0_pay1 x0 x1 x2 y = mmScale X W D i := by
  obtain ⟨p, q, rfl⟩ : ∃ (p : Fin 10000) (q : Fin 64), y = ix2 p q := ⟨y 0, y 1, eq_ix2 y⟩
  rw [mm_scale_entry]
  unfold mmScale
  have hq : col i = q := Fin.ext h1
  rw [hq, hx2 (ix2 p (0 : Fin 1)) (ix2 (row i) (0 : Fin 1)) h0 rfl]
  refine congrArg (· * _) (Finset.sum_congr rfl fun k _ => ?_)
  rw [hx0 (ix2 p k) (ix2 (row i) k) h0 rfl, hx1]

/-- What grid point t writes back is rows [10000 t, 10000 t + 10000) of the whole-array function. -/
theorem written0 (c : Dev nD) (t : Fin cfg0.N) :
    (dat0 V c).flushed 3 t = ((cfg0.win 3).blk t).view.read (Elt Ideal)
      (mmScale (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets]
  simp only [View.ld_unit_zero (S := S10000x64) zero_offsets, View.ld_unit_zero (S := S64x64) zero_offsets,
    View.ld_unit_zero (S := S10000x1) zero_offsets]
  obtain ⟨-, -, -, -, -, -, e0, e1⟩ := blocks_at0 t
  funext j
  refine entry0 _ _ _ _ _ _ t.val (rows0_0 V c t) (whole0_1 V c t) (rows0_2 V c t) j _ ?_ ?_
  · show win0_3.index t 0 * 10000 + 1 * (j 0).val = 10000 * t.val + (j 0).val; rw [e0]; omega
  · show win0_3.index t 1 * 64 + 1 * (j 1).val = (j 1).val; rw [e1]; omega

/-- An index of the output is in point t's block iff each coordinate is in the block's range on its axis. -/
theorem mem_block0 (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v26).slice (win0_3.rect t)).set ↔ _
  rw [View.set_slice_whole, Rect.mem_set_unit]
  exact Iff.rfl

/-- THE FIRST LAYER'S NODE FEATURES after the run: row r lies in the block of point r / 10000, so the ten blocks
    cover the array, and it holds the whole-array function of the region's input arrays. -/
theorem region0_array (c : Dev nD) :
    (Gen.dat0 (F := Ideal) V c).arrAt 3 cfg0.N
      = mmScale (V c (Pipeline.arrRef spec0 0)) (V c (Pipeline.arrRef spec0 1)) (V c (Pipeline.arrRef spec0 2)) :=
  (dat0 V c).arrAt_eq_of_cover 3 _ (fun t _ => written0 V c t) fun i => by
    have hi0 : (i 0).val < 100000 := (i 0).isLt
    have hi1 : (i 1).val < 64 := (i 1).isLt
    have hN : grid0.N = 10 := N_0
    let t : Fin cfg0.N := ⟨(i 0).val / 10000, by show (i 0).val / 10000 < grid0.N; rw [hN]; omega⟩
    obtain ⟨-, -, -, -, -, -, e0, e1⟩ := blocks_at0 t
    refine ⟨t, flush0_3 t, ?_⟩
    rw [mem_block0]
    intro a
    match a with
    | ⟨0, _⟩ =>
      show win0_3.index t 0 * 10000 ≤ (i 0).val ∧ (i 0).val < win0_3.index t 0 * 10000 + 10000
      rw [e0]
      show (i 0).val / 10000 * 10000 ≤ (i 0).val ∧ (i 0).val < (i 0).val / 10000 * 10000 + 10000
      omega
    | ⟨1, _⟩ =>
      show win0_3.index t 1 * 64 ≤ (i 1).val ∧ (i 1).val < win0_3.index t 1 * 64 + 64
      rw [e1]
      omega

end Region0

/-! ## The second layer: the first layer's sums (window 0), the bias row (1), the weight (2), the scale column (3), the output (4) -/

section Region2
variable (V : (c : Dev nD) → (b : Ref sig .tc) → Buf (Elt Ideal) ((c : Thread nD τ).loc b))

/-- The index maps over the ten grid points: the row-blocked windows sit at block (t, 0), the bias row and the weight
    at block (0, 0). -/
theorem blocks_at2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The block of the previous layer's sums at point t is rows 10000 t … 10000 t + 9999 of them. -/
theorem rows2_0 (c : Dev nD) (t : Fin cfg2.N) (y : S10000x64.Idx) (i : S100000x64.Idx)
    (h0 : (i 0).val = 10000 * t.val + (y 0).val) (h1 : (i 1).val = (y 1).val) :
    (iblk2 V c 0 t : Vec Ideal S10000x64 .f32) y = (V c (Pipeline.arrRef spec2 0) : S100000x64.Idx → EReal) i := by
  obtain ⟨e0, e1, -⟩ := blocks_at2 t
  unfold iblk2
  rw [View.read_apply]
  show V c (Pipeline.arrRef spec2 0) _ = V c (Pipeline.arrRef spec2 0) _
  congr 1
  funext a
  apply Fin.ext
  match a with
  | ⟨0, _⟩ => show win2_0.index t 0 * 10000 + 1 * (y 0).val = (i 0).val; rw [e0, h0]; omega
  | ⟨1, _⟩ => show win2_0.index t 1 * 64 + 1 * (y 1).val = (i 1).val; rw [e1, h1]; omega

/-- The bias block at every point is the whole bias row. -/
theorem whole2_1 (c : Dev nD) (t : Fin cfg2.N) (y : S1x64.Idx) :
    (iblk2 V c 1 t : Vec Ideal S1x64 .f32) y = (V c (Pipeline.arrRef spec2 1) : S1x64.Idx → EReal) y := by
  obtain ⟨-, -, e0, e1, -⟩ := blocks_at2 t
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * (y 0).val = (y 0).val; rw [e0]; omega
  | ⟨1, _⟩ => show win2_1.index t 1 * 64 + 1 * (y 1).val = (y 1).val; rw [e1]; omega

/-- The weight block at every point is the whole weight. -/
theorem whole2_2 (c : Dev nD) (t : Fin cfg2.N) (y : S64x64.Idx) :
    (iblk2 V c 2 t : Vec Ideal S64x64 .f32) y = (V c (Pipeline.arrRef spec2 2) : S64x64.Idx → EReal) y := by
  obtain ⟨-, -, -, -, e0, e1, -⟩ := blocks_at2 t
  unfold iblk2
  rw [View.read_apply]
  show V c (Pipeline.arrRef spec2 2) _ = V c (Pipeline.arrRef spec2 2) _
  congr 1
  funext a
  apply Fin.ext
  match a with
  | ⟨0, _⟩ => show win2_2.index t 0 * 64 + 1 * (y 0).val = (y 0).val; rw [e0]; omega
  | ⟨1, _⟩ => show win2_2.index t 1 * 64 + 1 * (y 1).val = (y 1).val; rw [e1]; omega

/-- The scale block at point t is rows 10000 t … 10000 t + 9999 of the scale column. -/
theorem rows2_3 (c : Dev nD) (t : Fin cfg2.N) (y : S10000x1.Idx) (i : S100000x1.Idx)
    (h0 : (i 0).val = 10000 * t.val + (y 0).val) (h1 : (i 1).val = (y 1).val) :
    (iblk2 V c 3 t : Vec Ideal S10000x1 .f32) y = (V c (Pipeline.arrRef spec2 3) : S100000x1.Idx → EReal) i := by
  obtain ⟨-, -, -, -, -, -, e0, e1, -⟩ := blocks_at2 t
  unfold iblk2
  rw [View.read_apply]
  show V c (Pipeline.arrRef spec2 3) _ = V c (Pipeline.arrRef spec2 3) _
  congr 1
  funext a
  apply Fin.ext
  match a with
  | ⟨0, _⟩ => show win2_3.index t 0 * 10000 + 1 * (y 0).val = (i 0).val; rw [e0, h0]; omega
  | ⟨1, _⟩ => show win2_3.index t 1 * 1 + 1 * (y 1).val = (i 1).val; rw [e1, h1]; omega

/-- One entry of what the point with row offset 10000 T computes is the whole-array function at the entry T blocks
    further down: the entry reads row p of the row blocks, which is row 10000 T + p of the arrays. -/
theorem entry2 (x0 : Vec Ideal S10000x64 .f32) (x1 : Vec Ideal S1x64 .f32) (x2 : Vec Ideal S64x64 .f32)
    (x3 : Vec Ideal S10000x1 .f32)
    (A : FVec Ideal S100000x64 .f32) (B : FVec Ideal S1x64 .f32) (W : FVec Ideal S64x64 .f32) (D : FVec Ideal S100000x1 .f32)
    (T : Nat)
    (hx0 : ∀ (y : S10000x64.Idx) (i : S100000x64.Idx), (i 0).val = 10000 * T + (y 0).val → (i 1).val = (y 1).val → x0 y = A i)
    (hx1 : ∀ y : S1x64.Idx, x1 y = B y)
    (hx2 : ∀ y : S64x64.Idx, x2 y = W y)
    (hx3 : ∀ (y : S10000x1.Idx) (i : S100000x1.Idx), (i 0).val = 10000 * T + (y 0).val → (i 1).val = (y 1).val → x3 y = D i)
    (y : S10000x64.Idx) (i : S100000x64.Idx) (h0 : (i 0).val = 10000 * T + (y 0).val) (h1 : (i 1).val = (y 1).val) :
    k2_pay1 x0 x1 x2 x3 y = biasReluMmScale64 A B W D i := by
  obtain ⟨p, q, rfl⟩ : ∃ (p : Fin 10000) (q : Fin 64), y = ix2 p q := ⟨y 0, y 1, eq_ix2 y⟩
  rw [biasrelu_mm_scale_entry2]
  unfold biasReluMmScale64
  have hq : col i = q := Fin.ext h1
  rw [hq, hx3 (ix2 p (0 : Fin 1)) (ix2 (row i) (0 : Fin 1)) h0 rfl]
  refine congrArg (· * _) (Finset.sum_congr rfl fun k _ => ?_)
  rw [hx0 (ix2 p k) (ix2 (row i) k) h0 rfl, hx1, hx2]

/-- What grid point t writes back is rows [10000 t, 10000 t + 10000) of the whole-array function. -/
theorem written2 (c : Dev nD) (t : Fin cfg2.N) :
    (dat2 V c).flushed 4 t = ((cfg2.win 4).blk t).view.read (Elt Ideal)
      (biasReluMmScale64 (V c (Pipeline.arrRef spec2 0)) (V c (Pipeline.arrRef spec2 1)) (V c (Pipeline.arrRef spec2 2))
        (V c (Pipeline.arrRef spec2 3))) := by
  show (cfg2.win 4).cut (grid2.coords t) ((dat2 V c).after 4 t) = _
  rw [after2_4]
  unfold out2_4
  rw [View.canon_unit_zero zero_offsets]
  simp only [View.ld_unit_zero (S := S10000x64) zero_offsets, View.ld_unit_zero (S := S1x64) zero_offsets,
    View.ld_unit_zero (S := S64x64) zero_offsets, View.ld_unit_zero (S := S10000x1) zero_offsets]
  obtain ⟨-, -, -, -, -, -, -, -, e0, e1⟩ := blocks_at2 t
  funext j
  refine entry2 _ _ _ _ _ _ _ _ t.val (rows2_0 V c t) (whole2_1 V c t) (whole2_2 V c t) (rows2_3 V c t) j _ ?_ ?_
  · show win2_4.index t 0 * 10000 + 1 * (j 0).val = 10000 * t.val + (j 0).val; rw [e0]; omega
  · show win2_4.index t 1 * 64 + 1 * (j 1).val = (j 1).val; rw [e1]; omega

/-- An index of the output is in point t's block iff each coordinate is in the block's range on its axis. -/
theorem mem_block2 (t : Fin cfg2.N) (i : S100000x64.Idx) :
    i ∈ ((cfg2.win 4).blk t).view.set ↔ ∀ a : Fin 2, win2_4.index t a * S10000x64.size a ≤ (i a).val
      ∧ (i a).val < win2_4.index t a * S10000x64.size a + S10000x64.size a := by
  show i ∈ ((View.whole main_v41).slice (win2_4.rect t)).set ↔ _
  rw [View.set_slice_whole, Rect.mem_set_unit]
  exact Iff.rfl

/-- THE SECOND LAYER'S NODE FEATURES after the run: row r lies in the block of point r / 10000, so the ten blocks cover the
    array, and it holds the whole-array function of the region's input arrays. -/
theorem region2_array (c : Dev nD) :
    (Gen.dat2 (F := Ideal) V c).arrAt 4 cfg2.N
      = biasReluMmScale64 (V c (Pipeline.arrRef spec2 0)) (V c (Pipeline.arrRef spec2 1)) (V c (Pipeline.arrRef spec2 2))
        (V c (Pipeline.arrRef spec2 3)) :=
  (dat2 V c).arrAt_eq_of_cover 4 _ (fun t _ => written2 V c t) fun i => by
    have hi0 : (i 0).val < 100000 := (i 0).isLt
    have hi1 : (i 1).val < 64 := (i 1).isLt
    have hN : grid2.N = 10 := N_2
    let t : Fin cfg2.N := ⟨(i 0).val / 10000, by show (i 0).val / 10000 < grid2.N; rw [hN]; omega⟩
    obtain ⟨-, -, -, -, -, -, -, -, e0, e1⟩ := blocks_at2 t
    refine ⟨t, flush2_4 t, ?_⟩
    rw [mem_block2]
    intro a
    match a with
    | ⟨0, _⟩ =>
      show win2_4.index t 0 * 10000 ≤ (i 0).val ∧ (i 0).val < win2_4.index t 0 * 10000 + 10000
      rw [e0]
      show (i 0).val / 10000 * 10000 ≤ (i 0).val ∧ (i 0).val < (i 0).val / 10000 * 10000 + 10000
      omega
    | ⟨1, _⟩ =>
      show win2_4.index t 1 * 64 ≤ (i 1).val ∧ (i 1).val < win2_4.index t 1 * 64 + 64
      rw [e1]
      omega

end Region2

/-! ## The third layer: the second layer's sums (window 0), the bias row (1), the weight (2), the scale column (3), the output (4) -/

section Region4
variable (V : (c : Dev nD) → (b : Ref sig .tc) → Buf (Elt Ideal) ((c : Thread nD τ).loc b))

/-- The index maps over the ten grid points: the row-blocked windows sit at block (t, 0), the bias row and the weight
    at block (0, 0). -/
theorem blocks_at4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The block of the previous layer's sums at point t is rows 10000 t … 10000 t + 9999 of them. -/
theorem rows4_0 (c : Dev nD) (t : Fin cfg4.N) (y : S10000x64.Idx) (i : S100000x64.Idx)
    (h0 : (i 0).val = 10000 * t.val + (y 0).val) (h1 : (i 1).val = (y 1).val) :
    (iblk4 V c 0 t : Vec Ideal S10000x64 .f32) y = (V c (Pipeline.arrRef spec4 0) : S100000x64.Idx → EReal) i := by
  obtain ⟨e0, e1, -⟩ := blocks_at4 t
  unfold iblk4
  rw [View.read_apply]
  show V c (Pipeline.arrRef spec4 0) _ = V c (Pipeline.arrRef spec4 0) _
  congr 1
  funext a
  apply Fin.ext
  match a with
  | ⟨0, _⟩ => show win4_0.index t 0 * 10000 + 1 * (y 0).val = (i 0).val; rw [e0, h0]; omega
  | ⟨1, _⟩ => show win4_0.index t 1 * 64 + 1 * (y 1).val = (i 1).val; rw [e1, h1]; omega

/-- The bias block at every point is the whole bias row. -/
theorem whole4_1 (c : Dev nD) (t : Fin cfg4.N) (y : S1x64.Idx) :
    (iblk4 V c 1 t : Vec Ideal S1x64 .f32) y = (V c (Pipeline.arrRef spec4 1) : S1x64.Idx → EReal) y := by
  obtain ⟨-, -, e0, e1, -⟩ := blocks_at4 t
  unfold iblk4
  rw [View.read_apply]
  show V c (Pipeline.arrRef spec4 1) _ = V c (Pipeline.arrRef spec4 1) _
  congr 1
  funext a
  apply Fin.ext
  match a with
  | ⟨0, _⟩ => show win4_1.index t 0 * 1 + 1 * (y 0).val = (y 0).val; rw [e0]; omega
  | ⟨1, _⟩ => show win4_1.index t 1 * 64 + 1 * (y 1).val = (y 1).val; rw [e1]; omega

/-- The weight block at every point is the whole weight. -/
theorem whole4_2 (c : Dev nD) (t : Fin cfg4.N) (y : S64x64.Idx) :
    (iblk4 V c 2 t : Vec Ideal S64x64 .f32) y = (V c (Pipeline.arrRef spec4 2) : S64x64.Idx → EReal) y := by
  obtain ⟨-, -, -, -, e0, e1, -⟩ := blocks_at4 t
  unfold iblk4
  rw [View.read_apply]
  show V c (Pipeline.arrRef spec4 2) _ = V c (Pipeline.arrRef spec4 2) _
  congr 1
  funext a
  apply Fin.ext
  match a with
  | ⟨0, _⟩ => show win4_2.index t 0 * 64 + 1 * (y 0).val = (y 0).val; rw [e0]; omega
  | ⟨1, _⟩ => show win4_2.index t 1 * 64 + 1 * (y 1).val = (y 1).val; rw [e1]; omega

/-- The scale block at point t is rows 10000 t … 10000 t + 9999 of the scale column. -/
theorem rows4_3 (c : Dev nD) (t : Fin cfg4.N) (y : S10000x1.Idx) (i : S100000x1.Idx)
    (h0 : (i 0).val = 10000 * t.val + (y 0).val) (h1 : (i 1).val = (y 1).val) :
    (iblk4 V c 3 t : Vec Ideal S10000x1 .f32) y = (V c (Pipeline.arrRef spec4 3) : S100000x1.Idx → EReal) i := by
  obtain ⟨-, -, -, -, -, -, e0, e1, -⟩ := blocks_at4 t
  unfold iblk4
  rw [View.read_apply]
  show V c (Pipeline.arrRef spec4 3) _ = V c (Pipeline.arrRef spec4 3) _
  congr 1
  funext a
  apply Fin.ext
  match a with
  | ⟨0, _⟩ => show win4_3.index t 0 * 10000 + 1 * (y 0).val = (i 0).val; rw [e0, h0]; omega
  | ⟨1, _⟩ => show win4_3.index t 1 * 1 + 1 * (y 1).val = (i 1).val; rw [e1, h1]; omega

/-- One entry of what the point with row offset 10000 T computes is the whole-array function at the entry T blocks
    further down: the entry reads row p of the row blocks, which is row 10000 T + p of the arrays. -/
theorem entry4 (x0 : Vec Ideal S10000x64 .f32) (x1 : Vec Ideal S1x64 .f32) (x2 : Vec Ideal S64x64 .f32)
    (x3 : Vec Ideal S10000x1 .f32)
    (A : FVec Ideal S100000x64 .f32) (B : FVec Ideal S1x64 .f32) (W : FVec Ideal S64x64 .f32) (D : FVec Ideal S100000x1 .f32)
    (T : Nat)
    (hx0 : ∀ (y : S10000x64.Idx) (i : S100000x64.Idx), (i 0).val = 10000 * T + (y 0).val → (i 1).val = (y 1).val → x0 y = A i)
    (hx1 : ∀ y : S1x64.Idx, x1 y = B y)
    (hx2 : ∀ y : S64x64.Idx, x2 y = W y)
    (hx3 : ∀ (y : S10000x1.Idx) (i : S100000x1.Idx), (i 0).val = 10000 * T + (y 0).val → (i 1).val = (y 1).val → x3 y = D i)
    (y : S10000x64.Idx) (i : S100000x64.Idx) (h0 : (i 0).val = 10000 * T + (y 0).val) (h1 : (i 1).val = (y 1).val) :
    k4_pay1 x0 x1 x2 x3 y = biasReluMmScale64 A B W D i := by
  obtain ⟨p, q, rfl⟩ : ∃ (p : Fin 10000) (q : Fin 64), y = ix2 p q := ⟨y 0, y 1, eq_ix2 y⟩
  rw [biasrelu_mm_scale_entry4]
  unfold biasReluMmScale64
  have hq : col i = q := Fin.ext h1
  rw [hq, hx3 (ix2 p (0 : Fin 1)) (ix2 (row i) (0 : Fin 1)) h0 rfl]
  refine congrArg (· * _) (Finset.sum_congr rfl fun k _ => ?_)
  rw [hx0 (ix2 p k) (ix2 (row i) k) h0 rfl, hx1, hx2]

/-- What grid point t writes back is rows [10000 t, 10000 t + 10000) of the whole-array function. -/
theorem written4 (c : Dev nD) (t : Fin cfg4.N) :
    (dat4 V c).flushed 4 t = ((cfg4.win 4).blk t).view.read (Elt Ideal)
      (biasReluMmScale64 (V c (Pipeline.arrRef spec4 0)) (V c (Pipeline.arrRef spec4 1)) (V c (Pipeline.arrRef spec4 2))
        (V c (Pipeline.arrRef spec4 3))) := by
  show (cfg4.win 4).cut (grid4.coords t) ((dat4 V c).after 4 t) = _
  rw [after4_4]
  unfold out4_4
  rw [View.canon_unit_zero zero_offsets]
  simp only [View.ld_unit_zero (S := S10000x64) zero_offsets, View.ld_unit_zero (S := S1x64) zero_offsets,
    View.ld_unit_zero (S := S64x64) zero_offsets, View.ld_unit_zero (S := S10000x1) zero_offsets]
  obtain ⟨-, -, -, -, -, -, -, -, e0, e1⟩ := blocks_at4 t
  funext j
  refine entry4 _ _ _ _ _ _ _ _ t.val (rows4_0 V c t) (whole4_1 V c t) (whole4_2 V c t) (rows4_3 V c t) j _ ?_ ?_
  · show win4_4.index t 0 * 10000 + 1 * (j 0).val = 10000 * t.val + (j 0).val; rw [e0]; omega
  · show win4_4.index t 1 * 64 + 1 * (j 1).val = (j 1).val; rw [e1]; omega

/-- An index of the output is in point t's block iff each coordinate is in the block's range on its axis. -/
theorem mem_block4 (t : Fin cfg4.N) (i : S100000x64.Idx) :
    i ∈ ((cfg4.win 4).blk t).view.set ↔ ∀ a : Fin 2, win4_4.index t a * S10000x64.size a ≤ (i a).val
      ∧ (i a).val < win4_4.index t a * S10000x64.size a + S10000x64.size a := by
  show i ∈ ((View.whole main_v58).slice (win4_4.rect t)).set ↔ _
  rw [View.set_slice_whole, Rect.mem_set_unit]
  exact Iff.rfl

/-- THE THIRD LAYER'S NODE FEATURES after the run: row r lies in the block of point r / 10000, so the ten blocks cover the
    array, and it holds the whole-array function of the region's input arrays. -/
theorem region4_array (c : Dev nD) :
    (Gen.dat4 (F := Ideal) V c).arrAt 4 cfg4.N
      = biasReluMmScale64 (V c (Pipeline.arrRef spec4 0)) (V c (Pipeline.arrRef spec4 1)) (V c (Pipeline.arrRef spec4 2))
        (V c (Pipeline.arrRef spec4 3)) :=
  (dat4 V c).arrAt_eq_of_cover 4 _ (fun t _ => written4 V c t) fun i => by
    have hi0 : (i 0).val < 100000 := (i 0).isLt
    have hi1 : (i 1).val < 64 := (i 1).isLt
    have hN : grid4.N = 10 := N_4
    let t : Fin cfg4.N := ⟨(i 0).val / 10000, by show (i 0).val / 10000 < grid4.N; rw [hN]; omega⟩
    obtain ⟨-, -, -, -, -, -, -, -, e0, e1⟩ := blocks_at4 t
    refine ⟨t, flush4_4 t, ?_⟩
    rw [mem_block4]
    intro a
    match a with
    | ⟨0, _⟩ =>
      show win4_4.index t 0 * 10000 ≤ (i 0).val ∧ (i 0).val < win4_4.index t 0 * 10000 + 10000
      rw [e0]
      show (i 0).val / 10000 * 10000 ≤ (i 0).val ∧ (i 0).val < (i 0).val / 10000 * 10000 + 10000
      omega
    | ⟨1, _⟩ =>
      show win4_4.index t 1 * 64 ≤ (i 1).val ∧ (i 1).val < win4_4.index t 1 * 64 + 64
      rw [e1]
      omega

end Region4

/-! ## The last layer, 16 columns: the third layer's sums (window 0), the bias row (1), the 64 × 16 weight (2), the scale column (3), the output (4) -/

section Region6
variable (V : (c : Dev nD) → (b : Ref sig .tc) → Buf (Elt Ideal) ((c : Thread nD τ).loc b))

/-- The index maps over the ten grid points: the row-blocked windows sit at block (t, 0), the bias row and the weight
    at block (0, 0). -/
theorem blocks_at6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The block of the previous layer's sums at point t is rows 10000 t … 10000 t + 9999 of them. -/
theorem rows6_0 (c : Dev nD) (t : Fin cfg6.N) (y : S10000x64.Idx) (i : S100000x64.Idx)
    (h0 : (i 0).val = 10000 * t.val + (y 0).val) (h1 : (i 1).val = (y 1).val) :
    (iblk6 V c 0 t : Vec Ideal S10000x64 .f32) y = (V c (Pipeline.arrRef spec6 0) : S100000x64.Idx → EReal) i := by
  obtain ⟨e0, e1, -⟩ := blocks_at6 t
  unfold iblk6
  rw [View.read_apply]
  show V c (Pipeline.arrRef spec6 0) _ = V c (Pipeline.arrRef spec6 0) _
  congr 1
  funext a
  apply Fin.ext
  match a with
  | ⟨0, _⟩ => show win6_0.index t 0 * 10000 + 1 * (y 0).val = (i 0).val; rw [e0, h0]; omega
  | ⟨1, _⟩ => show win6_0.index t 1 * 64 + 1 * (y 1).val = (i 1).val; rw [e1, h1]; omega

/-- The bias block at every point is the whole bias row. -/
theorem whole6_1 (c : Dev nD) (t : Fin cfg6.N) (y : S1x64.Idx) :
    (iblk6 V c 1 t : Vec Ideal S1x64 .f32) y = (V c (Pipeline.arrRef spec6 1) : S1x64.Idx → EReal) y := by
  obtain ⟨-, -, e0, e1, -⟩ := blocks_at6 t
  unfold iblk6
  rw [View.read_apply]
  show V c (Pipeline.arrRef spec6 1) _ = V c (Pipeline.arrRef spec6 1) _
  congr 1
  funext a
  apply Fin.ext
  match a with
  | ⟨0, _⟩ => show win6_1.index t 0 * 1 + 1 * (y 0).val = (y 0).val; rw [e0]; omega
  | ⟨1, _⟩ => show win6_1.index t 1 * 64 + 1 * (y 1).val = (y 1).val; rw [e1]; omega

/-- The weight block at every point is the whole weight. -/
theorem whole6_2 (c : Dev nD) (t : Fin cfg6.N) (y : S64x16.Idx) :
    (iblk6 V c 2 t : Vec Ideal S64x16 .f32) y = (V c (Pipeline.arrRef spec6 2) : S64x16.Idx → EReal) y := by
  obtain ⟨-, -, -, -, e0, e1, -⟩ := blocks_at6 t
  unfold iblk6
  rw [View.read_apply]
  show V c (Pipeline.arrRef spec6 2) _ = V c (Pipeline.arrRef spec6 2) _
  congr 1
  funext a
  apply Fin.ext
  match a with
  | ⟨0, _⟩ => show win6_2.index t 0 * 64 + 1 * (y 0).val = (y 0).val; rw [e0]; omega
  | ⟨1, _⟩ => show win6_2.index t 1 * 16 + 1 * (y 1).val = (y 1).val; rw [e1]; omega

/-- The scale block at point t is rows 10000 t … 10000 t + 9999 of the scale column. -/
theorem rows6_3 (c : Dev nD) (t : Fin cfg6.N) (y : S10000x1.Idx) (i : S100000x1.Idx)
    (h0 : (i 0).val = 10000 * t.val + (y 0).val) (h1 : (i 1).val = (y 1).val) :
    (iblk6 V c 3 t : Vec Ideal S10000x1 .f32) y = (V c (Pipeline.arrRef spec6 3) : S100000x1.Idx → EReal) i := by
  obtain ⟨-, -, -, -, -, -, e0, e1, -⟩ := blocks_at6 t
  unfold iblk6
  rw [View.read_apply]
  show V c (Pipeline.arrRef spec6 3) _ = V c (Pipeline.arrRef spec6 3) _
  congr 1
  funext a
  apply Fin.ext
  match a with
  | ⟨0, _⟩ => show win6_3.index t 0 * 10000 + 1 * (y 0).val = (i 0).val; rw [e0, h0]; omega
  | ⟨1, _⟩ => show win6_3.index t 1 * 1 + 1 * (y 1).val = (i 1).val; rw [e1, h1]; omega

/-- One entry of what the point with row offset 10000 T computes is the whole-array function at the entry T blocks
    further down: the entry reads row p of the row blocks, which is row 10000 T + p of the arrays. -/
theorem entry6 (x0 : Vec Ideal S10000x64 .f32) (x1 : Vec Ideal S1x64 .f32) (x2 : Vec Ideal S64x16 .f32)
    (x3 : Vec Ideal S10000x1 .f32)
    (A : FVec Ideal S100000x64 .f32) (B : FVec Ideal S1x64 .f32) (W : FVec Ideal S64x16 .f32) (D : FVec Ideal S100000x1 .f32)
    (T : Nat)
    (hx0 : ∀ (y : S10000x64.Idx) (i : S100000x64.Idx), (i 0).val = 10000 * T + (y 0).val → (i 1).val = (y 1).val → x0 y = A i)
    (hx1 : ∀ y : S1x64.Idx, x1 y = B y)
    (hx2 : ∀ y : S64x16.Idx, x2 y = W y)
    (hx3 : ∀ (y : S10000x1.Idx) (i : S100000x1.Idx), (i 0).val = 10000 * T + (y 0).val → (i 1).val = (y 1).val → x3 y = D i)
    (y : S10000x16.Idx) (i : S100000x16.Idx) (h0 : (i 0).val = 10000 * T + (y 0).val) (h1 : (i 1).val = (y 1).val) :
    k6_pay1 x0 x1 x2 x3 y = biasReluMmScale16 A B W D i := by
  obtain ⟨p, q, rfl⟩ : ∃ (p : Fin 10000) (q : Fin 16), y = ix2 p q := ⟨y 0, y 1, eq_ix2 y⟩
  rw [biasrelu_mm_scale_entry6]
  unfold biasReluMmScale16
  have hq : col i = q := Fin.ext h1
  rw [hq, hx3 (ix2 p (0 : Fin 1)) (ix2 (row i) (0 : Fin 1)) h0 rfl]
  refine congrArg (· * _) (Finset.sum_congr rfl fun k _ => ?_)
  rw [hx0 (ix2 p k) (ix2 (row i) k) h0 rfl, hx1, hx2]

/-- What grid point t writes back is rows [10000 t, 10000 t + 10000) of the whole-array function. -/
theorem written6 (c : Dev nD) (t : Fin cfg6.N) :
    (dat6 V c).flushed 4 t = ((cfg6.win 4).blk t).view.read (Elt Ideal)
      (biasReluMmScale16 (V c (Pipeline.arrRef spec6 0)) (V c (Pipeline.arrRef spec6 1)) (V c (Pipeline.arrRef spec6 2))
        (V c (Pipeline.arrRef spec6 3))) := by
  show (cfg6.win 4).cut (grid6.coords t) ((dat6 V c).after 4 t) = _
  rw [after6_4]
  unfold out6_4
  rw [View.canon_unit_zero zero_offsets]
  simp only [View.ld_unit_zero (S := S10000x64) zero_offsets, View.ld_unit_zero (S := S1x64) zero_offsets,
    View.ld_unit_zero (S := S64x16) zero_offsets, View.ld_unit_zero (S := S10000x1) zero_offsets]
  obtain ⟨-, -, -, -, -, -, -, -, e0, e1⟩ := blocks_at6 t
  funext j
  refine entry6 _ _ _ _ _ _ _ _ t.val (rows6_0 V c t) (whole6_1 V c t) (whole6_2 V c t) (rows6_3 V c t) j _ ?_ ?_
  · show win6_4.index t 0 * 10000 + 1 * (j 0).val = 10000 * t.val + (j 0).val; rw [e0]; omega
  · show win6_4.index t 1 * 16 + 1 * (j 1).val = (j 1).val; rw [e1]; omega

/-- An index of the output is in point t's block iff each coordinate is in the block's range on its axis. -/
theorem mem_block6 (t : Fin cfg6.N) (i : S100000x16.Idx) :
    i ∈ ((cfg6.win 4).blk t).view.set ↔ ∀ a : Fin 2, win6_4.index t a * S10000x16.size a ≤ (i a).val
      ∧ (i a).val < win6_4.index t a * S10000x16.size a + S10000x16.size a := by
  show i ∈ ((View.whole main_v73).slice (win6_4.rect t)).set ↔ _
  rw [View.set_slice_whole, Rect.mem_set_unit]
  exact Iff.rfl

/-- THE LAST LAYER'S NODE FEATURES after the run: row r lies in the block of point r / 10000, so the ten blocks cover the
    array, and it holds the whole-array function of the region's input arrays. -/
theorem region6_array (c : Dev nD) :
    (Gen.dat6 (F := Ideal) V c).arrAt 4 cfg6.N
      = biasReluMmScale16 (V c (Pipeline.arrRef spec6 0)) (V c (Pipeline.arrRef spec6 1)) (V c (Pipeline.arrRef spec6 2))
        (V c (Pipeline.arrRef spec6 3)) :=
  (dat6 V c).arrAt_eq_of_cover 4 _ (fun t _ => written6 V c t) fun i => by
    have hi0 : (i 0).val < 100000 := (i 0).isLt
    have hi1 : (i 1).val < 16 := (i 1).isLt
    have hN : grid6.N = 10 := N_6
    let t : Fin cfg6.N := ⟨(i 0).val / 10000, by show (i 0).val / 10000 < grid6.N; rw [hN]; omega⟩
    obtain ⟨-, -, -, -, -, -, -, -, e0, e1⟩ := blocks_at6 t
    refine ⟨t, flush6_4 t, ?_⟩
    rw [mem_block6]
    intro a
    match a with
    | ⟨0, _⟩ =>
      show win6_4.index t 0 * 10000 ≤ (i 0).val ∧ (i 0).val < win6_4.index t 0 * 10000 + 10000
      rw [e0]
      show (i 0).val / 10000 * 10000 ≤ (i 0).val ∧ (i 0).val < (i 0).val / 10000 * 10000 + 10000
      omega
    | ⟨1, _⟩ =>
      show win6_4.index t 1 * 16 ≤ (i 1).val ∧ (i 1).val < win6_4.index t 1 * 16 + 16
      rw [e1]
      omega

end Region6

end Cert.KernelIdeal.MatmulScale

end
-- ==== Proof.FoldValues.lean ====
/-
  The kernel's fold read at the buffers that carry the layers. Each layer is four steps — the node features (a matmul
  region), their rows looked up at the edges' sources (a host lookup), the rows scaled per edge (a scale region), and the sums
  per destination node (a host scatter-add) — and at each boundary of the program's fold the buffer that carries the layer
  holds the next of these functions of the launch contents: `H1 … H4` the four layers' node features, `A1 … A3` the first
  three layers' sums. The last boundary's result buffer holds `kernelOut` of the launch contents.
-/
import proofs.«174299_j5360119186060_2_alg».proof.Proof.FoldCarried
import proofs.«174299_j5360119186060_2_alg».proof.Proof.ScaleRowsRegions
import proofs.«174299_j5360119186060_2_alg».proof.Proof.MatmulRegions

set_option maxRecDepth 16384

noncomputable section

namespace Cert.KernelIdeal.KFold

open Cert.KernelIdeal Cert.KernelIdeal.Gen Cert.KernelIdeal.GcnSpec Cert.KernelIdeal.KStage Cert.ReferenceIdeal.Stage
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option quotPrecheck false

local notation "X0" => m ((c : Thread nD τ).loc main_arg0)
local notation "X1" => m ((c : Thread nD τ).loc main_arg1)
local notation "X2" => m ((c : Thread nD τ).loc main_arg2)
local notation "X3" => m ((c : Thread nD τ).loc main_arg3)
local notation "X4" => m ((c : Thread nD τ).loc main_arg4)
local notation "X5" => m ((c : Thread nD τ).loc main_arg5)
local notation "X6" => m ((c : Thread nD τ).loc main_arg6)
local notation "X7" => m ((c : Thread nD τ).loc main_arg7)

/-- The first layer's node features. -/
def H1 : FVec Ideal S100000x64 .f32 := mmScale X0 X2 (disCol X1)
/-- The first layer's sums at the nodes. -/
def A1 : FVec Ideal S100000x64 .f32 := kAgg64 (H1 m c) X1
/-- The second layer's node features. -/
def H2 : FVec Ideal S100000x64 .f32 := biasReluMmScale64 (A1 m c) (biasRow X3) (w0 X4) (disCol X1)
/-- The second layer's sums. -/
def A2 : FVec Ideal S100000x64 .f32 := kAgg64 (H2 m c) X1
/-- The third layer's node features. -/
def H3 : FVec Ideal S100000x64 .f32 := biasReluMmScale64 (A2 m c) (biasRow (b0 X5)) (w1 X4) (disCol X1)
/-- The third layer's sums. -/
def A3 : FVec Ideal S100000x64 .f32 := kAgg64 (H3 m c) X1
/-- The last layer's node features, 16 columns. -/
def H4 : FVec Ideal S100000x16 .f32 := biasReluMmScale16 (A3 m c) (biasRow (b1 X5)) X6 (disCol X1)

/-- Region 0 leaves the layer's node features in its output array. -/
theorem e4 : W4 m ρ c (Proc.devRef .tc main_v26) = H1 m c := by
  have h := c3 m ρ c
  refine (W4_arr m ρ c 3).trans ((MatmulScale.region0_array (V3 m ρ) c).trans ?_)
  show mmScale (W3 m ρ c (Proc.devRef .tc main_arg0)) (W3 m ρ c (Proc.devRef .tc main_arg2)) (W3 m ρ c (Proc.devRef .tc main_v17)) = _
  rw [h.a0, h.a2, h.dcol]
  rfl

/-- The stretch `hostOps1` looks the node features' rows up at the edges' sources. -/
theorem e5 : W5 m ρ c (Proc.devRef .tc main_v33) = Host.gather Cert.ReferenceIdeal.gather_S100000x64_S1700000x1_S1700000x64_1_0_n_n_0_1_164 (H1 m c) (srcIdx X1) := by
  have h := c4 m ρ c
  show StableHlo.after hostOps1 (W4 m ρ c) (Proc.devRef .tc main_v33) = _
  simp only [hostOps1]
  after_results_simp
  rw [e4 m ρ c, h.src]
  rfl

/-- Region 1 scales every looked-up row by `dis` at the edge's destination. -/
theorem e6 : W6 m ρ c (Proc.devRef .tc main_v34) = scaleRows64 (Host.gather Cert.ReferenceIdeal.gather_S100000x64_S1700000x1_S1700000x64_1_0_n_n_0_1_164 (H1 m c) (srcIdx X1)) (dstScale X1) := by
  have h := c5 m ρ c
  refine (W6_arr m ρ c 2).trans ((ScaleRows.region1_array (V5 m ρ) c).trans ?_)
  show scaleRows64 (W5 m ρ c (Proc.devRef .tc main_v33)) (W5 m ρ c (Proc.devRef .tc main_v25)) = _
  rw [e5 m ρ c, h.dsc]

/-- The stretch `hostOps2` adds the scaled rows up per destination node and lays out the next layer's bias and weight. -/
theorem e7 : W7 m ρ c (Proc.devRef .tc main_v37) = A1 m c := by
  have h := c6 m ρ c
  show StableHlo.after hostOps2 (W6 m ρ c) (Proc.devRef .tc main_v37) = _
  simp only [hostOps2]
  after_results_simp
  rw [e6 m ρ c, h.dst]
  rfl
theorem e7_v38 : W7 m ρ c (Proc.devRef .tc main_v38) = biasRow X3 := by
  have h := c6 m ρ c
  show StableHlo.after hostOps2 (W6 m ρ c) (Proc.devRef .tc main_v38) = _
  simp only [hostOps2]
  after_results_simp
  rw [h.a3]
  rfl
theorem e7_v40 : W7 m ρ c (Proc.devRef .tc main_v40) = w0 X4 := by
  have h := c6 m ρ c
  show StableHlo.after hostOps2 (W6 m ρ c) (Proc.devRef .tc main_v40) = _
  simp only [hostOps2]
  after_results_simp
  rw [h.a4]
  rfl

/-- Region 2 leaves the layer's node features in its output array. -/
theorem e8 : W8 m ρ c (Proc.devRef .tc main_v41) = H2 m c := by
  have h := c7 m ρ c
  refine (W8_arr m ρ c 4).trans ((MatmulScale.region2_array (V7 m ρ) c).trans ?_)
  show biasReluMmScale64 (W7 m ρ c (Proc.devRef .tc main_v37)) (W7 m ρ c (Proc.devRef .tc main_v38)) (W7 m ρ c (Proc.devRef .tc main_v40)) (W7 m ρ c (Proc.devRef .tc main_v17)) = _
  rw [e7 m ρ c, e7_v38 m ρ c, e7_v40 m ρ c, h.dcol]
  rfl

/-- The stretch `hostOps3` looks the node features' rows up at the edges' sources. -/
theorem e9 : W9 m ρ c (Proc.devRef .tc main_v48) = Host.gather Cert.ReferenceIdeal.gather_S100000x64_S1700000x1_S1700000x64_1_0_n_n_0_1_164 (H2 m c) (srcIdx X1) := by
  have h := c8 m ρ c
  show StableHlo.after hostOps3 (W8 m ρ c) (Proc.devRef .tc main_v48) = _
  simp only [hostOps3]
  after_results_simp
  rw [e8 m ρ c, h.src]
  rfl

/-- Region 3 scales every looked-up row by `dis` at the edge's destination. -/
theorem e10 : W10 m ρ c (Proc.devRef .tc main_v49) = scaleRows64 (Host.gather Cert.ReferenceIdeal.gather_S100000x64_S1700000x1_S1700000x64_1_0_n_n_0_1_164 (H2 m c) (srcIdx X1)) (dstScale X1) := by
  have h := c9 m ρ c
  refine (W10_arr m ρ c 2).trans ((ScaleRows.region3_array (V9 m ρ) c).trans ?_)
  show scaleRows64 (W9 m ρ c (Proc.devRef .tc main_v48)) (W9 m ρ c (Proc.devRef .tc main_v25)) = _
  rw [e9 m ρ c, h.dsc]

/-- The stretch `hostOps4` adds the scaled rows up per destination node and lays out the next layer's bias and weight. -/
theorem e11 : W11 m ρ c (Proc.devRef .tc main_v52) = A2 m c := by
  have h := c10 m ρ c
  show StableHlo.after hostOps4 (W10 m ρ c) (Proc.devRef .tc main_v52) = _
  simp only [hostOps4]
  after_results_simp
  rw [e10 m ρ c, h.dst]
  rfl
theorem e11_v55 : W11 m ρ c (Proc.devRef .tc main_v55) = biasRow (b0 X5) := by
  have h := c10 m ρ c
  show StableHlo.after hostOps4 (W10 m ρ c) (Proc.devRef .tc main_v55) = _
  simp only [hostOps4]
  after_results_simp
  rw [h.a5]
  rfl
theorem e11_v57 : W11 m ρ c (Proc.devRef .tc main_v57) = w1 X4 := by
  have h := c10 m ρ c
  show StableHlo.after hostOps4 (W10 m ρ c) (Proc.devRef .tc main_v57) = _
  simp only [hostOps4]
  after_results_simp
  rw [h.a4]
  rfl

/-- Region 4 leaves the layer's node features in its output array. -/
theorem e12 : W12 m ρ c (Proc.devRef .tc main_v58) = H3 m c := by
  have h := c11 m ρ c
  refine (W12_arr m ρ c 4).trans ((MatmulScale.region4_array (V11 m ρ) c).trans ?_)
  show biasReluMmScale64 (W11 m ρ c (Proc.devRef .tc main_v52)) (W11 m ρ c (Proc.devRef .tc main_v55)) (W11 m ρ c (Proc.devRef .tc main_v57)) (W11 m ρ c (Proc.devRef .tc main_v17)) = _
  rw [e11 m ρ c, e11_v55 m ρ c, e11_v57 m ρ c, h.dcol]
  rfl

/-- The stretch `hostOps5` looks the node features' rows up at the edges' sources. -/
theorem e13 : W13 m ρ c (Proc.devRef .tc main_v65) = Host.gather Cert.ReferenceIdeal.gather_S100000x64_S1700000x1_S1700000x64_1_0_n_n_0_1_164 (H3 m c) (srcIdx X1) := by
  have h := c12 m ρ c
  show StableHlo.after hostOps5 (W12 m ρ c) (Proc.devRef .tc main_v65) = _
  simp only [hostOps5]
  after_results_simp
  rw [e12 m ρ c, h.src]
  rfl

/-- Region 5 scales every looked-up row by `dis` at the edge's destination. -/
theorem e14 : W14 m ρ c (Proc.devRef .tc main_v66) = scaleRows64 (Host.gather Cert.ReferenceIdeal.gather_S100000x64_S1700000x1_S1700000x64_1_0_n_n_0_1_164 (H3 m c) (srcIdx X1)) (dstScale X1) := by
  have h := c13 m ρ c
  refine (W14_arr m ρ c 2).trans ((ScaleRows.region5_array (V13 m ρ) c).trans ?_)
  show scaleRows64 (W13 m ρ c (Proc.devRef .tc main_v65)) (W13 m ρ c (Proc.devRef .tc main_v25)) = _
  rw [e13 m ρ c, h.dsc]

/-- The stretch `hostOps6` adds the scaled rows up per destination node and lays out the next layer's bias and weight. -/
theorem e15 : W15 m ρ c (Proc.devRef .tc main_v69) = A3 m c := by
  have h := c14 m ρ c
  show StableHlo.after hostOps6 (W14 m ρ c) (Proc.devRef .tc main_v69) = _
  simp only [hostOps6]
  after_results_simp
  rw [e14 m ρ c, h.dst]
  rfl
theorem e15_v72 : W15 m ρ c (Proc.devRef .tc main_v72) = biasRow (b1 X5) := by
  have h := c14 m ρ c
  show StableHlo.after hostOps6 (W14 m ρ c) (Proc.devRef .tc main_v72) = _
  simp only [hostOps6]
  after_results_simp
  rw [h.a5]
  rfl

/-- Region 6 leaves the layer's node features in its output array. -/
theorem e16 : W16 m ρ c (Proc.devRef .tc main_v73) = H4 m c := by
  have h := c15 m ρ c
  refine (W16_arr m ρ c 4).trans ((MatmulScale.region6_array (V15 m ρ) c).trans ?_)
  show biasReluMmScale16 (W15 m ρ c (Proc.devRef .tc main_v69)) (W15 m ρ c (Proc.devRef .tc main_v72)) (W15 m ρ c (Proc.devRef .tc main_arg6)) (W15 m ρ c (Proc.devRef .tc main_v17)) = _
  rw [e15 m ρ c, e15_v72 m ρ c, h.a6, h.dcol]
  rfl

/-- The stretch `hostOps7` looks the node features' rows up at the edges' sources. -/
theorem e17 : W17 m ρ c (Proc.devRef .tc main_v80) = Host.gather Cert.ReferenceIdeal.gather_S100000x16_S1700000x1_S1700000x16_1_0_n_n_0_1_116 (H4 m c) (srcIdx X1) := by
  have h := c16 m ρ c
  show StableHlo.after hostOps7 (W16 m ρ c) (Proc.devRef .tc main_v80) = _
  simp only [hostOps7]
  after_results_simp
  rw [e16 m ρ c, h.src]
  rfl

/-- Region 7 scales every looked-up row by `dis` at the edge's destination. -/
theorem e18 : W18 m ρ c (Proc.devRef .tc main_v81) = scaleRows16 (Host.gather Cert.ReferenceIdeal.gather_S100000x16_S1700000x1_S1700000x16_1_0_n_n_0_1_116 (H4 m c) (srcIdx X1)) (dstScale X1) := by
  have h := c17 m ρ c
  refine (W18_arr m ρ c 2).trans ((ScaleRows.region7_array (V17 m ρ) c).trans ?_)
  show scaleRows16 (W17 m ρ c (Proc.devRef .tc main_v80)) (W17 m ρ c (Proc.devRef .tc main_v25)) = _
  rw [e17 m ρ c, h.dsc]

/-- The last stretch adds the scaled rows up per destination node and adds the last bias: the result buffer holds the
    kernel's network of the launch contents. -/
theorem result_eq : W19 m ρ c (Proc.devRef .tc main_v87) = kernelOut X0 X1 X2 X3 X4 X5 X6 X7 := by
  have h := c18 m ρ c
  show StableHlo.after hostOps8 (W18 m ρ c) (Proc.devRef .tc main_v87) = _
  simp only [hostOps8]
  after_results_simp
  rw [e18 m ρ c, h.dst, h.a7]
  rfl

end Cert.KernelIdeal.KFold

end
-- ==== Proof.LibDotNN.lean ====
/-
  A host matrix product read at an entry, over the extended reals.

  For an M×K array `a` and a K×N array `w`, the host's general dot product contracting `a`'s second axis with
  `w`'s first and batching nothing has at entry (p, n) the value  Σ_{k < K} a[p, k] · w[k, n]:  a finite sum of
  products of extended reals, whatever precision or schedule the operation names.
-/
import Idealize.ShloMosaic.PureOps.Ideal.Laws
import Idealize.ShloMosaic.Lib.ValueIdx

noncomputable section

namespace Cert.LibDotNN

open Idealize.ShloMosaic Idealize.ShloMosaic.ValueIdx

/-- At the ideal values, a host `dot_general` of an M×K by a K×N array whose dimension numbers are the plain ones
    (contract the left operand's axis 1 with the right operand's axis 0, no batch axis), read at entry `(p, n)`,
    is the sum over `k` of `a[p, k] * w[k, n]`.  The dimension record is any one equal to `DotDims.plain M K N`
    (a printed program's own record is, by `rfl`). -/
theorem dotGeneral_apply {M K N : Nat} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (w : FVec Ideal ⟨2, ![K, N]⟩ φ₂) (p : Fin M) (n : Fin N) :
    Host.dotGeneral D prec a w (ix2 p n) = ∑ k : Fin K, a (ix2 p k) * w (ix2 k n) := by
  subst hD
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p n) ((contrEquiv1 (DotDims.plain M K N) K rfl rfl).symm k) = ix2 p k :=
    funext fun ax => Fin.ext (by
      match ax with
      | ⟨0, _⟩ => rfl
      | ⟨1, _⟩ => exact ((DotDims.plain M K N).lhsIdx_val_of_single rfl _ _).trans hk)
  have er : (DotDims.plain M K N).rhsIdx (ix2 p n) ((contrEquiv1 (DotDims.plain M K N) K rfl rfl).symm k) = ix2 k n :=
    funext fun ax => Fin.ext (by
      match ax with
      | ⟨0, _⟩ => exact ((DotDims.plain M K N).rhsIdx_val_of_single rfl _ _).trans hk
      | ⟨1, _⟩ => rfl)
  rw [el, er]

end Cert.LibDotNN

end
-- ==== Proof.DotForms.lean ====
/-
  The kernel's matrix-product layers written through the host's general dot product.

  A node-side layer of the kernel has at entry (n, f) the value  (Σ_k y[n, k] · w[k, f]) · d[n, 0],  where `y` is either the
  input features or the previous layer's sums with that layer's bias added to every row and negative entries replaced by
  zero. The host's general dot product of `y` and `w`, contracting `y`'s columns with `w`'s rows, has at the same entry
  the same finite sum of products of extended reals; and the bias added through a one-row array is the bias added through
  the host's two broadcasts. So each closed form is that dot product, entry by entry, times the row's scale.
-/
import proofs.«174299_j5360119186060_2_alg».proof.Proof.KernelStages
import proofs.«174299_j5360119186060_2_alg».proof.Proof.LibDotNN
import Idealize.ShloMosaic.Lib.Pipeline.Value
import Idealize.ShloMosaic.Lib.ValueLayout
import Idealize.ShloMosaic.Lib.ValueIdx

noncomputable section

open scoped BigOperators

namespace Cert.KernelIdeal.Bridge

open Cert.ReferenceIdeal.Stage Cert.KernelIdeal.GcnSpec Cert.KernelIdeal.KStage Idealize.ShloMosaic Idealize.ShloMosaic.ValueIdx

/-- An index of a two-axis array is the pair of its row and its column. -/
theorem eq_row_col {n0 n1 : Nat} (i : (⟨2, ![n0, n1]⟩ : Shape).Idx) : i = ix2 (row i) (col i) := by
  funext a; match a with | ⟨0, _⟩ => rfl | ⟨1, _⟩ => rfl

/-- A bias as a one-row array has at column `k` the bias's entry `k`. -/
theorem biasRow_apply (b : FVec Ideal Cert.ReferenceIdeal.S64 .f32) (u : Fin 1) (k : Fin 64) :
    biasRow b (ix2 u k) = b (ix1 k) := by
  unfold biasRow
  exact shapeCast_a_1a_apply b _ u k

/-- The all-zero node array has the zero word's value at every entry. -/
theorem zeros64_apply (r : Fin 100000) (k : Fin 64) : zeros64 (ix2 r k) = Ideal.ofBits .f32 0x00000000#32 := by
  unfold zeros64
  exact broadcastInDim_apply _ _ _ (ix2 r k) ix0 fun a => a.elim0

/-- The previous layer's sums with the bias added to every row and negative entries replaced by zero, at entry `(r, k)`:
    the larger of `a[r, k] + b[k]` and zero, the bias read through its one-row form. -/
theorem reluB_apply (a : FVec Ideal Cert.KernelIdeal.S100000x64 .f32) (b : FVec Ideal Cert.ReferenceIdeal.S64 .f32) (r : Fin 100000) (k : Fin 64) :
    reluB a b (ix2 r k) = max (a (ix2 r k) + biasRow b (ix2 (0 : Fin 1) k)) (Ideal.ofBits .f32 0x00000000#32) := by
  unfold reluB
  rw [maximumf_apply, addf_apply, zeros64_apply, biasRow_apply]
  refine congrArg (fun z => max (a (ix2 r k) + z) _) ?_
  refine (broadcastInDim_apply _ _ _ (ix2 r k) (ix2 (0 : Fin 1) k) fun ax => ?_).trans
    (broadcastInDim_apply _ _ b (ix2 (0 : Fin 1) k) (ix1 k) fun ax => ?_)
  · match ax with
    | ⟨0, _⟩ => rfl
    | ⟨1, _⟩ => rfl
  · match ax with
    | ⟨0, _⟩ => rfl

/-- The first layer's node features are the host's dot product of the features and the weights, each row times its scale. -/
theorem mmScale_eq (x : FVec Ideal Cert.KernelIdeal.S100000x64 .f32) (w : FVec Ideal Cert.KernelIdeal.S64x64 .f32)
    (d : FVec Ideal Cert.KernelIdeal.S100000x1 .f32) :
    mmScale x w d = fun i => Host.dotGeneral Cert.ReferenceIdeal.dot_S100000x64_S64x64_S100000x64_1_0_0_1_n_n none x w i * d (ix2 (row i) (0 : Fin 1)) := by
  funext i
  unfold mmScale
  refine congrArg (· * d (ix2 (row i) (0 : Fin 1))) ?_
  exact ((congrArg (Host.dotGeneral Cert.ReferenceIdeal.dot_S100000x64_S64x64_S100000x64_1_0_0_1_n_n none x w) (eq_row_col i)).trans
    (Cert.LibDotNN.dotGeneral_apply _ rfl none x w (row i) (col i))).symm

/-- A later layer's node features over 64 columns are the host's dot product of the previous layer's sums, biased and
    clamped at zero, and the weights, each row times its scale. -/
theorem biasReluMmScale64_eq (a : FVec Ideal Cert.KernelIdeal.S100000x64 .f32) (b : FVec Ideal Cert.ReferenceIdeal.S64 .f32)
    (w : FVec Ideal Cert.KernelIdeal.S64x64 .f32) (d : FVec Ideal Cert.KernelIdeal.S100000x1 .f32) :
    biasReluMmScale64 a (biasRow b) w d = fun i => Host.dotGeneral Cert.ReferenceIdeal.dot_S100000x64_S64x64_S100000x64_1_0_0_1_n_n none (reluB a b) w i * d (ix2 (row i) (0 : Fin 1)) := by
  funext i
  unfold biasReluMmScale64
  refine congrArg (· * d (ix2 (row i) (0 : Fin 1))) ?_
  refine Eq.trans ?_ ((congrArg (Host.dotGeneral Cert.ReferenceIdeal.dot_S100000x64_S64x64_S100000x64_1_0_0_1_n_n none (reluB a b) w) (eq_row_col i)).trans
    (Cert.LibDotNN.dotGeneral_apply _ rfl none (reluB a b) w (row i) (col i))).symm
  refine Finset.sum_congr rfl fun k _ => ?_
  rw [reluB_apply]

/-- The last layer's node features over 16 columns, likewise. -/
theorem biasReluMmScale16_eq (a : FVec Ideal Cert.KernelIdeal.S100000x64 .f32) (b : FVec Ideal Cert.ReferenceIdeal.S64 .f32)
    (w16 : FVec Ideal Cert.KernelIdeal.S64x16 .f32) (d : FVec Ideal Cert.KernelIdeal.S100000x1 .f32) :
    biasReluMmScale16 a (biasRow b) w16 d = fun i => Host.dotGeneral Cert.ReferenceIdeal.dot_S100000x64_S64x16_S100000x16_1_0_0_1_n_n none (reluB a b) w16 i * d (ix2 (row i) (0 : Fin 1)) := by
  funext i
  unfold biasReluMmScale16
  refine congrArg (· * d (ix2 (row i) (0 : Fin 1))) ?_
  refine Eq.trans ?_ ((congrArg (Host.dotGeneral Cert.ReferenceIdeal.dot_S100000x64_S64x16_S100000x16_1_0_0_1_n_n none (reluB a b) w16) (eq_row_col i)).trans
    (Cert.LibDotNN.dotGeneral_apply _ rfl none (reluB a b) w16 (row i) (col i))).symm
  refine Finset.sum_congr rfl fun k _ => ?_
  rw [reluB_apply]

end Cert.KernelIdeal.Bridge

end
-- ==== Proof.GatherRows.lean ====
/-
  Which node a row lookup picks.

  The programs look rows up by an edge list held as a one-column array of start indices: result row `e` of a lookup in a
  100000-row array is the operand's row at `idx[e, 0]`, read as a signed integer and clamped into the node range
  `[0, 99999]` (`pick`). It is the same row whether the operand has one element per node or 64 or 16 columns, and on a
  many-column operand the lookup leaves the column alone.
-/
import proofs.«174299_j5360119186060_2_alg».proof.Proof.Gen.ReferenceIdeal
import Idealize.ShloMosaic.Lib.ValueIdx

noncomputable section

namespace Cert.ReferenceIdeal.GatherRows

open Cert.ReferenceIdeal Cert.ReferenceIdeal.Gen Idealize.ShloMosaic Idealize.ShloMosaic.ValueIdx

/-- The node edge `e`'s start index picks: read signed, clamped into the node range. -/
def pick (idx : IVec S1700000x1 32) (e : Fin 1700000) : Fin 100000 :=
  ⟨min (idx (ix2 e (0 : Fin 1))).toInt.toNat 99999, by omega⟩

/-- A lookup in a one-element-per-node array reads, for edge `e`, the element of the picked node. -/
theorem operandIdx1 (idx : IVec S1700000x1 32) (e : Fin 1700000) :
    gather_S100000_S1700000x1_S1700000_n_0_n_n_0_1_1.operandIdx (ix1 e) idx = ix1 (pick idx e) := by
  funext a
  obtain rfl : a = 0 := Subsingleton.elim _ _
  refine Fin.ext ?_
  show gather_S100000_S1700000x1_S1700000_n_0_n_n_0_1_1.start (ix1 e) idx 0
      + gather_S100000_S1700000x1_S1700000_n_0_n_n_0_1_1.batchCoord (ix1 e) 0
      + gather_S100000_S1700000x1_S1700000_n_0_n_n_0_1_1.offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S100000_S1700000x1_S1700000_n_0_n_n_0_1_1.startIndexMap from List.mem_singleton.mpr rfl)]
  have hsi : gather_S100000_S1700000x1_S1700000_n_0_n_n_0_1_1.siIdx (ix1 e)
      ⟨List.idxOf (0 : Fin 1) gather_S100000_S1700000x1_S1700000_n_0_n_n_0_1_1.startIndexMap,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem operandIdx64_row (idx : IVec S1700000x1 32) (e : Fin 1700000) (f : Fin 64) :
    (gather_S100000x64_S1700000x1_S1700000x64_1_0_n_n_0_1_164.operandIdx (ix2 e f) idx (0 : Fin 2)).val = (pick idx e).val := by
  show gather_S100000x64_S1700000x1_S1700000x64_1_0_n_n_0_1_164.start (ix2 e f) idx 0 + gather_S100000x64_S1700000x1_S1700000x64_1_0_n_n_0_1_164.batchCoord (ix2 e f) 0 + gather_S100000x64_S1700000x1_S1700000x64_1_0_n_n_0_1_164.offCoord (ix2 e f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x64_S1700000x1_S1700000x64_1_0_n_n_0_1_164.startIndexMap from List.mem_singleton.mpr rfl)]
  have hsi : gather_S100000x64_S1700000x1_S1700000x64_1_0_n_n_0_1_164.siIdx (ix2 e f)
      ⟨List.idxOf (0 : Fin 2) gather_S100000x64_S1700000x1_S1700000x64_1_0_n_n_0_1_164.startIndexMap, List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem operandIdx64_col (idx : IVec S1700000x1 32) (e : Fin 1700000) (f : Fin 64) :
    (gather_S100000x64_S1700000x1_S1700000x64_1_0_n_n_0_1_164.operandIdx (ix2 e f) idx (1 : Fin 2)).val = f.val := by
  show gather_S100000x64_S1700000x1_S1700000x64_1_0_n_n_0_1_164.start (ix2 e f) idx 1 + gather_S100000x64_S1700000x1_S1700000x64_1_0_n_n_0_1_164.batchCoord (ix2 e f) 1 + gather_S100000x64_S1700000x1_S1700000x64_1_0_n_n_0_1_164.offCoord (ix2 e f) 1 = _
  rw [GatherDims.batchCoord_eq_zero _ _ _ List.not_mem_nil]
  unfold GatherDims.start GatherDims.offCoord
  rw [dif_neg (show ¬ (1 : Fin 2) ∈ gather_S100000x64_S1700000x1_S1700000x64_1_0_n_n_0_1_164.startIndexMap by decide), dif_pos (show (1 : Fin 2) ∈ gather_S100000x64_S1700000x1_S1700000x64_1_0_n_n_0_1_164.sKept by decide)]
  have hod : ∀ (k : Nat) (hk : k < gather_S100000x64_S1700000x1_S1700000x64_1_0_n_n_0_1_164.offsetDims.length), gather_S100000x64_S1700000x1_S1700000x64_1_0_n_n_0_1_164.offsetDims[k]'hk = (1 : Fin 2) := by
    intro k hk
    have hk' : k < 1 := hk
    obtain rfl : k = 0 := by omega
    rfl
  rw [hod]
  show 0 + 0 + f.val = f.val
  omega

/-- A lookup in a 64-column array reads, for edge `e` and column `f`, the picked node's row at that column. -/
theorem operandIdx64 (idx : IVec S1700000x1 32) (e : Fin 1700000) (f : Fin 64) :
    gather_S100000x64_S1700000x1_S1700000x64_1_0_n_n_0_1_164.operandIdx (ix2 e f) idx = ix2 (pick idx e) f :=
  funext fun a => Fin.ext (by
    match a with
    | ⟨0, _⟩ => exact operandIdx64_row idx e f
    | ⟨1, _⟩ => exact operandIdx64_col idx e f)

theorem operandIdx16_row (idx : IVec S1700000x1 32) (e : Fin 1700000) (f : Fin 16) :
    (gather_S100000x16_S1700000x1_S1700000x16_1_0_n_n_0_1_116.operandIdx (ix2 e f) idx (0 : Fin 2)).val = (pick idx e).val := by
  show gather_S100000x16_S1700000x1_S1700000x16_1_0_n_n_0_1_116.start (ix2 e f) idx 0 + gather_S100000x16_S1700000x1_S1700000x16_1_0_n_n_0_1_116.batchCoord (ix2 e f) 0 + gather_S100000x16_S1700000x1_S1700000x16_1_0_n_n_0_1_116.offCoord (ix2 e f) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S100000x16_S1700000x1_S1700000x16_1_0_n_n_0_1_116.startIndexMap from List.mem_singleton.mpr rfl)]
  have hsi : gather_S100000x16_S1700000x1_S1700000x16_1_0_n_n_0_1_116.siIdx (ix2 e f)
      ⟨List.idxOf (0 : Fin 2) gather_S100000x16_S1700000x1_S1700000x16_1_0_n_n_0_1_116.startIndexMap, List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem operandIdx16_col (idx : IVec S1700000x1 32) (e : Fin 1700000) (f : Fin 16) :
    (gather_S100000x16_S1700000x1_S1700000x16_1_0_n_n_0_1_116.operandIdx (ix2 e f) idx (1 : Fin 2)).val = f.val := by
  show gather_S100000x16_S1700000x1_S1700000x16_1_0_n_n_0_1_116.start (ix2 e f) idx 1 + gather_S100000x16_S1700000x1_S1700000x16_1_0_n_n_0_1_116.batchCoord (ix2 e f) 1 + gather_S100000x16_S1700000x1_S1700000x16_1_0_n_n_0_1_116.offCoord (ix2 e f) 1 = _
  rw [GatherDims.batchCoord_eq_zero _ _ _ List.not_mem_nil]
  unfold GatherDims.start GatherDims.offCoord
  rw [dif_neg (show ¬ (1 : Fin 2) ∈ gather_S100000x16_S1700000x1_S1700000x16_1_0_n_n_0_1_116.startIndexMap by decide), dif_pos (show (1 : Fin 2) ∈ gather_S100000x16_S1700000x1_S1700000x16_1_0_n_n_0_1_116.sKept by decide)]
  have hod : ∀ (k : Nat) (hk : k < gather_S100000x16_S1700000x1_S1700000x16_1_0_n_n_0_1_116.offsetDims.length), gather_S100000x16_S1700000x1_S1700000x16_1_0_n_n_0_1_116.offsetDims[k]'hk = (1 : Fin 2) := by
    intro k hk
    have hk' : k < 1 := hk
    obtain rfl : k = 0 := by omega
    rfl
  rw [hod]
  show 0 + 0 + f.val = f.val
  omega

/-- A lookup in a 16-column array reads, for edge `e` and column `f`, the picked node's row at that column. -/
theorem operandIdx16 (idx : IVec S1700000x1 32) (e : Fin 1700000) (f : Fin 16) :
    gather_S100000x16_S1700000x1_S1700000x16_1_0_n_n_0_1_116.operandIdx (ix2 e f) idx = ix2 (pick idx e) f :=
  funext fun a => Fin.ext (by
    match a with
    | ⟨0, _⟩ => exact operandIdx16_row idx e f
    | ⟨1, _⟩ => exact operandIdx16_col idx e f)

end Cert.ReferenceIdeal.GatherRows

end
-- ==== Proof.LayerSums.lean ====
/-
  A layer's sums in the kernel's arrangement are the reference's.

  Along every edge e, from node s to node t, and for every column f, the reference adds into node t the entry
  P[s, f] · (dis[s] · dis[t]) of the looked-up row times the edge's normalisation. The kernel has multiplied every node's
  row by dis at that node before the lookup and multiplies every edge's row by dis at the edge's destination after it,
  so it adds (P[s, f] · dis[s]) · dis[t]. The two are equal by associativity of the product, which holds on the extended
  reals with no finiteness hypothesis. The row lookups pick the same node in both (which node a start index picks does
  not depend on how many columns the operand has), the recasts of a one-axis array as a column and the repetitions of a
  per-edge array along columns only move entries, and the sums start from the same zeros and go to the same nodes.
-/
import proofs.«174299_j5360119186060_2_alg».proof.Proof.KernelStages
import proofs.«174299_j5360119186060_2_alg».proof.Proof.GatherRows
import Idealize.ShloMosaic.Lib.Pipeline.Value
import Idealize.ShloMosaic.Lib.ValueIdx

noncomputable section

namespace Cert.KernelIdeal.Bridge

open Cert.ReferenceIdeal.Stage Cert.KernelIdeal.GcnSpec Cert.KernelIdeal.KStage Cert.ReferenceIdeal.GatherRows
open Idealize.ShloMosaic Idealize.ShloMosaic.ValueIdx

/-! ## Moving entries: a one-axis array as a column, a per-edge array along columns -/

/-- A one-element-per-node array recast as a column reads, at (n, 0), the element of node n. -/
theorem node_col (d : FVec Ideal Cert.ReferenceIdeal.S100000 .f32) (h : Cert.ReferenceIdeal.S100000.ShapeCasts Cert.KernelIdeal.S100000x1) (n : Fin 100000) :
    shapeCast Cert.KernelIdeal.S100000x1 d h (ix2 n (0 : Fin 1)) = d (ix1 n) := by
  refine shapeCast_apply d _ (ix2 n (0 : Fin 1)) (ix1 n) ?_
  rw [Shape.rowMajor_val_one, Shape.rowMajor_val_two]
  show n.val = n.val * 1 + 0
  omega

/-- A one-element-per-edge array recast as a column reads, at (e, 0), the element of edge e. -/
theorem edge_col (g : FVec Ideal Cert.ReferenceIdeal.S1700000 .f32) (h : Cert.ReferenceIdeal.S1700000.ShapeCasts Cert.KernelIdeal.S1700000x1) (e : Fin 1700000) :
    shapeCast Cert.KernelIdeal.S1700000x1 g h (ix2 e (0 : Fin 1)) = g (ix1 e) := by
  refine shapeCast_apply g _ (ix2 e (0 : Fin 1)) (ix1 e) ?_
  rw [Shape.rowMajor_val_one, Shape.rowMajor_val_two]
  show e.val = e.val * 1 + 0
  omega

/-- A one-element-per-edge array repeated along 64 columns reads, at (e, f), the element of edge e. -/
theorem edge_rep64 (g : FVec Ideal Cert.ReferenceIdeal.S1700000 .f32)
    (h1 : Cert.ReferenceIdeal.S1700000.BroadcastsInDim Cert.ReferenceIdeal.S1700000x1 (![0] : Fin 1 → Fin Cert.ReferenceIdeal.S1700000x1.rank))
    (h2 : Cert.ReferenceIdeal.S1700000x1.BroadcastsInDim Cert.ReferenceIdeal.S1700000x64 (![0, 1] : Fin 2 → Fin Cert.ReferenceIdeal.S1700000x64.rank))
    (e : Fin 1700000) (f : Fin 64) :
    broadcastInDim Cert.ReferenceIdeal.S1700000x64 ![0, 1] h2 (broadcastInDim Cert.ReferenceIdeal.S1700000x1 ![0] h1 g) (ix2 e f) = g (ix1 e) := by
  refine (broadcastInDim_apply _ _ _ (ix2 e f) (ix2 e (0 : Fin 1)) fun a => ?_).trans
    (broadcastInDim_apply _ _ g (ix2 e (0 : Fin 1)) (ix1 e) fun a => ?_)
  · match a with
    | ⟨0, _⟩ => show e.val = if (1700000 : Nat) = 1 then 0 else e.val; rw [if_neg (by decide)]
    | ⟨1, _⟩ => show 0 = if (1 : Nat) = 1 then 0 else _; rw [if_pos rfl]
  · match a with
    | ⟨0, _⟩ => show e.val = if (1700000 : Nat) = 1 then 0 else e.val; rw [if_neg (by decide)]

/-- A one-element-per-edge array repeated along 16 columns reads, at (e, f), the element of edge e. -/
theorem edge_rep16 (g : FVec Ideal Cert.ReferenceIdeal.S1700000 .f32)
    (h1 : Cert.ReferenceIdeal.S1700000.BroadcastsInDim Cert.ReferenceIdeal.S1700000x1 (![0] : Fin 1 → Fin Cert.ReferenceIdeal.S1700000x1.rank))
    (h2 : Cert.ReferenceIdeal.S1700000x1.BroadcastsInDim Cert.ReferenceIdeal.S1700000x16 (![0, 1] : Fin 2 → Fin Cert.ReferenceIdeal.S1700000x16.rank))
    (e : Fin 1700000) (f : Fin 16) :
    broadcastInDim Cert.ReferenceIdeal.S1700000x16 ![0, 1] h2 (broadcastInDim Cert.ReferenceIdeal.S1700000x1 ![0] h1 g) (ix2 e f) = g (ix1 e) := by
  refine (broadcastInDim_apply _ _ _ (ix2 e f) (ix2 e (0 : Fin 1)) fun a => ?_).trans
    (broadcastInDim_apply _ _ g (ix2 e (0 : Fin 1)) (ix1 e) fun a => ?_)
  · match a with
    | ⟨0, _⟩ => show e.val = if (1700000 : Nat) = 1 then 0 else e.val; rw [if_neg (by decide)]
    | ⟨1, _⟩ => show 0 = if (1 : Nat) = 1 then 0 else _; rw [if_pos rfl]
  · match a with
    | ⟨0, _⟩ => show e.val = if (1700000 : Nat) = 1 then 0 else e.val; rw [if_neg (by decide)]

/-! ## One edge's row entry, and the sums -/

/-- One edge's row entry in the two arrangements. With s and t the nodes edge e's two start indices pick, the kernel's
    message at (e, f) is (P[s, f] · d[s]) · d[t] — the node's row scaled before the lookup, the edge's row after it — and
    the reference's is P[s, f] · (d[s] · d[t]): equal because the product of extended reals is associative, with no
    finiteness asked. -/
theorem message64 (P : FVec Ideal Cert.ReferenceIdeal.S100000x64 .f32) (d : FVec Ideal Cert.ReferenceIdeal.S100000 .f32) (si di : IVec Cert.ReferenceIdeal.S1700000x1 32)
    (hn : Cert.ReferenceIdeal.S100000.ShapeCasts Cert.KernelIdeal.S100000x1) (he : Cert.ReferenceIdeal.S1700000.ShapeCasts Cert.KernelIdeal.S1700000x1)
    (h1 : Cert.ReferenceIdeal.S1700000.BroadcastsInDim Cert.ReferenceIdeal.S1700000x1 (![0] : Fin 1 → Fin Cert.ReferenceIdeal.S1700000x1.rank))
    (h2 : Cert.ReferenceIdeal.S1700000x1.BroadcastsInDim Cert.ReferenceIdeal.S1700000x64 (![0, 1] : Fin 2 → Fin Cert.ReferenceIdeal.S1700000x64.rank))
    (e : Fin 1700000) (f : Fin 64) :
    scaleRows64
        (Host.gather Cert.ReferenceIdeal.gather_S100000x64_S1700000x1_S1700000x64_1_0_n_n_0_1_164 (fun i => P i * shapeCast Cert.KernelIdeal.S100000x1 d hn (ix2 (row i) (0 : Fin 1))) si)
        (shapeCast Cert.KernelIdeal.S1700000x1 (Host.gather Cert.ReferenceIdeal.gather_S100000_S1700000x1_S1700000_n_0_n_n_0_1_1 d di) he) (ix2 e f)
      = mulf (Host.gather Cert.ReferenceIdeal.gather_S100000x64_S1700000x1_S1700000x64_1_0_n_n_0_1_164 P si)
          (broadcastInDim Cert.ReferenceIdeal.S1700000x64 ![0, 1] h2 (broadcastInDim Cert.ReferenceIdeal.S1700000x1 ![0] h1
            (mulf (Host.gather Cert.ReferenceIdeal.gather_S100000_S1700000x1_S1700000_n_0_n_n_0_1_1 d si) (Host.gather Cert.ReferenceIdeal.gather_S100000_S1700000x1_S1700000_n_0_n_n_0_1_1 d di)))) (ix2 e f) := by
  have hK : scaleRows64
        (Host.gather Cert.ReferenceIdeal.gather_S100000x64_S1700000x1_S1700000x64_1_0_n_n_0_1_164 (fun i => P i * shapeCast Cert.KernelIdeal.S100000x1 d hn (ix2 (row i) (0 : Fin 1))) si)
        (shapeCast Cert.KernelIdeal.S1700000x1 (Host.gather Cert.ReferenceIdeal.gather_S100000_S1700000x1_S1700000_n_0_n_n_0_1_1 d di) he) (ix2 e f)
      = P (ix2 (pick si e) f) * d (ix1 (pick si e)) * d (ix1 (pick di e)) := by
    unfold scaleRows64
    show Host.gather Cert.ReferenceIdeal.gather_S100000x64_S1700000x1_S1700000x64_1_0_n_n_0_1_164 (fun i => P i * shapeCast Cert.KernelIdeal.S100000x1 d hn (ix2 (row i) (0 : Fin 1))) si (ix2 e f)
        * shapeCast Cert.KernelIdeal.S1700000x1 (Host.gather Cert.ReferenceIdeal.gather_S100000_S1700000x1_S1700000_n_0_n_n_0_1_1 d di) he (ix2 e (0 : Fin 1)) = _
    rw [edge_col]
    unfold Host.gather
    rw [operandIdx64, operandIdx1]
    show P (ix2 (pick si e) f) * shapeCast Cert.KernelIdeal.S100000x1 d hn (ix2 (pick si e) (0 : Fin 1)) * d (ix1 (pick di e)) = _
    rw [node_col]
  have hR : mulf (Host.gather Cert.ReferenceIdeal.gather_S100000x64_S1700000x1_S1700000x64_1_0_n_n_0_1_164 P si)
          (broadcastInDim Cert.ReferenceIdeal.S1700000x64 ![0, 1] h2 (broadcastInDim Cert.ReferenceIdeal.S1700000x1 ![0] h1
            (mulf (Host.gather Cert.ReferenceIdeal.gather_S100000_S1700000x1_S1700000_n_0_n_n_0_1_1 d si) (Host.gather Cert.ReferenceIdeal.gather_S100000_S1700000x1_S1700000_n_0_n_n_0_1_1 d di)))) (ix2 e f)
      = P (ix2 (pick si e) f) * (d (ix1 (pick si e)) * d (ix1 (pick di e))) := by
    refine (mulf_apply _ _ _).trans ?_
    rw [edge_rep64]
    refine (congrArg (_ * ·) (mulf_apply _ _ _)).trans ?_
    unfold Host.gather
    rw [operandIdx64, operandIdx1, operandIdx1]
  rw [hK, hR, mul_assoc]

/-- A LAYER'S SUMS OVER 64 COLUMNS in the kernel's arrangement, fed the rows already scaled per node, are the
    reference's sums of the unscaled rows: both add the same per-edge rows into the same nodes, and the rows agree entry by
    entry (`message64`). -/
theorem kAgg64_eq (P : FVec Ideal Cert.KernelIdeal.S100000x64 .f32) (x1 : IVec Cert.ReferenceIdeal.S2x1600000 32) :
    kAgg64 (fun i => P i * disCol x1 (ix2 (row i) (0 : Fin 1))) x1 = refAgg64 P x1 := by
  unfold kAgg64 refAgg64
  show Host.scatterAdd Cert.ReferenceIdeal.scatter_S100000x64_S1700000x1_S1700000x64_1_0_0_1 zeros64 (dstIdx x1) _ = Host.scatterAdd Cert.ReferenceIdeal.scatter_S100000x64_S1700000x1_S1700000x64_1_0_0_1 zeros64 (dstIdx x1) _
  refine congrArg (Host.scatterAdd Cert.ReferenceIdeal.scatter_S100000x64_S1700000x1_S1700000x64_1_0_0_1 zeros64 (dstIdx x1)) ?_
  funext j
  obtain ⟨e, f, rfl⟩ : ∃ (e : Fin 1700000) (f : Fin 64), j = ix2 e f := ⟨j 0, j 1, eq_ix2 j⟩
  unfold dstScale normB64 Cert.ReferenceIdeal.Stage.norm disCol
  generalize dis x1 = d
  generalize srcIdx x1 = si
  generalize dstNIdx x1 = di
  exact message64 P d si di _ _ _ _ e f

/-- One edge's row entry in the two arrangements. With s and t the nodes edge e's two start indices pick, the kernel's
    message at (e, f) is (P[s, f] · d[s]) · d[t] — the node's row scaled before the lookup, the edge's row after it — and
    the reference's is P[s, f] · (d[s] · d[t]): equal because the product of extended reals is associative, with no
    finiteness asked. -/
theorem message16 (P : FVec Ideal Cert.ReferenceIdeal.S100000x16 .f32) (d : FVec Ideal Cert.ReferenceIdeal.S100000 .f32) (si di : IVec Cert.ReferenceIdeal.S1700000x1 32)
    (hn : Cert.ReferenceIdeal.S100000.ShapeCasts Cert.KernelIdeal.S100000x1) (he : Cert.ReferenceIdeal.S1700000.ShapeCasts Cert.KernelIdeal.S1700000x1)
    (h1 : Cert.ReferenceIdeal.S1700000.BroadcastsInDim Cert.ReferenceIdeal.S1700000x1 (![0] : Fin 1 → Fin Cert.ReferenceIdeal.S1700000x1.rank))
    (h2 : Cert.ReferenceIdeal.S1700000x1.BroadcastsInDim Cert.ReferenceIdeal.S1700000x16 (![0, 1] : Fin 2 → Fin Cert.ReferenceIdeal.S1700000x16.rank))
    (e : Fin 1700000) (f : Fin 16) :
    scaleRows16
        (Host.gather Cert.ReferenceIdeal.gather_S100000x16_S1700000x1_S1700000x16_1_0_n_n_0_1_116 (fun i => P i * shapeCast Cert.KernelIdeal.S100000x1 d hn (ix2 (row i) (0 : Fin 1))) si)
        (shapeCast Cert.KernelIdeal.S1700000x1 (Host.gather Cert.ReferenceIdeal.gather_S100000_S1700000x1_S1700000_n_0_n_n_0_1_1 d di) he) (ix2 e f)
      = mulf (Host.gather Cert.ReferenceIdeal.gather_S100000x16_S1700000x1_S1700000x16_1_0_n_n_0_1_116 P si)
          (broadcastInDim Cert.ReferenceIdeal.S1700000x16 ![0, 1] h2 (broadcastInDim Cert.ReferenceIdeal.S1700000x1 ![0] h1
            (mulf (Host.gather Cert.ReferenceIdeal.gather_S100000_S1700000x1_S1700000_n_0_n_n_0_1_1 d si) (Host.gather Cert.ReferenceIdeal.gather_S100000_S1700000x1_S1700000_n_0_n_n_0_1_1 d di)))) (ix2 e f) := by
  have hK : scaleRows16
        (Host.gather Cert.ReferenceIdeal.gather_S100000x16_S1700000x1_S1700000x16_1_0_n_n_0_1_116 (fun i => P i * shapeCast Cert.KernelIdeal.S100000x1 d hn (ix2 (row i) (0 : Fin 1))) si)
        (shapeCast Cert.KernelIdeal.S1700000x1 (Host.gather Cert.ReferenceIdeal.gather_S100000_S1700000x1_S1700000_n_0_n_n_0_1_1 d di) he) (ix2 e f)
      = P (ix2 (pick si e) f) * d (ix1 (pick si e)) * d (ix1 (pick di e)) := by
    unfold scaleRows16
    show Host.gather Cert.ReferenceIdeal.gather_S100000x16_S1700000x1_S1700000x16_1_0_n_n_0_1_116 (fun i => P i * shapeCast Cert.KernelIdeal.S100000x1 d hn (ix2 (row i) (0 : Fin 1))) si (ix2 e f)
        * shapeCast Cert.KernelIdeal.S1700000x1 (Host.gather Cert.ReferenceIdeal.gather_S100000_S1700000x1_S1700000_n_0_n_n_0_1_1 d di) he (ix2 e (0 : Fin 1)) = _
    rw [edge_col]
    unfold Host.gather
    rw [operandIdx16, operandIdx1]
    show P (ix2 (pick si e) f) * shapeCast Cert.KernelIdeal.S100000x1 d hn (ix2 (pick si e) (0 : Fin 1)) * d (ix1 (pick di e)) = _
    rw [node_col]
  have hR : mulf (Host.gather Cert.ReferenceIdeal.gather_S100000x16_S1700000x1_S1700000x16_1_0_n_n_0_1_116 P si)
          (broadcastInDim Cert.ReferenceIdeal.S1700000x16 ![0, 1] h2 (broadcastInDim Cert.ReferenceIdeal.S1700000x1 ![0] h1
            (mulf (Host.gather Cert.ReferenceIdeal.gather_S100000_S1700000x1_S1700000_n_0_n_n_0_1_1 d si) (Host.gather Cert.ReferenceIdeal.gather_S100000_S1700000x1_S1700000_n_0_n_n_0_1_1 d di)))) (ix2 e f)
      = P (ix2 (pick si e) f) * (d (ix1 (pick si e)) * d (ix1 (pick di e))) := by
    refine (mulf_apply _ _ _).trans ?_
    rw [edge_rep16]
    refine (congrArg (_ * ·) (mulf_apply _ _ _)).trans ?_
    unfold Host.gather
    rw [operandIdx16, operandIdx1, operandIdx1]
  rw [hK, hR, mul_assoc]

/-- A LAYER'S SUMS OVER 16 COLUMNS in the kernel's arrangement, fed the rows already scaled per node, are the
    reference's sums of the unscaled rows: both add the same per-edge rows into the same nodes, and the rows agree entry by
    entry (`message16`). -/
theorem kAgg16_eq (P : FVec Ideal Cert.KernelIdeal.S100000x16 .f32) (x1 : IVec Cert.ReferenceIdeal.S2x1600000 32) :
    kAgg16 (fun i => P i * disCol x1 (ix2 (row i) (0 : Fin 1))) x1 = refAgg16 P x1 := by
  unfold kAgg16 refAgg16
  show Host.scatterAdd Cert.ReferenceIdeal.scatter_S100000x16_S1700000x1_S1700000x16_1_0_0_1 zeros16 (dstIdx x1) _ = Host.scatterAdd Cert.ReferenceIdeal.scatter_S100000x16_S1700000x1_S1700000x16_1_0_0_1 zeros16 (dstIdx x1) _
  refine congrArg (Host.scatterAdd Cert.ReferenceIdeal.scatter_S100000x16_S1700000x1_S1700000x16_1_0_0_1 zeros16 (dstIdx x1)) ?_
  funext j
  obtain ⟨e, f, rfl⟩ : ∃ (e : Fin 1700000) (f : Fin 16), j = ix2 e f := ⟨j 0, j 1, eq_ix2 j⟩
  unfold dstScale normB16 Cert.ReferenceIdeal.Stage.norm disCol
  generalize dis x1 = d
  generalize srcIdx x1 = si
  generalize dstNIdx x1 = di
  exact message16 P d si di _ _ _ _ e f

end Cert.KernelIdeal.Bridge

end
-- ==== Proof.NetworkEq.lean ====
/-
  The two arrangements of the network are one function of the argument arrays.

  Layer by layer: a layer's node features in the kernel's arrangement are the reference's matrix product of the same
  operand, every row times `dis` at its node; and the kernel's sum over edges of such pre-scaled rows, each scaled again by
  `dis` at the edge's destination, is the reference's sum of the unscaled rows times `dis[src] · dis[dst]` — the product of
  three extended reals bracketed the other way. So the first layer's sums agree; then the second layer's operands agree, and
  its sums; and so on through the fourth.
-/
import proofs.«174299_j5360119186060_2_alg».proof.Proof.DotForms
import proofs.«174299_j5360119186060_2_alg».proof.Proof.LayerSums

set_option maxRecDepth 16384

noncomputable section

namespace Cert.KernelIdeal.Bridge

open Cert.ReferenceIdeal.Stage Cert.KernelIdeal.GcnSpec Cert.KernelIdeal.KStage
open Idealize.ShloMosaic Idealize.ShloMosaic.ValueIdx

/-- The kernel's network and the reference's are equal at every argument. -/
theorem kernelOut_eq (x0 : FVec Ideal Cert.ReferenceIdeal.S100000x64 .f32) (x1 : IVec Cert.ReferenceIdeal.S2x1600000 32)
    (x2 : FVec Ideal Cert.ReferenceIdeal.S64x64 .f32) (x3 : FVec Ideal Cert.ReferenceIdeal.S64 .f32)
    (x4 : FVec Ideal Cert.ReferenceIdeal.S2x64x64 .f32) (x5 : FVec Ideal Cert.ReferenceIdeal.S2x64 .f32)
    (x6 : FVec Ideal Cert.ReferenceIdeal.S64x16 .f32) (x7 : FVec Ideal Cert.ReferenceIdeal.S16 .f32) :
    kernelOut x0 x1 x2 x3 x4 x5 x6 x7 = refOut x0 x1 x2 x3 x4 x5 x6 x7 := by
  unfold kernelOut refOut
  rw [mmScale_eq, kAgg64_eq]
  rw [biasReluMmScale64_eq, kAgg64_eq]
  rw [biasReluMmScale64_eq, kAgg64_eq]
  rw [biasReluMmScale16_eq, kAgg16_eq]

end Cert.KernelIdeal.Bridge

end
-- ==== Proof.lean ====
/-
  The certificate of a four-layer graph convolution against its reference.

  Both programs compute, over 100000 nodes and 1700000 edges (the given ones and a self loop per node), four rounds of
  "multiply the node features by a weight matrix, send every edge's source row to its destination scaled by
  `dis[src] · dis[dst]`, add up what arrives, add a bias", with negative entries replaced by zero between rounds; `dis` is
  the inverse square root of a node's number of arriving edges. The kernel splits the scaling — `dis[src]` once per node
  inside the matrix-product kernels, `dis[dst]` once per edge inside the row-scaling kernels — and takes its products through
  a narrower float format, which at the exact values is no change. Over the extended reals the two arrangements differ by the
  bracketing of a product of three factors, and the product there is associative: no finiteness of the inputs is used.

  The frames of the two kernel programs are the generated ones; the reference's is its run with the result dropped. The
  idealization rewrote nothing, so it is preserved trivially. For the value claim the kernel's run ends with the result buffer
  at the last boundary of the program's fold, which is the kernel's network of the launch contents; the reference's run ends
  at the reference's network of its launch contents; the launch contents agree and the networks are one function.
-/
import proofs.«174299_j5360119186060_2_alg».proof.Defs
import proofs.«174299_j5360119186060_2_alg».proof.Proof.Gen.Kernel
import proofs.«174299_j5360119186060_2_alg».proof.Proof.Gen.Kernel.Skeleton
import proofs.«174299_j5360119186060_2_alg».proof.Proof.Gen.Kernel.Launch
import proofs.«174299_j5360119186060_2_alg».proof.Proof.Gen.Kernel.Points
import proofs.«174299_j5360119186060_2_alg».proof.Proof.Gen.Kernel.Frame
import proofs.«174299_j5360119186060_2_alg».proof.Proof.Gen.KernelIdeal
import proofs.«174299_j5360119186060_2_alg».proof.Proof.Gen.KernelIdeal.Skeleton
import proofs.«174299_j5360119186060_2_alg».proof.Proof.Gen.KernelIdeal.Launch
import proofs.«174299_j5360119186060_2_alg».proof.Proof.Gen.KernelIdeal.Points
import proofs.«174299_j5360119186060_2_alg».proof.Proof.Gen.KernelIdeal.Frame
import proofs.«174299_j5360119186060_2_alg».proof.Proof.Gen.ReferenceIdeal
import proofs.«174299_j5360119186060_2_alg».proof.Proof.Gen.Pre_finite_inputs
import proofs.«174299_j5360119186060_2_alg».proof.Proof.KernelRun
import proofs.«174299_j5360119186060_2_alg».proof.Proof.FoldValues
import proofs.«174299_j5360119186060_2_alg».proof.Proof.RefStages
import proofs.«174299_j5360119186060_2_alg».proof.Proof.NetworkEq
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the network of those arguments in their result. -/
theorem algebraic : Cert.algebraic_KernelIdeal_ReferenceIdeal := by
  intro m ρ m' ρ' _ hagree
  refine ⟨fun c => Cert.KernelIdeal.KStage.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.KFold.result_eq m ρ c), (h c).2⟩)
      (Cert.KernelIdeal.KRun.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Stage.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.KernelIdeal.Bridge.kernelOut_eq _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
